-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S1 : Shape := ⟨1, ![1]⟩
abbrev S256x256 : Shape := ⟨2, ![256, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S256 .f32) (main_arg6 : FVec F S256x512 .f32) (main_arg7 : FVec F S512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8192x256 .f32) (main_arg1 : IVec S8192 32) (main_arg2 : FVec F S1 .f32) (main_arg3 : FVec F S1 .f32) (main_arg4 : FVec F S256x256 .f32) (main_arg5 : FVec F S256 .f32) (main_arg6 : FVec F S256x512 .f32) (main_arg7 : FVec F S512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S8192x256 : Shape := ⟨2, ![8192, 256]⟩
abbrev S8192 : Shape := ⟨1, ![8192]⟩
abbrev S1 : Shape := ⟨1, ![1]⟩
abbrev S256x256 : Shape := ⟨2, ![256, 256]⟩
abbrev S256 : Shape := ⟨1, ![256]⟩
abbrev S256x512 : Shape := ⟨2, ![256, 512]⟩
abbrev S512 : Shape := ⟨1, ![512]⟩
abbrev S_ : Shape := ⟨0, ![]⟩
abbrev S8192x1 : Shape := ⟨2, ![8192, 1]⟩
abbrev S1x8192 : Shape := ⟨2, ![1, 8192]⟩
abbrev S1x1 : Shape := ⟨2, ![1, 1]⟩
abbrev S1x256 : Shape := ⟨2, ![1, 256]⟩
abbrev S1x512 : Shape := ⟨2, ![1, 512]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩
abbrev S1024x512 : Shape := ⟨2, ![1024, 512]⟩

abbrev nBuf : Space → Nat
  | .hbm => 27
  | .vmem => 22
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1, .f32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S8192x256, .bf16⟩
  | .hbm, ⟨19, _⟩ => ⟨S8192x256, .bf16⟩
  | .hbm, ⟨20, _⟩ => ⟨S8192x1, .i32⟩
  | .hbm, ⟨21, _⟩ => ⟨S1x8192, .i32⟩
  | .hbm, ⟨22, _⟩ => ⟨S1x1, .f32⟩
  | .hbm, ⟨23, _⟩ => ⟨S1x1, .f32⟩
  | .hbm, ⟨24, _⟩ => ⟨S1x256, .f32⟩
  | .hbm, ⟨25, _⟩ => ⟨S1x512, .f32⟩
  | .hbm, ⟨26, _⟩ => ⟨S8192x256, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .bf16⟩
  | .local _ .vmem, ⟨7, _⟩ => ⟨S1024x256, .bf16⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1x1, .f32⟩
  | .local _ .vmem, ⟨13, _⟩ => ⟨S1x1, .f32⟩
  | .local _ .vmem, ⟨14, _⟩ => ⟨S256x256, .f32⟩
  | .local _ .vmem, ⟨15, _⟩ => ⟨S1x256, .f32⟩
  | .local _ .vmem, ⟨16, _⟩ => ⟨S256x512, .f32⟩
  | .local _ .vmem, ⟨17, _⟩ => ⟨S1x512, .f32⟩
  | .local _ .vmem, ⟨18, _⟩ => ⟨S1024x256, .f32⟩
  | .local _ .vmem, ⟨19, _⟩ => ⟨S1024x256, .f32⟩
  | .local _ .vmem, ⟨20, _⟩ => ⟨S1024x1, .f32⟩
  | .local _ .vmem, ⟨21, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v65 : BitVec 1 := Scalar.cmpi .eq arg1 c7_i32
  let v66 : BitVec 32 := Scalar.extui v65
  let c0_i32_31 : BitVec 32 := 0#32
  let v67 : BitVec 1 := Scalar.cmpi .ne v66 c0_i32_31
  v67

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  shapeCasts_S1_S1x1 : S1.ShapeCasts S1x1
  shapeCasts_S256_S1x256 : S256.ShapeCasts S1x256
  shapeCasts_S512_S1x512 : S512.ShapeCasts S1x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1024 : S1x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  slices_S1024x512_o0_0_S1024x256 : S1024x512.Slices ![0, 0] S1024x256
  slices_S1024x512_o0_256_S1024x256 : S1024x512.Slices ![0, 256] S1024x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  dot_S1024x256_S256x256_S1024x256_1_0_0_1_n_n_wf : DotDims.WF S1024x256 S256x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .f32 = 32 ∨ (Rect.block (s := S8192x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x256.size a
  hwx0_3 : ∀ i : grid0.Coords, EltTy.bits .bf16 = 32 ∨ (Rect.block (s := S8192x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x512.size a ≤ S256x512.size a
  hwx0_10 : ∀ i : grid0.Coords, EltTy.bits .f32 = 32 ∨ (Rect.block (s := S256x512) S256x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S8192x256.size a
  hwx0_12 : ∀ i : grid0.Coords, EltTy.bits .f32 = 32 ∨ (Rect.block (s := S8192x256) S1024x256.size (cc0_transform_12 i) (hinb0_12 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S256x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v13) S1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k0_cond2 i == 1#1) | ⟨_ + 13, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S1 : Shape := ⟨1, ![1]⟩
abbrev S256x256 : Shape := ⟨2, ![256, 256]⟩
abbrev S256 : Shape := ⟨1, ![256]⟩
abbrev S256x512 : Shape := ⟨2, ![256, 512]⟩
abbrev S512 : Shape := ⟨1, ![512]⟩
abbrev S_ : Shape := ⟨0, ![]⟩
abbrev S8192x1 : Shape := ⟨2, ![8192, 1]⟩
abbrev S256x8192 : Shape := ⟨2, ![256, 8192]⟩
abbrev S8192x8192 : Shape := ⟨2, ![8192, 8192]⟩
abbrev S1x8192 : Shape := ⟨2, ![1, 8192]⟩
abbrev S1x1 : Shape := ⟨2, ![1, 1]⟩
abbrev S1x256 : Shape := ⟨2, ![1, 256]⟩
abbrev S8192x512 : Shape := ⟨2, ![8192, 512]⟩
abbrev S1x512 : Shape := ⟨2, ![1, 512]⟩

abbrev nBuf : Space → Nat
  | .hbm => 89
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S1, .f32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x256, .f32⟩
  | .hbm, ⟨17, _⟩ => ⟨S8192x256, .f32⟩
  | .hbm, ⟨18, _⟩ => ⟨S256x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S8192x8192, .i1⟩
  | .hbm, ⟨31, _⟩ => ⟨S8192x8192, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S_, .f32⟩
  | .hbm, ⟨38, _⟩ => ⟨S1, .f32⟩
  | .hbm, ⟨39, _⟩ => ⟨S1, .f32⟩
  | .hbm, ⟨40, _⟩ => ⟨S1x1, .f32⟩
  | .hbm, ⟨41, _⟩ => ⟨S8192x8192, .f32⟩
  | .hbm, ⟨42, _⟩ => ⟨S8192x8192, .f32⟩
  | .hbm, ⟨43, _⟩ => ⟨S1x1, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S_, .f32⟩
  | .hbm, ⟨52, _⟩ => ⟨S8192x8192, .f32⟩
  | .hbm, ⟨53, _⟩ => ⟨S8192x8192, .f32⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x8192, .f32⟩
  | .hbm, ⟨65, _⟩ => ⟨S8192x8192, .f32⟩
  | .hbm, ⟨66, _⟩ => ⟨S8192x256, .f32⟩
  | .hbm, ⟨67, _⟩ => ⟨S8192x256, .f32⟩
  | .hbm, ⟨68, _⟩ => ⟨S1x256, .f32⟩
  | .hbm, ⟨69, _⟩ => ⟨S8192x256, .f32⟩
  | .hbm, ⟨70, _⟩ => ⟨S8192x256, .f32⟩
  | .hbm, ⟨71, _⟩ => ⟨S_, .f32⟩
  | .hbm, ⟨72, _⟩ => ⟨S8192x256, .f32⟩
  | .hbm, ⟨73, _⟩ => ⟨S8192x256, .f32⟩
  | .hbm, ⟨74, _⟩ => ⟨S8192x512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S8192x256, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S8192x1, .f32⟩
  | .hbm, ⟨86, _⟩ => ⟨S8192x256, .f32⟩
  | .hbm, ⟨87, _⟩ => ⟨S8192x256, .f32⟩
  | .hbm, ⟨88, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_2 : Ref sig .tc := ⟨.hbm, 48, rfl⟩
abbrev main_v27 : Ref sig .tc := ⟨.hbm, 49, rfl⟩
abbrev main_v28 : Ref sig .tc := ⟨.hbm, 50, rfl⟩
abbrev main_cst_3 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_call2_v0 : Ref sig .tc := ⟨.hbm, 55, rfl⟩
abbrev main_call2_v1 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_cst_6 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_call3_cst : Ref sig .tc := ⟨.hbm, 71, rfl⟩
abbrev main_call3_v0 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  transposes_S8192x256_S256x8192_1_0 : S8192x256.Transposes [1, 0] S256x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S1 : S_.BroadcastsInDim S1 (![] : Fin 0 → Fin S1.rank)
  bcast_S1_S1x1_1 : S1.BroadcastsInDim S1x1 (![1] : Fin 1 → Fin S1x1.rank)
  bcast_S1x1_S8192x8192_0_1 : S1x1.BroadcastsInDim S8192x8192 (![0, 1] : Fin 2 → Fin S8192x8192.rank)
  reducesTo_S8192x8192_S8192_d1 : S8192x8192.ReducesTo [1] S8192
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  slices_S8192x512_S8192x256_0_0 : S8192x512.Slices ![0, 0] S8192x256
  slices_S8192x512_S8192x256_0_256 : S8192x512.Slices ![0, 256] S8192x256
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x256_S256x256_S8192x256_1_0_0_1_n_n_wf : DotDims.WF S8192x256 S256x256 S8192x256 [1] [0] [0] [1] [] []
  dot_S8192x256_S256x512_S8192x512_1_0_0_1_n_n_wf : DotDims.WF S8192x256 S256x512 S8192x512 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf

class Facts : Prop extends Facts₀ where

variable [Facts]
-- ==== Proof.FrameBase.lean ====
/-
  What the per-case runs of the kernel body and the launch share.

  The program is: two stretches of host operations (the row norms; the normalized rows, the two format changes and
  the reshapes), then one region over an 8 × 8 grid whose second axis is the reduction axis. The arrays as the region
  finds them are the launch memory after the host operations. Every input window's staging buffer holds, at every
  point, that window's block of its array, whether or not the point fetched it. The body's two branches depend on
  the second grid coordinate only: the first is taken at its first value (the two accumulators are cleared), the second
  at its last (the row block is finished and stored); the output window is idle, and not written back, elsewhere.
-/
import proofs.«162713_j40484361732478_2_alg».proof.Proof.Gen.KernelIdeal.Launch
import proofs.«162713_j40484361732478_2_alg».proof.Proof.Gen.KernelIdeal.Skeleton
import proofs.«162713_j40484361732478_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch memory after the two stretches of host operations. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program reduces to the region entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] ⟨hostOps0_sub, hostOps0_1_sub⟩ ⟨hostOps0_fresh, hostOps0_1_fresh⟩
    (fun c => main_chain c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition: the second grid coordinate is zero. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- The second branch's condition: the second grid coordinate is seven. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
theorem liveAt_9 : ∀ t : Fin cfg0.N, cfg0.idle 9 (grid0.coords t) = false := by decide +kernel
theorem liveAt_10 : ∀ t : Fin cfg0.N, cfg0.idle 10 (grid0.coords t) = false := by decide +kernel
theorem liveAt_11 : ∀ t : Fin cfg0.N, cfg0.idle 11 (grid0.coords t) = false := by decide +kernel
/-- Where the second branch is not taken the output window is idle and is not written back. -/
theorem idleAt_12 : ∀ t : Fin cfg0.N, ¬cond1 (grid0.coords t) → cfg0.idle 12 (grid0.coords t) = true := by decide +kernel
theorem noFlush_12 : ∀ t : Fin cfg0.N, ¬cond1 (grid0.coords t) → (cfg0.win 12).flush t = false := by decide +kernel
theorem liveAt_12 : ∀ t : Fin cfg0.N, cond1 (grid0.coords t) → cfg0.idle 12 (grid0.coords t) = false := by decide +kernel

/-! ## The staging and scratch memrefs -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x256 .f32 := win0_12.stage (cfg0.slots t 12)
abbrev hs12 (t : Fin cfg0.N) : (ms12 t).IsWhole := hstage0_12 ((cfg0.slots t 12).cast nbuf0_12)
/-- The two accumulators: the row sums and the weighted sums. -/
abbrev scM0 : Memref sig .tc .vmem S1024x1 .f32 := Memref.whole cc0_scratch0
abbrev scM1 : Memref sig .tc .vmem S1024x256 .f32 := Memref.whole cc0_scratch1
abbrev VO12 : View sig .tc .vmem S1024x256 .f32 := (Memref.whole cc0_stg12_0 : Memref sig .tc .vmem S1024x256 .f32).view
abbrev VS0 : View sig .tc .vmem S1024x1 .f32 := scM0.view
abbrev VS1 : View sig .tc .vmem S1024x256 .f32 := scM1.view

/-- The region's invariant before the first point: the two accumulators at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.KernelIdeal.Fr

end
-- ==== Proof.FrameRunB.lean ====
/-
  The kernel body run once, on any whole staging memrefs, in the case where the first branch is not taken and the
  second is not taken: the input buffers come back as they were, the output buffer untouched,
  the two accumulators with what the body stored into them.
-/
import proofs.«162713_j40484361732478_2_alg».proof.Proof.FrameBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    Σ' (L12 : List (View.Piece (Elt F) S1024x256 .f32)) (LS0 : List (View.Piece (Elt F) S1024x1 .f32)), { LS1 : List (View.Piece (Elt F) S1024x256 .f32) //
      ∀ (xi12 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.KernelIdeal.Fr

end
-- ==== Proof.FrameRunA.lean ====
/-
  The kernel body run once, on any whole staging memrefs, in the case where the first branch is taken and the
  second is not taken: the input buffers come back as they were, the output buffer untouched,
  the two accumulators with what the body stored into them.
-/
import proofs.«162713_j40484361732478_2_alg».proof.Proof.FrameRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  :
    Σ' (L12 : List (View.Piece (Elt F) S1024x256 .f32)) (LS0 : List (View.Piece (Elt F) S1024x1 .f32)), { LS1 : List (View.Piece (Elt F) S1024x256 .f32) //
      ∀ (xi12 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.KernelIdeal.Fr

end
-- ==== Proof.FrameRunC.lean ====
/-
  The kernel body run once, on any whole staging memrefs, in the case where the first branch is not taken and the
  second is taken: the input buffers come back as they were, the output buffer with the row block stored,
  the two accumulators with what the body stored into them.
-/
import proofs.«162713_j40484361732478_2_alg».proof.Proof.FrameRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    Σ' (L12 : List (View.Piece (Elt F) S1024x256 .f32)) (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]; · iexists _; iexact HS0
    iexists _; iexact HS1

end Cert.KernelIdeal.Fr

end
-- ==== Proof.Frame.lean ====
/-
  The frame of the program, and what its result array holds after the run.

  What the output window's staging buffer and the two accumulators hold after each grid point is defined by recursion
  on the point: at a point whose second coordinate is zero the accumulators restart from zero, elsewhere they continue
  from what the point before left; at a point whose second coordinate is seven the output block is stored. The body
  obligation is a case split on those two coordinates' closed forms. One array is read through two windows (the row
  block and the column block of the normalized rows): the two windows hold it at the two halves of the full share.
-/
import proofs.«162713_j40484361732478_2_alg».proof.Proof.FrameRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the pieces stored into the row-sum accumulator cover it. -/
theorem scover_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1 S1024x1.size (by sl_kernel_rfl) y
/-- What case A leaves in the row-sum accumulator. -/
def sout_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x1 .f32 :=
  VS0.read (Elt F) (VS0.writes (Elt F) VS0.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1)
/-- Case A: the pieces stored into the weighted-sum accumulator cover it. -/
theorem scover_A_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  (y : S1024x256.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1 S1024x256.size (by sl_kernel_rfl) y
/-- What case A leaves in the weighted-sum accumulator. -/
def sout_A_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x256 .f32 :=
  VS1.read (Elt F) (VS1.writes (Elt F) VS1.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1)
/-- What case A leaves in the output window's staging buffer (nothing is stored: a placeholder nothing consults). -/
def out_A_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x256 .f32 :=
  VO12.read (Elt F) (VO12.writes (Elt F) VO12.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).1)

/-- Case B: the pieces stored into the row-sum accumulator cover it. -/
theorem scover_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1 S1024x1.size (by sl_kernel_rfl) y
/-- What case B leaves in the row-sum accumulator. -/
def sout_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1)
/-- Case B: the pieces stored into the weighted-sum accumulator cover it. -/
theorem scover_B_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1 S1024x256.size (by sl_kernel_rfl) y
/-- What case B leaves in the weighted-sum accumulator. -/
def sout_B_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VS1.read (Elt F) (VS1.writes (Elt F) VS1.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1)
/-- What case B leaves in the output window's staging buffer (nothing is stored: a placeholder nothing consults). -/
def out_B_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VO12.read (Elt F) (VO12.writes (Elt F) VO12.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1)

/-- Case C: the pieces stored into the row-sum accumulator cover it. -/
theorem scover_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1 S1024x1.size (by sl_kernel_rfl) y
/-- What case C leaves in the row-sum accumulator. -/
def sout_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1)
/-- Case C: the pieces stored into the weighted-sum accumulator cover it. -/
theorem scover_C_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1 S1024x256.size (by sl_kernel_rfl) y
/-- What case C leaves in the weighted-sum accumulator. -/
def sout_C_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VS1.read (Elt F) (VS1.writes (Elt F) VS1.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1)
/-- Case C: the pieces stored into the output block cover it. -/
theorem cover_C_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1 S1024x256.size (by sl_kernel_rfl) y
/-- What case C leaves in the output window's staging buffer. -/
def out_C_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VO12.read (Elt F) (VO12.writes (Elt F) VO12.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1)

/-- The core's scoped buffers that are no staging buffer are the two accumulators. -/
theorem PhiR_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## What the buffers hold after each point -/

/-- After the body at position `n`: the output window's staging buffer, the row-sum accumulator, the weighted-sum accumulator. -/
def outsAt (c : Dev nD) : (n : ℕ) → n < cfg0.N → Vec F S1024x256 .f32 × Vec F S1024x1 .f32 × Vec F S1024x256 .f32
  | 0, hn => (out_A_12 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 8 = 0 then
      if h1 : (n + 1) % 8 = 7 then
        False.elim (by omega)
      else
        (out_A_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      if h1 : (n + 1) % 8 = 7 then
        (out_C_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2)
      else
        (out_B_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (out_A_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (out_B_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (out_C_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both accumulators at anything; afterwards each
    at what the point before left in it. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) : PhiS m c n h = (Pipeline.scopedRest (Ix := Unit) (Name := ℕ) (U := UR sig nD τ) (Lvl := ℕ) (Val := Elt F) spec0 c : sProp 𝕄) := by
  subst hz; rfl
theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl
theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The proof data -/

/-- The arrays as the region finds them; after the body each input's buffer at its block and the output's at `outsAt`;
    the invariant `PhiS`; nothing owed; the array read through windows 0 and 1 held at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (outsAt m c t.val t.isLt).1 := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  rw [show (dats m 0 c).leavesExact 7 t = owns (c : Thread nD τ) (ms7 t) fullShare ((dats m 0 c).after 7 t) from by
    unfold Dat.leavesExact; rw [liveAt_7 t], after_7]
  rw [show (dats m 0 c).leavesExact 8 t = owns (c : Thread nD τ) (ms8 t) fullShare ((dats m 0 c).after 8 t) from by
    unfold Dat.leavesExact; rw [liveAt_8 t], after_8]
  rw [show (dats m 0 c).leavesExact 9 t = owns (c : Thread nD τ) (ms9 t) fullShare ((dats m 0 c).after 9 t) from by
    unfold Dat.leavesExact; rw [liveAt_9 t], after_9]
  rw [show (dats m 0 c).leavesExact 10 t = owns (c : Thread nD τ) (ms10 t) fullShare ((dats m 0 c).after 10 t) from by
    unfold Dat.leavesExact; rw [liveAt_10 t], after_10]
  rw [show (dats m 0 c).leavesExact 11 t = owns (c : Thread nD τ) (ms11 t) fullShare ((dats m 0 c).after 11 t) from by
    unfold Dat.leavesExact; rw [liveAt_11 t], after_11]
  by_cases h0 : t.val % 8 = 0
  · have h1 : ¬t.val % 8 = 7 := by omega
    rw [Dat.leavesExact_idle (dats m 0 c) 12 t (idleAt_12 t (fun h => h1 ((hcond1 t).mp h))) (noFlush_12 t (fun h => h1 ((hcond1 t).mp h)))]
    rw [outsAt_A m c t h0 h1]
    unfold sout_A_0 sout_A_1; (try dsimp only)
    by_cases hz : t.val = 0
    · rw [PhiS_castSucc m c t, PhiS_zero m c _ _ hz, PhiR_eq]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_A c (grid0.coords t) _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_A c (grid0.coords t) _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      isplitl [HS1]; · iexists _; iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun e => h0 (by rw [e])
    by_cases h1 : t.val % 8 = 7
    · rw [show (dats m 0 c).leavesExact 12 t = owns (c : Thread nD τ) (ms12 t) fullShare ((dats m 0 c).after 12 t) from by
        unfold Dat.leavesExact; rw [liveAt_12 t ((hcond1 t).mpr h1)], after_12]
      rw [outsAt_C m c t h0 h1]
      unfold out_C_12 sout_C_0 sout_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_C c (grid0.coords t) _ _ _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_C_0 _ _ _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_C_1 _ _ _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover_C_12 _ _ _ _ _ _ _ _ _ _ _ _ _ _ _ _ _ _ _ _ _ _ _ _ _ _ _ _ _ _ _ _ _ _ _ _ _ _ _ _ _ _ _ _ _ _ _ _ )
    · rw [Dat.leavesExact_idle (dats m 0 c) 12 t (idleAt_12 t (fun h => h1 ((hcond1 t).mp h))) (noFlush_12 t (fun h => h1 ((hcond1 t).mp h)))]
      rw [outsAt_B m c t h0 h1]
      unfold sout_B_0 sout_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_B c (grid0.coords t) _ _ _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_B_0 _ _ _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_B_1 _ _ _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiR_eq]
  iintro ⟨HS0, HS1⟩
  isplitl [HS0]
  · iexists _; iexact HS0
  · iexists _; iexact HS1

end Cert.KernelIdeal.Fr

end
-- ==== Proof.FrameLaunch.lean ====
/-
  The launch: the run of the whole program, its result array named, and the frame.

  The region is entered holding every buffer behind a window whole. The normalized rows are read through two windows:
  their buffer's full share is dealt to the two as its two halves, which is all two readers need. After the last
  point every array is as the write-backs left it: an input as it was found, the result array overwritten block by
  block. Every buffer the region does not touch is read back as the host operations left it.
-/
import proofs.«162713_j40484361732478_2_alg».proof.Proof.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the thirteen windows, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v5) ↦{fullShare} V' main_v5) ∗ (((c : Thread nD τ).loc main_arg0) ↦{fullShare} V' main_arg0) ∗ (((c : Thread nD τ).loc main_v6) ↦{fullShare} V' main_v6) ∗ (((c : Thread nD τ).loc main_v7) ↦{fullShare} V' main_v7) ∗ (((c : Thread nD τ).loc main_v8) ↦{fullShare} V' main_v8) ∗ (((c : Thread nD τ).loc main_v9) ↦{fullShare} V' main_v9) ∗ (((c : Thread nD τ).loc main_v10) ↦{fullShare} V' main_v10) ∗ (((c : Thread nD τ).loc main_arg4) ↦{fullShare} V' main_arg4) ∗ (((c : Thread nD τ).loc main_v11) ↦{fullShare} V' main_v11) ∗ (((c : Thread nD τ).loc main_arg6) ↦{fullShare} V' main_arg6) ∗ (((c : Thread nD τ).loc main_v12) ↦{fullShare} V' main_v12) ∗ (((c : Thread nD τ).loc main_v13) ↦{fullShare} V' main_v13)) :=
  bigSep_eq_bigSepL_of_eq [main_v5, main_arg0, main_v6, main_v7, main_v8, main_v9, main_v10, main_arg4, main_v11, main_arg6, main_v12, main_v13] (by decide) (by decide) _

/-- The windows' arrays, each a whole buffer, held at the window's share. -/
theorem arrays_eq' (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

set_option maxHeartbeats 4000000 in
/-- The arrays at the region's entry from the buffers behind them: the twice-read array's full share split in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H5, Ha0, H6, H7, H8, H9, H10, Ha4, H11, Ha6, H12, H13⟩
  ihave Hsp := (pointsTo_share (IsOp.posShare_halves fullShare).1).1 $$ H5
  icases Hsp with ⟨H5l, H5r⟩
  isplitl [H5l]; · iexact H5l
  isplitl [H5r]; · iexact H5r
  isplitl [Ha0]; · iexact Ha0
  isplitl [H6]; · iexact H6
  isplitl [H7]; · iexact H7
  isplitl [H8]; · iexact H8
  isplitl [H9]; · iexact H9
  isplitl [H10]; · iexact H10
  isplitl [Ha4]; · iexact Ha4
  isplitl [H11]; · iexact H11
  isplitl [Ha6]; · iexact Ha6
  isplitl [H12]; · iexact H12
  iexact H13

set_option backward.isDefEq.respectTransparency.types false in
/-- THE RUN: every weakly fair execution of the program terminates, nothing faulting; every window's array ends as the
    write-backs left it, every buffer the region bypasses as the host operations left it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => (hout m c).trans (by iintro H; isplitr; · iempintro
                                           iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- No host operation writes an argument array: at the region's entry each holds its launch contents. -/
theorem V_args (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7) := by
  refine ⟨?_, ?_, ?_, ?_, ?_, ?_, ?_, ?_⟩ <;>
    (dsimp only [V, V0]
     simp only [hostOps0, hostOps0_1, List.flatten_cons, List.flatten_nil, List.append_nil, List.cons_append, List.nil_append]
     after_results_simp <;> rfl)

/-- THE FRAME: every weakly fair execution terminates, nothing faulting, and the argument arrays end unchanged — an
    argument a window reads is an input array, never written back; the others bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 2).trans (((dats m 0 c).arrAt_in 2 rfl _).trans ((A_eq m c 2).trans (V_args m c).1)),
    ((h c).2 main_arg1 (Pipeline.mem_restRefs_of main_arg1 rfl (by decide))).trans (V_args m c).2.1,
    ((h c).2 main_arg2 (Pipeline.mem_restRefs_of main_arg2 rfl (by decide))).trans (V_args m c).2.2.1,
    ((h c).2 main_arg3 (Pipeline.mem_restRefs_of main_arg3 rfl (by decide))).trans (V_args m c).2.2.2.1,
    ((h c).1 8).trans (((dats m 0 c).arrAt_in 8 rfl _).trans ((A_eq m c 8).trans (V_args m c).2.2.2.2.1)),
    ((h c).2 main_arg5 (Pipeline.mem_restRefs_of main_arg5 rfl (by decide))).trans (V_args m c).2.2.2.2.2.1,
    ((h c).1 10).trans (((dats m 0 c).arrAt_in 10 rfl _).trans ((A_eq m c 10).trans (V_args m c).2.2.2.2.2.2.1)),
    ((h c).2 main_arg7 (Pipeline.mem_restRefs_of main_arg7 rfl (by decide))).trans (V_args m c).2.2.2.2.2.2.2⟩) (run_main m ρ)

end Cert.KernelIdeal.Fr

end
-- ==== Proof.WFrameBase.lean ====
/-
  What the per-case runs of the kernel body and the launch share.

  The program is: two stretches of host operations (the row norms; the normalized rows, the two format changes and
  the reshapes), then one region over an 8 × 8 grid whose second axis is the reduction axis. The arrays as the region
  finds them are the launch memory after the host operations. Every input window's staging buffer holds, at every
  point, that window's block of its array, whether or not the point fetched it. The body's two branches depend on
  the second grid coordinate only: the first is taken at its first value (the two accumulators are cleared), the second
  at its last (the row block is finished and stored); the output window is idle, and not written back, elsewhere.
-/
import proofs.«162713_j40484361732478_2_alg».proof.Proof.Gen.Kernel.Launch
import proofs.«162713_j40484361732478_2_alg».proof.Proof.Gen.Kernel.Skeleton
import proofs.«162713_j40484361732478_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The buffers' contents when the region is entered: the launch memory after the two stretches of host operations. -/
abbrev V0 (c : Dev nD) : Valuation τ sig (Elt F) := StableHlo.after (List.flatten [hostOps0, hostOps0_1]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program reduces to the region entered with the buffers at `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] ⟨hostOps0_sub, hostOps0_1_sub⟩ ⟨hostOps0_fresh, hostOps0_1_fresh⟩
    (fun c => main_chain c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not. -/
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not. -/
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not. -/
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not. -/
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not. -/
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not. -/
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not. -/
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition: the second grid coordinate is zero. -/
abbrev cond0 (i : grid0.Coords) : Prop := (Scalar.cmpi .ne (Scalar.extui (Scalar.cmpi .eq (BitVec.ofNat 32 (i 1).val) 0#32)) 0#32) = 1#1
theorem hcond0 : ∀ t : Fin cfg0.N, cond0 (grid0.coords t) ↔ t.val % 8 = 0 :=
  (by decide +kernel : ∀ t : Fin grid0.N, cond0 (grid0.coords t) ↔ t.val % 8 = 0)
/-- The second branch's condition: the second grid coordinate is seven. -/
abbrev cond1 (i : grid0.Coords) : Prop := k0_cond2 i = 1#1
theorem hcond1 : ∀ t : Fin cfg0.N, cond1 (grid0.coords t) ↔ t.val % 8 = 7 :=
  (by decide +kernel : ∀ t : Fin grid0.N, cond1 (grid0.coords t) ↔ t.val % 8 = 7)

/-! ## Where the windows are idle -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
theorem liveAt_3 : ∀ t : Fin cfg0.N, cfg0.idle 3 (grid0.coords t) = false := by decide +kernel
theorem liveAt_4 : ∀ t : Fin cfg0.N, cfg0.idle 4 (grid0.coords t) = false := by decide +kernel
theorem liveAt_5 : ∀ t : Fin cfg0.N, cfg0.idle 5 (grid0.coords t) = false := by decide +kernel
theorem liveAt_6 : ∀ t : Fin cfg0.N, cfg0.idle 6 (grid0.coords t) = false := by decide +kernel
theorem liveAt_7 : ∀ t : Fin cfg0.N, cfg0.idle 7 (grid0.coords t) = false := by decide +kernel
theorem liveAt_8 : ∀ t : Fin cfg0.N, cfg0.idle 8 (grid0.coords t) = false := by decide +kernel
theorem liveAt_9 : ∀ t : Fin cfg0.N, cfg0.idle 9 (grid0.coords t) = false := by decide +kernel
theorem liveAt_10 : ∀ t : Fin cfg0.N, cfg0.idle 10 (grid0.coords t) = false := by decide +kernel
theorem liveAt_11 : ∀ t : Fin cfg0.N, cfg0.idle 11 (grid0.coords t) = false := by decide +kernel
/-- Where the second branch is not taken the output window is idle and is not written back. -/
theorem idleAt_12 : ∀ t : Fin cfg0.N, ¬cond1 (grid0.coords t) → cfg0.idle 12 (grid0.coords t) = true := by decide +kernel
theorem noFlush_12 : ∀ t : Fin cfg0.N, ¬cond1 (grid0.coords t) → (cfg0.win 12).flush t = false := by decide +kernel
theorem liveAt_12 : ∀ t : Fin cfg0.N, cond1 (grid0.coords t) → cfg0.idle 12 (grid0.coords t) = false := by decide +kernel

/-! ## The staging and scratch memrefs -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x1 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S256x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S256x512 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x512 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S1024x256 .f32 := win0_12.stage (cfg0.slots t 12)
abbrev hs12 (t : Fin cfg0.N) : (ms12 t).IsWhole := hstage0_12 ((cfg0.slots t 12).cast nbuf0_12)
/-- The two accumulators: the row sums and the weighted sums. -/
abbrev scM0 : Memref sig .tc .vmem S1024x1 .f32 := Memref.whole cc0_scratch0
abbrev scM1 : Memref sig .tc .vmem S1024x256 .f32 := Memref.whole cc0_scratch1
abbrev VO12 : View sig .tc .vmem S1024x256 .f32 := (Memref.whole cc0_stg12_0 : Memref sig .tc .vmem S1024x256 .f32).view
abbrev VS0 : View sig .tc .vmem S1024x1 .f32 := scM0.view
abbrev VS1 : View sig .tc .vmem S1024x256 .f32 := scM1.view

/-- The region's invariant before the first point: the two accumulators at anything, the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

end Cert.Kernel.Fr

end
-- ==== Proof.WFrameRunB.lean ====
/-
  The kernel body run once, on any whole staging memrefs, in the case where the first branch is not taken and the
  second is not taken: the input buffers come back as they were, the output buffer untouched,
  the two accumulators with what the body stored into them.
-/
import proofs.«162713_j40484361732478_2_alg».proof.Proof.WFrameBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    Σ' (L12 : List (View.Piece (Elt F) S1024x256 .f32)) (LS0 : List (View.Piece (Elt F) S1024x1 .f32)), { LS1 : List (View.Piece (Elt F) S1024x256 .f32) //
      ∀ (xi12 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.Kernel.Fr

end
-- ==== Proof.WFrameRunA.lean ====
/-
  The kernel body run once, on any whole staging memrefs, in the case where the first branch is taken and the
  second is not taken: the input buffers come back as they were, the output buffer untouched,
  the two accumulators with what the body stored into them.
-/
import proofs.«162713_j40484361732478_2_alg».proof.Proof.WFrameRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  :
    Σ' (L12 : List (View.Piece (Elt F) S1024x256 .f32)) (LS0 : List (View.Piece (Elt F) S1024x1 .f32)), { LS1 : List (View.Piece (Elt F) S1024x256 .f32) //
      ∀ (xi12 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare xi12 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨[], ?_, ?_, fun xi12 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [HS0]; · iexists _; iexact HS0
    iexists _; iexact HS1

end Cert.Kernel.Fr

end
-- ==== Proof.WFrameRunC.lean ====
/-
  The kernel body run once, on any whole staging memrefs, in the case where the first branch is not taken and the
  second is taken: the input buffers come back as they were, the output buffer with the row block stored,
  the two accumulators with what the body stored into them.
-/
import proofs.«162713_j40484361732478_2_alg».proof.Proof.WFrameRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run in this case, with the pieces each written buffer ends with (found by the run). -/
noncomputable def kernelRun_C (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    Σ' (L12 : List (View.Piece (Elt F) S1024x256 .f32)) (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0; obtain rfl := harg16.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]; · iexists _; iexact HS0
    iexists _; iexact HS1

end Cert.Kernel.Fr

end
-- ==== Proof.WFrame.lean ====
/-
  The frame of the program, and what its result array holds after the run.

  What the output window's staging buffer and the two accumulators hold after each grid point is defined by recursion
  on the point: at a point whose second coordinate is zero the accumulators restart from zero, elsewhere they continue
  from what the point before left; at a point whose second coordinate is seven the output block is stored. The body
  obligation is a case split on those two coordinates' closed forms. One array is read through two windows (the row
  block and the column block of the normalized rows): the two windows hold it at the two halves of the full share.
-/
import proofs.«162713_j40484361732478_2_alg».proof.Proof.WFrameRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the pieces stored into the row-sum accumulator cover it. -/
theorem scover_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  (y : S1024x1.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1 S1024x1.size (by sl_kernel_rfl) y
/-- What case A leaves in the row-sum accumulator. -/
def sout_A_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x1 .f32 :=
  VS0.read (Elt F) (VS0.writes (Elt F) VS0.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.1)
/-- Case A: the pieces stored into the weighted-sum accumulator cover it. -/
theorem scover_A_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  (y : S1024x256.Idx) :
    ∃ pc ∈ (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1, y ∈ pc.1.set :=
  View.cover_of_tiledL (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1 S1024x256.size (by sl_kernel_rfl) y
/-- What case A leaves in the weighted-sum accumulator. -/
def sout_A_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x256 .f32 :=
  VS1.read (Elt F) (VS1.writes (Elt F) VS1.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).2.2.1)
/-- What case A leaves in the output window's staging buffer (nothing is stored: a placeholder nothing consults). -/
def out_A_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  : Vec F S1024x256 .f32 :=
  VO12.read (Elt F) (VO12.writes (Elt F) VO12.junk (kernelRun_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11).1)

/-- Case B: the pieces stored into the row-sum accumulator cover it. -/
theorem scover_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x1.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1 S1024x1.size (by sl_kernel_rfl) y
/-- What case B leaves in the row-sum accumulator. -/
def sout_B_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x1 .f32 :=
  VS0.read (Elt F) (VS0.writes (Elt F) VS0.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1)
/-- Case B: the pieces stored into the weighted-sum accumulator cover it. -/
theorem scover_B_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1, y ∈ pc.1.set :=
  View.cover_of_tiledL (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1 S1024x256.size (by sl_kernel_rfl) y
/-- What case B leaves in the weighted-sum accumulator. -/
def sout_B_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VS1.read (Elt F) (VS1.writes (Elt F) VS1.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1)
/-- What case B leaves in the output window's staging buffer (nothing is stored: a placeholder nothing consults). -/
def out_B_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VO12.read (Elt F) (VO12.writes (Elt F) VO12.junk (kernelRun_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1)

/-- Case C: the pieces stored into the row-sum accumulator cover it. -/
theorem scover_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x1.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1 S1024x1.size (by sl_kernel_rfl) y
/-- What case C leaves in the row-sum accumulator. -/
def sout_C_0 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x1 .f32 :=
  VS0.read (Elt F) (VS0.writes (Elt F) VS0.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.1)
/-- Case C: the pieces stored into the weighted-sum accumulator cover it. -/
theorem scover_C_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1 S1024x256.size (by sl_kernel_rfl) y
/-- What case C leaves in the weighted-sum accumulator. -/
def sout_C_1 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VS1.read (Elt F) (VS1.writes (Elt F) VS1.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).2.2.1)
/-- Case C: the pieces stored into the output block cover it. -/
theorem cover_C_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) (y : S1024x256.Idx) :
    ∃ pc ∈ (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1, y ∈ pc.1.set :=
  View.cover_of_tiledL (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1 S1024x256.size (by sl_kernel_rfl) y
/-- What case C leaves in the output window's staging buffer. -/
def out_C_12 (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) : Vec F S1024x256 .f32 :=
  VO12.read (Elt F) (VO12.writes (Elt F) VO12.junk (kernelRun_C c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1).1)

/-- The core's scoped buffers that are no staging buffer are the two accumulators. -/
theorem PhiR_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## What the buffers hold after each point -/

/-- After the body at position `n`: the output window's staging buffer, the row-sum accumulator, the weighted-sum accumulator. -/
def outsAt (c : Dev nD) : (n : ℕ) → n < cfg0.N → Vec F S1024x256 .f32 × Vec F S1024x1 .f32 × Vec F S1024x256 .f32
  | 0, hn => (out_A_12 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout_A_0 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩), sout_A_1 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) (ms11 ⟨0, hn⟩) (hs11 ⟨0, hn⟩) (ms12 ⟨0, hn⟩) (hs12 ⟨0, hn⟩) scM0 (Memref.isWhole_whole _) scM1 (Memref.isWhole_whole _) ((hcond0 ⟨0, hn⟩).mpr (Nat.zero_mod _)) (fun h => (fun h => by (try dsimp only at h); omega) ((hcond1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩))
  | n + 1, hn =>
    if h0 : (n + 1) % 8 = 0 then
      if h1 : (n + 1) % 8 = 7 then
        False.elim (by omega)
      else
        (out_A_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout_A_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩), sout_A_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) ((hcond0 ⟨n + 1, hn⟩).mpr h0) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩))
    else
      if h1 : (n + 1) % 8 = 7 then
        (out_C_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_C_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_C_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) ((hcond1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2)
      else
        (out_B_12 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_B_0 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2, sout_B_1 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) (ms11 ⟨n + 1, hn⟩) (hs11 ⟨n + 1, hn⟩) (ms12 ⟨n + 1, hn⟩) (hs12 ⟨n + 1, hn⟩) scM0 (Memref.isWhole_whole _) scM1 (Memref.isWhole_whole _) (fun h => h0 ((hcond0 ⟨n + 1, hn⟩).mp h)) (fun h => h1 ((hcond1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h1 : ¬t.val % 8 = 7) :
    outsAt m c t.val t.isLt = (out_A_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout_A_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), sout_A_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  obtain ⟨n, hn⟩ := t
  cases n with
  | zero => exact rfl
  | succ n => exact (dif_pos h0).trans ((dif_neg h1).trans rfl)

theorem outsAt_B (c : Dev nD) (t : Fin cfg0.N) (h0 : ¬t.val % 8 = 0) (h1 : ¬t.val % 8 = 7) :
    outsAt m c t.val t.isLt = (out_B_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_B_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_B_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (out_C_12 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_C_0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2, sout_C_1 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM0 (Memref.isWhole_whole _) scM1 (Memref.isWhole_whole _) (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point both accumulators at anything; afterwards each
    at what the point before left in it. -/
def PhiS (c : Dev nD) : (n : ℕ) → n ≤ cfg0.N → sProp 𝕄
  | 0, _ => (Pipeline.scopedRest (Ix := Unit) (Name := ℕ) (U := UR sig nD τ) (Lvl := ℕ) (Val := Elt F) spec0 c : sProp 𝕄)
  | n + 1, hn => iprop(owns (c : Thread nD τ) scM0 fullShare ((outsAt m c n hn).2.1) ∗ owns (c : Thread nD τ) scM1 fullShare ((outsAt m c n hn).2.2))

theorem PhiS_zero (c : Dev nD) (n : ℕ) (h : n ≤ cfg0.N) (hz : n = 0) : PhiS m c n h = (Pipeline.scopedRest (Ix := Unit) (Name := ℕ) (U := UR sig nD τ) (Lvl := ℕ) (Val := Elt F) spec0 c : sProp 𝕄) := by
  subst hz; rfl
theorem PhiS_succ (c : Dev nD) (n : ℕ) (hn : n < cfg0.N) :
    PhiS m c (n + 1) hn = iprop(owns (c : Thread nD τ) scM0 fullShare ((outsAt m c n hn).2.1) ∗ owns (c : Thread nD τ) scM1 fullShare ((outsAt m c n hn).2.2)) := rfl
theorem PhiS_pos (c : Dev nD) (n : ℕ) (h : n ≤ cfg0.N) (hz : n ≠ 0) :
    PhiS m c n h = iprop(owns (c : Thread nD τ) scM0 fullShare ((outsAt m c (n - 1) (by omega)).2.1) ∗ owns (c : Thread nD τ) scM1 fullShare ((outsAt m c (n - 1) (by omega)).2.2)) := by
  cases n with
  | zero => exact absurd rfl hz
  | succ n => rfl

/-! ## The proof data -/

/-- The arrays as the region finds them; after the body each input's buffer at its block and the output's at `outsAt`;
    the invariant `PhiS`; nothing owed; the array read through windows 0 and 1 held at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = (outsAt m c t.val t.isLt).1 := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from by
    unfold Dat.leavesExact; rw [liveAt_0 t], after_0]
  rw [show (dats m 0 c).leavesExact 1 t = owns (c : Thread nD τ) (ms1 t) fullShare ((dats m 0 c).after 1 t) from by
    unfold Dat.leavesExact; rw [liveAt_1 t], after_1]
  rw [show (dats m 0 c).leavesExact 2 t = owns (c : Thread nD τ) (ms2 t) fullShare ((dats m 0 c).after 2 t) from by
    unfold Dat.leavesExact; rw [liveAt_2 t], after_2]
  rw [show (dats m 0 c).leavesExact 3 t = owns (c : Thread nD τ) (ms3 t) fullShare ((dats m 0 c).after 3 t) from by
    unfold Dat.leavesExact; rw [liveAt_3 t], after_3]
  rw [show (dats m 0 c).leavesExact 4 t = owns (c : Thread nD τ) (ms4 t) fullShare ((dats m 0 c).after 4 t) from by
    unfold Dat.leavesExact; rw [liveAt_4 t], after_4]
  rw [show (dats m 0 c).leavesExact 5 t = owns (c : Thread nD τ) (ms5 t) fullShare ((dats m 0 c).after 5 t) from by
    unfold Dat.leavesExact; rw [liveAt_5 t], after_5]
  rw [show (dats m 0 c).leavesExact 6 t = owns (c : Thread nD τ) (ms6 t) fullShare ((dats m 0 c).after 6 t) from by
    unfold Dat.leavesExact; rw [liveAt_6 t], after_6]
  rw [show (dats m 0 c).leavesExact 7 t = owns (c : Thread nD τ) (ms7 t) fullShare ((dats m 0 c).after 7 t) from by
    unfold Dat.leavesExact; rw [liveAt_7 t], after_7]
  rw [show (dats m 0 c).leavesExact 8 t = owns (c : Thread nD τ) (ms8 t) fullShare ((dats m 0 c).after 8 t) from by
    unfold Dat.leavesExact; rw [liveAt_8 t], after_8]
  rw [show (dats m 0 c).leavesExact 9 t = owns (c : Thread nD τ) (ms9 t) fullShare ((dats m 0 c).after 9 t) from by
    unfold Dat.leavesExact; rw [liveAt_9 t], after_9]
  rw [show (dats m 0 c).leavesExact 10 t = owns (c : Thread nD τ) (ms10 t) fullShare ((dats m 0 c).after 10 t) from by
    unfold Dat.leavesExact; rw [liveAt_10 t], after_10]
  rw [show (dats m 0 c).leavesExact 11 t = owns (c : Thread nD τ) (ms11 t) fullShare ((dats m 0 c).after 11 t) from by
    unfold Dat.leavesExact; rw [liveAt_11 t], after_11]
  by_cases h0 : t.val % 8 = 0
  · have h1 : ¬t.val % 8 = 7 := by omega
    rw [Dat.leavesExact_idle (dats m 0 c) 12 t (idleAt_12 t (fun h => h1 ((hcond1 t).mp h))) (noFlush_12 t (fun h => h1 ((hcond1 t).mp h)))]
    rw [outsAt_A m c t h0 h1]
    unfold sout_A_0 sout_A_1; (try dsimp only)
    by_cases hz : t.val = 0
    · rw [PhiS_castSucc m c t, PhiS_zero m c _ _ hz, PhiR_eq]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_A c (grid0.coords t) _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_A c (grid0.coords t) _ _ _ _ _ _ _ _ _ _ _ _ _ _ _ _ _ _ _ _ _ _ _ _ _ _ _ _ _ _ ((hcond0 t).mpr h0) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexists _; iexact HS0
      isplitl [HS1]; · iexists _; iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_A_0 _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_A_1 _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12
  · have hz : t.val ≠ 0 := fun e => h0 (by rw [e])
    by_cases h1 : t.val % 8 = 7
    · rw [show (dats m 0 c).leavesExact 12 t = owns (c : Thread nD τ) (ms12 t) fullShare ((dats m 0 c).after 12 t) from by
        unfold Dat.leavesExact; rw [liveAt_12 t ((hcond1 t).mpr h1)], after_12]
      rw [outsAt_C m c t h0 h1]
      unfold out_C_12 sout_C_0 sout_C_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_C c (grid0.coords t) _ _ _ _ _ _ _ _ _ _ _ _ _ _ _ _ _ _ _ _ _ _ _ _ _ _ _ _ _ _ (fun h => h0 ((hcond0 t).mp h)) ((hcond1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [HS0]; · iexact HS0
      isplitl [HS1]; · iexact HS1
      iintro ⟨H0, H1, H2, H3, H4, H5, H6, H7, H8, H9, H10, H11, ⟨%e12, H12⟩, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_C_0 _ _ _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_C_1 _ _ _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      unfold owns; iexists _; isplitr
      swap; · iexact H12
      ipureintro; exact View.read_writes_of_cover _ _ _ _ _ (cover_C_12 _ _ _ _ _ _ _ _ _ _ _ _ _ _ _ _ _ _ _ _ _ _ _ _ _ _ _ _ _ _ _ _ _ _ _ _ _ _ _ _ _ _ _ _ _ _ _ _ )
    · rw [Dat.leavesExact_idle (dats m 0 c) 12 t (idleAt_12 t (fun h => h1 ((hcond1 t).mp h))) (noFlush_12 t (fun h => h1 ((hcond1 t).mp h)))]
      rw [outsAt_B m c t h0 h1]
      unfold sout_B_0 sout_B_1; (try dsimp only)
      rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun_B c (grid0.coords t) _ _ _ _ _ _ _ _ _ _ _ _ _ _ _ _ _ _ _ _ _ _ _ _ _ _ _ _ _ _ (fun h => h0 ((hcond0 t).mp h)) (fun h => h1 ((hcond1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, ⟨%es0, HS0⟩, ⟨%es1, HS1⟩⟩
      isplitl [HS0 HS1]
      · isplitl [HS0]
        · unfold owns; iexists _; isplitr
          swap; · iexact HS0
          ipureintro; exact View.read_writes_of_cover _ _ _ _ _ (scover_B_0 _ _ _ _ _ _ _ _ _ _ _ _ _ _ _ _ _ _ _ _ _ _ _ _ _ _ _ _ _ _ _ _ _ _ _ _ _ _ _ _ _ _ _ _ _ _ _ _ )
        · unfold owns; iexists _; isplitr
          swap; · iexact HS1
          ipureintro; exact View.read_writes_of_cover _ _ _ _ _ (scover_B_1 _ _ _ _ _ _ _ _ _ _ _ _ _ _ _ _ _ _ _ _ _ _ _ _ _ _ _ _ _ _ _ _ _ _ _ _ _ _ _ _ _ _ _ _ _ _ _ _ )
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexists _; iexact H12

theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiR_eq]
  iintro ⟨HS0, HS1⟩
  isplitl [HS0]
  · iexists _; iexact HS0
  · iexists _; iexact HS1

end Cert.Kernel.Fr

end
-- ==== Proof.WFrameLaunch.lean ====
/-
  The launch: the run of the whole program, its result array named, and the frame.

  The region is entered holding every buffer behind a window whole. The normalized rows are read through two windows:
  their buffer's full share is dealt to the two as its two halves, which is all two readers need. After the last
  point every array is as the write-backs left it: an input as it was found, the result array overwritten block by
  block. Every buffer the region does not touch is read back as the host operations left it.
-/
import proofs.«162713_j40484361732478_2_alg».proof.Proof.WFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the thirteen windows, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v5) ↦{fullShare} V' main_v5) ∗ (((c : Thread nD τ).loc main_arg0) ↦{fullShare} V' main_arg0) ∗ (((c : Thread nD τ).loc main_v6) ↦{fullShare} V' main_v6) ∗ (((c : Thread nD τ).loc main_v7) ↦{fullShare} V' main_v7) ∗ (((c : Thread nD τ).loc main_v8) ↦{fullShare} V' main_v8) ∗ (((c : Thread nD τ).loc main_v9) ↦{fullShare} V' main_v9) ∗ (((c : Thread nD τ).loc main_v10) ↦{fullShare} V' main_v10) ∗ (((c : Thread nD τ).loc main_arg4) ↦{fullShare} V' main_arg4) ∗ (((c : Thread nD τ).loc main_v11) ↦{fullShare} V' main_v11) ∗ (((c : Thread nD τ).loc main_arg6) ↦{fullShare} V' main_arg6) ∗ (((c : Thread nD τ).loc main_v12) ↦{fullShare} V' main_v12) ∗ (((c : Thread nD τ).loc main_v13) ↦{fullShare} V' main_v13)) :=
  bigSep_eq_bigSepL_of_eq [main_v5, main_arg0, main_v6, main_v7, main_v8, main_v9, main_v10, main_arg4, main_v11, main_arg6, main_v12, main_v13] (by decide) (by decide) _

/-- The windows' arrays, each a whole buffer, held at the window's share. -/
theorem arrays_eq' (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

set_option maxHeartbeats 4000000 in
/-- The arrays at the region's entry from the buffers behind them: the twice-read array's full share split in two. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq', bigSep_W0]
  iintro ⟨H5, Ha0, H6, H7, H8, H9, H10, Ha4, H11, Ha6, H12, H13⟩
  ihave Hsp := (pointsTo_share (IsOp.posShare_halves fullShare).1).1 $$ H5
  icases Hsp with ⟨H5l, H5r⟩
  isplitl [H5l]; · iexact H5l
  isplitl [H5r]; · iexact H5r
  isplitl [Ha0]; · iexact Ha0
  isplitl [H6]; · iexact H6
  isplitl [H7]; · iexact H7
  isplitl [H8]; · iexact H8
  isplitl [H9]; · iexact H9
  isplitl [H10]; · iexact H10
  isplitl [Ha4]; · iexact Ha4
  isplitl [H11]; · iexact H11
  isplitl [Ha6]; · iexact Ha6
  isplitl [H12]; · iexact H12
  iexact H13

set_option backward.isDefEq.respectTransparency.types false in
/-- THE RUN: every weakly fair execution of the program terminates, nothing faulting; every window's array ends as the
    write-backs left it, every buffer the region bypasses as the host operations left it. -/
theorem run_main : θ_run defs (onTc (τ := τ) (main (F := F))) ⟨m, fun _ => 0, ρ⟩ (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none) (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [show (dats m 0 c).Φ 0 = PhiS m c 0 (Nat.zero_le _) from rfl, PhiS_zero m c 0 _ rfl]
      iintro ⟨-, H⟩; iexact H)
    (hout := fun c => (hout m c).trans (by iintro H; isplitr; · iempintro
                                           iexact H))
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- No host operation writes an argument array: at the region's entry each holds its launch contents. -/
theorem V_args (c : Dev nD) :
    V m c main_arg0 = m ((c : Thread nD τ).loc main_arg0)
    ∧ V m c main_arg1 = m ((c : Thread nD τ).loc main_arg1)
    ∧ V m c main_arg2 = m ((c : Thread nD τ).loc main_arg2)
    ∧ V m c main_arg3 = m ((c : Thread nD τ).loc main_arg3)
    ∧ V m c main_arg4 = m ((c : Thread nD τ).loc main_arg4)
    ∧ V m c main_arg5 = m ((c : Thread nD τ).loc main_arg5)
    ∧ V m c main_arg6 = m ((c : Thread nD τ).loc main_arg6)
    ∧ V m c main_arg7 = m ((c : Thread nD τ).loc main_arg7) := by
  refine ⟨?_, ?_, ?_, ?_, ?_, ?_, ?_, ?_⟩ <;>
    (dsimp only [V, V0]
     simp only [hostOps0, hostOps0_1, List.flatten_cons, List.flatten_nil, List.append_nil, List.cons_append, List.nil_append]
     after_results_simp <;> rfl)

/-- THE FRAME: every weakly fair execution terminates, nothing faulting, and the argument arrays end unchanged — an
    argument a window reads is an input array, never written back; the others bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 2).trans (((dats m 0 c).arrAt_in 2 rfl _).trans ((A_eq m c 2).trans (V_args m c).1)),
    ((h c).2 main_arg1 (Pipeline.mem_restRefs_of main_arg1 rfl (by decide))).trans (V_args m c).2.1,
    ((h c).2 main_arg2 (Pipeline.mem_restRefs_of main_arg2 rfl (by decide))).trans (V_args m c).2.2.1,
    ((h c).2 main_arg3 (Pipeline.mem_restRefs_of main_arg3 rfl (by decide))).trans (V_args m c).2.2.2.1,
    ((h c).1 8).trans (((dats m 0 c).arrAt_in 8 rfl _).trans ((A_eq m c 8).trans (V_args m c).2.2.2.2.1)),
    ((h c).2 main_arg5 (Pipeline.mem_restRefs_of main_arg5 rfl (by decide))).trans (V_args m c).2.2.2.2.2.1,
    ((h c).1 10).trans (((dats m 0 c).arrAt_in 10 rfl _).trans ((A_eq m c 10).trans (V_args m c).2.2.2.2.2.2.1)),
    ((h c).2 main_arg7 (Pipeline.mem_restRefs_of main_arg7 rfl (by decide))).trans (V_args m c).2.2.2.2.2.2.2⟩) (run_main m ρ)

end Cert.Kernel.Fr

end
-- ==== Proof.FrameResult.lean ====
/-
  The run with the result array named: it ends as the write-backs of the output window left it, the arguments unchanged.
-/
import proofs.«162713_j40484361732478_2_alg».proof.Proof.FrameLaunch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v13) = (dats m 0 c).arrAt 12 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1 12, ((h c).1 2).trans (((dats m 0 c).arrAt_in 2 rfl _).trans ((A_eq m c 2).trans (V_args m c).1)),
    ((h c).2 main_arg1 (Pipeline.mem_restRefs_of main_arg1 rfl (by decide))).trans (V_args m c).2.1,
    ((h c).2 main_arg2 (Pipeline.mem_restRefs_of main_arg2 rfl (by decide))).trans (V_args m c).2.2.1,
    ((h c).2 main_arg3 (Pipeline.mem_restRefs_of main_arg3 rfl (by decide))).trans (V_args m c).2.2.2.1,
    ((h c).1 8).trans (((dats m 0 c).arrAt_in 8 rfl _).trans ((A_eq m c 8).trans (V_args m c).2.2.2.2.1)),
    ((h c).2 main_arg5 (Pipeline.mem_restRefs_of main_arg5 rfl (by decide))).trans (V_args m c).2.2.2.2.2.1,
    ((h c).1 10).trans (((dats m 0 c).arrAt_in 10 rfl _).trans ((A_eq m c 10).trans (V_args m c).2.2.2.2.2.2.1)),
    ((h c).2 main_arg7 (Pipeline.mem_restRefs_of main_arg7 rfl (by decide))).trans (V_args m c).2.2.2.2.2.2.2⟩) (run_main m ρ)

end Cert.KernelIdeal.Fr

end
-- ==== Proof.FramePieces.lean ====
/-
  What each case of the body leaves in the two accumulators and in the output block, as the body's own arithmetic.

  Every store of the body covers its whole buffer, and every load reads a whole buffer; so a buffer's contents after
  the body are the last payload stored into it, and a load after a store reads that store's payload. The row-sum
  accumulator ends at the old row sums plus the tile's lane sums, the weighted-sum accumulator at the old weighted
  sums plus the tile's product with the node features; where the first branch is taken "old" is zero. Where the
  second branch is taken the output block is the epilogue of the two updated accumulators.
-/
import proofs.«162713_j40484361732478_2_alg».proof.Proof.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl

/-! ## Continuing from what the point before left -/

theorem sout_B_0_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    sout_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay2 (BitVec.ofNat 32 (i 0).val) (BitVec.ofNat 32 (i 1).val) (k0_pay7 x0 x1 x6 x7) (k0_pay8 x4 x5) (iota .tc S1024x1 32 [0] iota_S1024x1_d0_w32) 1024#32 xs0 := by
  unfold sout_B_0
  rw [View.read_writes_eq_canon _ _ _ (scover_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun_B
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

theorem sout_B_1_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    sout_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay3 (BitVec.ofNat 32 (i 0).val) (BitVec.ofNat 32 (i 1).val) (k0_pay7 x0 x1 x6 x7) (k0_pay8 x4 x5) (iota .tc S1024x1 32 [0] iota_S1024x1_d0_w32) 1024#32 x3 xs1 := by
  unfold sout_B_1
  rw [View.read_writes_eq_canon _ _ _ (scover_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun_B
  dsimp only
  sl_unfold_words
  first | rw [View.canon_unit_zero (S := S1024x256) hz2] | rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

/-! ## Restarting from zero -/

theorem sout_A_0_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  :
    sout_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay2 (BitVec.ofNat 32 (i 0).val) (BitVec.ofNat 32 (i 1).val) (k0_pay7 x0 x1 x6 x7) (k0_pay8 x4 x5) (iota .tc S1024x1 32 [0] iota_S1024x1_d0_w32) 1024#32 (k0_pay5 (F := F)) := by
  unfold sout_A_0
  rw [View.read_writes_eq_canon _ _ _ (scover_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun_A
  dsimp only
  sl_unfold_words
  first | rw [View.canon_unit_zero (S := S1024x1) hz2] | rw [View.canon_cons_unit_zero (S := S1024x1) hz2]
  (try rw [View.readCov_unit_zero (S := S1024x1) _ hz2])
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

theorem sout_A_1_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : cond0 i) (hc1 : ¬cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32)  :
    sout_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 = k0_pay3 (BitVec.ofNat 32 (i 0).val) (BitVec.ofNat 32 (i 1).val) (k0_pay7 x0 x1 x6 x7) (k0_pay8 x4 x5) (iota .tc S1024x1 32 [0] iota_S1024x1_d0_w32) 1024#32 x3 (k0_pay6 (F := F)) := by
  unfold sout_A_1
  rw [View.read_writes_eq_canon _ _ _ (scover_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11)]
  unfold kernelRun_A
  dsimp only
  sl_unfold_words
  first | rw [View.canon_unit_zero (S := S1024x256) hz2] | rw [View.canon_cons_unit_zero (S := S1024x256) hz2]
  (try rw [View.readCov_unit_zero (S := S1024x256) _ hz2])
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

/-! ## The last column tile -/

theorem sout_C_0_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    sout_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay2 (BitVec.ofNat 32 (i 0).val) (BitVec.ofNat 32 (i 1).val) (k0_pay7 x0 x1 x6 x7) (k0_pay8 x4 x5) (iota .tc S1024x1 32 [0] iota_S1024x1_d0_w32) 1024#32 xs0 := by
  unfold sout_C_0
  rw [View.read_writes_eq_canon _ _ _ (scover_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun_C
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

theorem sout_C_1_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    sout_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay3 (BitVec.ofNat 32 (i 0).val) (BitVec.ofNat 32 (i 1).val) (k0_pay7 x0 x1 x6 x7) (k0_pay8 x4 x5) (iota .tc S1024x1 32 [0] iota_S1024x1_d0_w32) 1024#32 x3 xs1 := by
  unfold sout_C_1
  rw [View.read_writes_eq_canon _ _ _ (scover_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun_C
  dsimp only
  sl_unfold_words
  first | rw [View.canon_unit_zero (S := S1024x256) hz2] | rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

theorem out_C_12_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .f32) (harg4 : arg4.IsWhole) (arg5 : Memref sig .tc .vmem S1024x256 .bf16) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1x1 .f32) (harg8 : arg8.IsWhole) (arg9 : Memref sig .tc .vmem S1x1 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x512 .f32) (harg12 : arg12.IsWhole) (arg13 : Memref sig .tc .vmem S1x512 .f32) (harg13 : arg13.IsWhole) (arg14 : Memref sig .tc .vmem S1024x256 .f32) (harg14 : arg14.IsWhole) (arg15 : Memref sig .tc .vmem S1024x1 .f32) (harg15 : arg15.IsWhole) (arg16 : Memref sig .tc .vmem S1024x256 .f32) (harg16 : arg16.IsWhole) (hc0 : ¬cond0 i) (hc1 : cond1 i)
    (x0 : Vec F S1024x256 .bf16) (x1 : Vec F S1024x256 .bf16) (x2 : Vec F S1024x256 .f32) (x3 : Vec F S1024x256 .bf16) (x4 : Vec F S1024x1 .i32) (x5 : Vec F S1x1024 .i32) (x6 : Vec F S1x1 .f32) (x7 : Vec F S1x1 .f32) (x8 : Vec F S256x256 .f32) (x9 : Vec F S1x256 .f32) (x10 : Vec F S256x512 .f32) (x11 : Vec F S1x512 .f32) (xs0 : Vec F S1024x1 .f32) (xs1 : Vec F S1024x256 .f32) :
    out_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1 = k0_pay4 (k0_pay2 (BitVec.ofNat 32 (i 0).val) (BitVec.ofNat 32 (i 1).val) (k0_pay7 x0 x1 x6 x7) (k0_pay8 x4 x5) (iota .tc S1024x1 32 [0] iota_S1024x1_d0_w32) 1024#32 xs0) (k0_pay3 (BitVec.ofNat 32 (i 0).val) (BitVec.ofNat 32 (i 1).val) (k0_pay7 x0 x1 x6 x7) (k0_pay8 x4 x5) (iota .tc S1024x1 32 [0] iota_S1024x1_d0_w32) 1024#32 x3 xs1) x8 x9 x10 x11 x2 := by
  unfold out_C_12
  rw [View.read_writes_eq_canon _ _ _ (cover_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 xs0 xs1)]
  unfold kernelRun_C
  dsimp only
  sl_unfold_words
  first | rw [View.canon_unit_zero (S := S1024x256) hz2] | rw [View.canon_cons_unit_zero (S := S1024x256) hz2]
  (try rw [View.readCov_unit_zero (S := S1024x1) _ hz2])
  (try rw [View.readCov_unit_zero (S := S1024x256) _ hz2])
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S1024x256) hz2, View.ld_unit_zero (S := S1024x1) hz2, View.ld_unit_zero (S := S1x1024) hz2, View.ld_unit_zero (S := S1x1) hz2, View.ld_unit_zero (S := S256x256) hz2, View.ld_unit_zero (S := S1x256) hz2, View.ld_unit_zero (S := S256x512) hz2, View.ld_unit_zero (S := S1x512) hz2]

end Cert.KernelIdeal.Fr

end
-- ==== Proof.FrameValue.lean ====
/-
  What the accumulators hold after each grid point, as the body's arithmetic over the point's blocks.

  A grid point's row tile is its position divided by eight and its column tile the remainder. At a point of column
  tile zero the accumulators are the tile's sums over zero; at any other point they are the tile's sums over what the
  point before left; at a point of column tile seven the output block is the epilogue of the updated accumulators.
-/
import proofs.«162713_j40484361732478_2_alg».proof.Proof.FramePieces

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile and the column tile of a grid point. -/
theorem coords_eq : ∀ t : Fin cfg0.N, ((grid0.coords t) 0).val = t.val / 8 ∧ ((grid0.coords t) 1).val = t.val % 8 :=
  (by decide +kernel : ∀ t : Fin grid0.N, ((grid0.coords t) 0).val = t.val / 8 ∧ ((grid0.coords t) 1).val = t.val % 8)

/-- At a point of column tile zero: the tile's sums over zero. -/
theorem outsAt_first (c : Dev nD) (t : Fin cfg0.N) (h0 : t.val % 8 = 0) :
    (outsAt m c t.val t.isLt).2 = (k0_pay2 (BitVec.ofNat 32 (t.val / 8)) (BitVec.ofNat 32 (t.val % 8)) (k0_pay7 (iblk m c 0 t) (iblk m c 1 t) (iblk m c 6 t) (iblk m c 7 t)) (k0_pay8 (iblk m c 4 t) (iblk m c 5 t)) (iota .tc S1024x1 32 [0] iota_S1024x1_d0_w32) 1024#32 (k0_pay5 (F := F)), k0_pay3 (BitVec.ofNat 32 (t.val / 8)) (BitVec.ofNat 32 (t.val % 8)) (k0_pay7 (iblk m c 0 t) (iblk m c 1 t) (iblk m c 6 t) (iblk m c 7 t)) (k0_pay8 (iblk m c 4 t) (iblk m c 5 t)) (iota .tc S1024x1 32 [0] iota_S1024x1_d0_w32) 1024#32 (iblk m c 3 t) (k0_pay6 (F := F))) := by
  have h1 : ¬t.val % 8 = 7 := by omega
  rw [outsAt_A m c t h0 h1]
  simp only [sout_A_0_eq, sout_A_1_eq, (coords_eq t).1, (coords_eq t).2]

/-- At any other point: the tile's sums over what the point before left. -/
theorem outsAt_next (c : Dev nD) (t : Fin cfg0.N) (h0 : ¬t.val % 8 = 0) :
    (outsAt m c t.val t.isLt).2 = (k0_pay2 (BitVec.ofNat 32 (t.val / 8)) (BitVec.ofNat 32 (t.val % 8)) (k0_pay7 (iblk m c 0 t) (iblk m c 1 t) (iblk m c 6 t) (iblk m c 7 t)) (k0_pay8 (iblk m c 4 t) (iblk m c 5 t)) (iota .tc S1024x1 32 [0] iota_S1024x1_d0_w32) 1024#32 (outsAt m c (t.val - 1) (Nat.lt_of_le_of_lt (Nat.sub_le _ _) t.isLt)).2.1, k0_pay3 (BitVec.ofNat 32 (t.val / 8)) (BitVec.ofNat 32 (t.val % 8)) (k0_pay7 (iblk m c 0 t) (iblk m c 1 t) (iblk m c 6 t) (iblk m c 7 t)) (k0_pay8 (iblk m c 4 t) (iblk m c 5 t)) (iota .tc S1024x1 32 [0] iota_S1024x1_d0_w32) 1024#32 (iblk m c 3 t) (outsAt m c (t.val - 1) (Nat.lt_of_le_of_lt (Nat.sub_le _ _) t.isLt)).2.2) := by
  by_cases h1 : t.val % 8 = 7
  · rw [outsAt_C m c t h0 h1]
    simp only [sout_C_0_eq, sout_C_1_eq, (coords_eq t).1, (coords_eq t).2]
  · rw [outsAt_B m c t h0 h1]
    simp only [sout_B_0_eq, sout_B_1_eq, (coords_eq t).1, (coords_eq t).2]

/-- At a point of column tile seven: the output block is the epilogue of the two updated accumulators. -/
theorem outsAt_out (c : Dev nD) (t : Fin cfg0.N) (h1 : t.val % 8 = 7) :
    (outsAt m c t.val t.isLt).1 = k0_pay4 (outsAt m c t.val t.isLt).2.1 (outsAt m c t.val t.isLt).2.2 (iblk m c 8 t) (iblk m c 9 t) (iblk m c 10 t) (iblk m c 11 t) (iblk m c 2 t) := by
  have h0 : ¬t.val % 8 = 0 := by omega
  rw [outsAt_next m c t h0]
  rw [outsAt_C m c t h0 h1]
  simp only [out_C_12_eq, (coords_eq t).1, (coords_eq t).2]

end Cert.KernelIdeal.Fr

end
-- ==== Proof.KPayLib.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout

/-!
General readings at an index used by the payload lemmas: a matrix product into a zero accumulator
as the sum over the contracted coordinate; the column (keepdims) forms of a shape cast and of a
broadcast; a sum along the lanes of a matrix as the sum over the column coordinate.
-/

noncomputable section

namespace Cert.KernelIdeal.PayIdx

open Idealize.ShloMosaic Idealize.ShloMosaic.ValueIdx Idealize.SL.Sem Cert.KernelIdeal Cert.KernelIdeal.Gen

/-- A matrix product with ONE contracted axis, into a zero accumulator, read at an index `j`: the sum over the
    contracted coordinate `k` of the left operand at `li k` times the right operand at `ri k`, whenever these
    are the operand indices the dimension numbers give for `j` and `k`. -/
theorem matmul0_apply_of {sl sr so : Shape} {φ₁ φ₂ : FTy} (D : DotDims sl sr so) (n : Nat) (hr : D.contr.rank = 1)
    (hs : D.contr.size ⟨0, by omega⟩ = n) (lhs : FVec Ideal sl φ₁) (rhs : FVec Ideal sr φ₂) (j : so.Idx)
    (li : Fin n → sl.Idx) (ri : Fin n → sr.Idx)
    (hl : ∀ k, D.lhsIdx j ((contrEquiv1 D n hr hs).symm k) = li k)
    (hri : ∀ k, D.rhsIdx j ((contrEquiv1 D n hr hs).symm k) = ri k) :
    matmul D none lhs rhs (constant (F := Ideal) so .f32 0x00000000#32) j = ∑ k : Fin n, lhs (li k) * rhs (ri k) := by
  refine (Ideal.matmul_constant_zero_apply D none lhs rhs j).trans ?_
  rw [← Equiv.sum_comp (contrEquiv1 D n hr hs).symm]
  exact Finset.sum_congr rfl fun k _ => by rw [hl k, hri k]

/-- The product of a `1024×1024` by a `1024×256` block into a zero accumulator, read at `(p, d)`:
    the sum over the contracted coordinate of the products of the row of the left and the column of the right. -/
theorem matmul_adj_nodes_apply (a : FVec Ideal S1024x1024 .bf16) (b : FVec Ideal S1024x256 .bf16) (p : Fin 1024) (d : Fin 256) :
    matmul dot_S1024x1024_S1024x256_S1024x256_1_0_0_1_n_n none a b (constant (F := Ideal) S1024x256 .f32 0x00000000#32) (ix2 p d)
      = ∑ k : Fin 1024, a (ix2 p k) * b (ix2 k d) := by
  refine matmul0_apply_of dot_S1024x1024_S1024x256_S1024x256_1_0_0_1_n_n 1024 rfl rfl a b (ix2 p d) (fun k => ix2 p k) (fun k => ix2 k d) (fun k => ?_) (fun k => ?_)
  · have hk := contrEquiv1_symm_val dot_S1024x1024_S1024x256_S1024x256_1_0_0_1_n_n 1024 rfl rfl k
    refine funext fun ax => Fin.ext ?_
    match ax with
    | ⟨0, _⟩ =>
      show (dot_S1024x1024_S1024x256_S1024x256_1_0_0_1_n_n.lhsIdx (ix2 p d) _ 0).val = p.val
      unfold DotDims.lhsIdx
      rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
      rfl
    | ⟨1, _⟩ => exact (dot_S1024x1024_S1024x256_S1024x256_1_0_0_1_n_n.lhsIdx_val_of_single rfl (ix2 p d) _).trans hk
  · have hk := contrEquiv1_symm_val dot_S1024x1024_S1024x256_S1024x256_1_0_0_1_n_n 1024 rfl rfl k
    refine funext fun ax => Fin.ext ?_
    match ax with
    | ⟨0, _⟩ => exact (dot_S1024x1024_S1024x256_S1024x256_1_0_0_1_n_n.rhsIdx_val_of_single rfl (ix2 p d) _).trans hk
    | ⟨1, _⟩ =>
      show (dot_S1024x1024_S1024x256_S1024x256_1_0_0_1_n_n.rhsIdx (ix2 p d) _ 1).val = d.val
      unfold DotDims.rhsIdx
      rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
      rfl

/-- The product of a `1024×256` by a `256×1024` block into a zero accumulator, read at `(p, d)`:
    the sum over the contracted coordinate of the products of the row of the left and the column of the right. -/
theorem matmul_sim_apply (a : FVec Ideal S1024x256 .bf16) (b : FVec Ideal S256x1024 .bf16) (p : Fin 1024) (d : Fin 1024) :
    matmul dot_S1024x256_S256x1024_S1024x1024_1_0_0_1_n_n none a b (constant (F := Ideal) S1024x1024 .f32 0x00000000#32) (ix2 p d)
      = ∑ k : Fin 256, a (ix2 p k) * b (ix2 k d) := by
  refine matmul0_apply_of dot_S1024x256_S256x1024_S1024x1024_1_0_0_1_n_n 256 rfl rfl a b (ix2 p d) (fun k => ix2 p k) (fun k => ix2 k d) (fun k => ?_) (fun k => ?_)
  · have hk := contrEquiv1_symm_val dot_S1024x256_S256x1024_S1024x1024_1_0_0_1_n_n 256 rfl rfl k
    refine funext fun ax => Fin.ext ?_
    match ax with
    | ⟨0, _⟩ =>
      show (dot_S1024x256_S256x1024_S1024x1024_1_0_0_1_n_n.lhsIdx (ix2 p d) _ 0).val = p.val
      unfold DotDims.lhsIdx
      rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
      rfl
    | ⟨1, _⟩ => exact (dot_S1024x256_S256x1024_S1024x1024_1_0_0_1_n_n.lhsIdx_val_of_single rfl (ix2 p d) _).trans hk
  · have hk := contrEquiv1_symm_val dot_S1024x256_S256x1024_S1024x1024_1_0_0_1_n_n 256 rfl rfl k
    refine funext fun ax => Fin.ext ?_
    match ax with
    | ⟨0, _⟩ => exact (dot_S1024x256_S256x1024_S1024x1024_1_0_0_1_n_n.rhsIdx_val_of_single rfl (ix2 p d) _).trans hk
    | ⟨1, _⟩ =>
      show (dot_S1024x256_S256x1024_S1024x1024_1_0_0_1_n_n.rhsIdx (ix2 p d) _ 1).val = d.val
      unfold DotDims.rhsIdx
      rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
      rfl

/-- The product of a `1024×256` by a `256×256` block into a zero accumulator, read at `(p, d)`:
    the sum over the contracted coordinate of the products of the row of the left and the column of the right. -/
theorem matmul_dense1_apply (a : FVec Ideal S1024x256 .bf16) (b : FVec Ideal S256x256 .bf16) (p : Fin 1024) (d : Fin 256) :
    matmul dot_S1024x256_S256x256_S1024x256_1_0_0_1_n_n none a b (constant (F := Ideal) S1024x256 .f32 0x00000000#32) (ix2 p d)
      = ∑ k : Fin 256, a (ix2 p k) * b (ix2 k d) := by
  refine matmul0_apply_of dot_S1024x256_S256x256_S1024x256_1_0_0_1_n_n 256 rfl rfl a b (ix2 p d) (fun k => ix2 p k) (fun k => ix2 k d) (fun k => ?_) (fun k => ?_)
  · have hk := contrEquiv1_symm_val dot_S1024x256_S256x256_S1024x256_1_0_0_1_n_n 256 rfl rfl k
    refine funext fun ax => Fin.ext ?_
    match ax with
    | ⟨0, _⟩ =>
      show (dot_S1024x256_S256x256_S1024x256_1_0_0_1_n_n.lhsIdx (ix2 p d) _ 0).val = p.val
      unfold DotDims.lhsIdx
      rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
      rfl
    | ⟨1, _⟩ => exact (dot_S1024x256_S256x256_S1024x256_1_0_0_1_n_n.lhsIdx_val_of_single rfl (ix2 p d) _).trans hk
  · have hk := contrEquiv1_symm_val dot_S1024x256_S256x256_S1024x256_1_0_0_1_n_n 256 rfl rfl k
    refine funext fun ax => Fin.ext ?_
    match ax with
    | ⟨0, _⟩ => exact (dot_S1024x256_S256x256_S1024x256_1_0_0_1_n_n.rhsIdx_val_of_single rfl (ix2 p d) _).trans hk
    | ⟨1, _⟩ =>
      show (dot_S1024x256_S256x256_S1024x256_1_0_0_1_n_n.rhsIdx (ix2 p d) _ 1).val = d.val
      unfold DotDims.rhsIdx
      rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
      rfl

/-- The product of a `1024×256` by a `256×512` block into a zero accumulator, read at `(p, d)`:
    the sum over the contracted coordinate of the products of the row of the left and the column of the right. -/
theorem matmul_dense2_apply (a : FVec Ideal S1024x256 .bf16) (b : FVec Ideal S256x512 .bf16) (p : Fin 1024) (d : Fin 512) :
    matmul dot_S1024x256_S256x512_S1024x512_1_0_0_1_n_n none a b (constant (F := Ideal) S1024x512 .f32 0x00000000#32) (ix2 p d)
      = ∑ k : Fin 256, a (ix2 p k) * b (ix2 k d) := by
  refine matmul0_apply_of dot_S1024x256_S256x512_S1024x512_1_0_0_1_n_n 256 rfl rfl a b (ix2 p d) (fun k => ix2 p k) (fun k => ix2 k d) (fun k => ?_) (fun k => ?_)
  · have hk := contrEquiv1_symm_val dot_S1024x256_S256x512_S1024x512_1_0_0_1_n_n 256 rfl rfl k
    refine funext fun ax => Fin.ext ?_
    match ax with
    | ⟨0, _⟩ =>
      show (dot_S1024x256_S256x512_S1024x512_1_0_0_1_n_n.lhsIdx (ix2 p d) _ 0).val = p.val
      unfold DotDims.lhsIdx
      rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
      rfl
    | ⟨1, _⟩ => exact (dot_S1024x256_S256x512_S1024x512_1_0_0_1_n_n.lhsIdx_val_of_single rfl (ix2 p d) _).trans hk
  · have hk := contrEquiv1_symm_val dot_S1024x256_S256x512_S1024x512_1_0_0_1_n_n 256 rfl rfl k
    refine funext fun ax => Fin.ext ?_
    match ax with
    | ⟨0, _⟩ => exact (dot_S1024x256_S256x512_S1024x512_1_0_0_1_n_n.rhsIdx_val_of_single rfl (ix2 p d) _).trans hk
    | ⟨1, _⟩ =>
      show (dot_S1024x256_S256x512_S1024x512_1_0_0_1_n_n.rhsIdx (ix2 p d) _ 1).val = d.val
      unfold DotDims.rhsIdx
      rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
      rfl

section Layout
variable {α : Type}

/-- A column `[a, 1]` broadcast to `[a, b]` reads, at `(p, q)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` block broadcast to `[a, b]` reads its one element everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- An `[a]` vector cast to the column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- A sum along the lanes (axis 1) of an `[a, b]` matrix from the zero accumulator, read at row `p`: the sum over
    the column coordinate. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin b, src (ix2 p q) := by
  refine (Ideal.multiReduction_add_single src 0x00000000#32 h hφ hacc (ix1 p)).trans ?_
  refine Finset.sum_congr rfl fun q _ => congrArg src (funext fun ax => Fin.ext ?_)
  match ax with
  | ⟨0, _⟩ => rfl
  | ⟨1, _⟩ => rfl

end Cert.KernelIdeal.PayIdx

end
-- ==== Proof.KPay1.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The same-patient comparison tile and the masked logistic tile, at an index. -/

noncomputable section

namespace Cert.KernelIdeal.PayIdx

open Idealize.ShloMosaic Idealize.ShloMosaic.ValueIdx Idealize.SL.Sem Cert.KernelIdeal Cert.KernelIdeal.Gen

/-- The same-patient tile read at `(p, q)`: the comparison of the row tile's id at `p` with the column tile's id at `q`. -/
theorem pay8_apply (v28 : Vec Ideal S1024x1 .i32) (v30 : Vec Ideal S1x1024 .i32) (p q : Fin 1024) :
    k0_pay8 (F := Ideal) v28 v30 (ix2 p q)
      = IntOp.cmpi .eq (v28 (ix2 p (0 : Fin 1))) (v30 (ix2 (0 : Fin 1) q)) := by
  unfold k0_pay8
  have e1 : broadcastTo S1024x1024 (shapeCast S1024x1 v28 shapeCasts_S1024x1_S1024x1) broadcasts_S1024x1_S1024x1024 (ix2 p q)
      = v28 (ix2 p (0 : Fin 1)) :=
    (broadcastTo_a1_ab_apply _ broadcasts_S1024x1_S1024x1024 p q).trans
      (congrFun (shapeCast_self v28 shapeCasts_S1024x1_S1024x1) _)
  have e2 : broadcastTo S1024x1024 (shapeCast S1x1024 v30 shapeCasts_S1x1024_S1x1024) broadcasts_S1x1024_S1024x1024 (ix2 p q)
      = v30 (ix2 (0 : Fin 1) q) :=
    (broadcastTo_1b_ab_apply _ broadcasts_S1x1024_S1024x1024 p q).trans
      (congrFun (shapeCast_self v30 shapeCasts_S1x1024_S1x1024) _)
  show IntOp.cmpi .eq _ _ = _
  rw [e1, e2]

/-- An equality comparison of two words is the bit `1` exactly when they are equal. -/
theorem cmpi_eq_one_iff (x y : BitVec 32) : IntOp.cmpi .eq x y = 1#1 ↔ x = y := by
  exact IntOp.cmpi_eq

/-- So the same-patient bit is `1` exactly when the two ids are equal. -/
theorem pay8_eq_one_iff (v28 : Vec Ideal S1024x1 .i32) (v30 : Vec Ideal S1x1024 .i32) (p q : Fin 1024) :
    k0_pay8 (F := Ideal) v28 v30 (ix2 p q) = 1#1 ↔ v28 (ix2 p (0 : Fin 1)) = v30 (ix2 (0 : Fin 1) q) := by
  rw [pay8_apply]; exact cmpi_eq_one_iff _ _

/-- The global row number broadcast along the rows: the row iota at `p` plus the row tile's offset. -/
theorem rowNo_apply (v35 : IVec S1024x1 32) (z : BitVec 32) (p q : Fin 1024) :
    broadcastTo S1024x1024 (addi v35 (broadcast S1024x1 z)) broadcasts_S1024x1_S1024x1024 (ix2 p q)
      = v35 (ix2 p (0 : Fin 1)) + z :=
  broadcastTo_a1_ab_apply _ broadcasts_S1024x1_S1024x1024 p q

/-- The global column number broadcast along the columns: the lane number `q` plus the column tile's offset. -/
theorem colNo_apply (z : BitVec 32) (p q : Fin 1024) :
    broadcastTo S1024x1024 (addi (iota .tc S1x1024 32 [1] iota_S1x1024_d1_w32) (broadcast S1x1024 z))
        broadcasts_S1x1024_S1024x1024 (ix2 p q)
      = BitVec.ofNat 32 q.val + z := by
  refine (broadcastTo_1b_ab_apply _ broadcasts_S1x1024_S1024x1024 p q).trans ?_
  exact congrArg (· + z) (iota_single_apply .tc S1x1024 32 1 iota_S1x1024_d1_w32 (ix2 (0 : Fin 1) q))

/-- Putting the two readings into the select. -/
theorem pay1_combine (m : BitVec 1) (X Y x y : BitVec 32) (z t : EReal) (hx : X = x) (hy : Y = y) :
    Scalar.select (IntOp.ori m (IntOp.cmpi .eq X Y)) z t = Scalar.select (m ||| IntOp.cmpi .eq x y) z t := by
  rw [hx, hy]; rfl

/-- The masked logistic tile read at `(p, q)`, as the operations give it. -/
theorem pay1_raw (arg0 arg1 : BitVec 32) (v27 : FVec Ideal S1024x1024 .f32) (v34 : IVec S1024x1024 1)
    (v35 : IVec S1024x1 32) (c1024 : BitVec 32) (p q : Fin 1024) :
    k0_pay1 (F := Ideal) arg0 arg1 v27 v34 v35 c1024 (ix2 p q)
      = Scalar.select (v34 (ix2 p q) ||| IntOp.cmpi .eq (v35 (ix2 p (0 : Fin 1)) + arg0 * c1024)
            (BitVec.ofNat 32 q.val + arg1 * 1024#32))
          (Ideal.ofBits .f32 0x00000000#32) (v27 (ix2 p q)) := by
  unfold k0_pay1
  exact pay1_combine _ _ _ _ _ _ _ (rowNo_apply v35 _ p q) (colNo_apply _ p q)

/-- A select on "mask bit, or the two words equal" is the `if` on that condition. -/
theorem select_or_cmpi_eq (m : BitVec 1) (x y : BitVec 32) (z t : EReal) :
    Scalar.select (m ||| IntOp.cmpi .eq x y) z t = if (m = 1#1 ∨ x = y) then z else t := by
  unfold Scalar.select
  have h : (m ||| IntOp.cmpi .eq x y = 1#1) ↔ (m = 1#1 ∨ x = y) := by
    by_cases hxy : x = y
    · have hc : IntOp.cmpi .eq x y = 1#1 := (cmpi_eq_one_iff x y).mpr hxy
      rw [hc]
      rcases BitVec.eq_zero_or_eq_one m with hm | hm <;> subst hm <;> simp [hxy]
    · have hc : IntOp.cmpi .eq x y = 0#1 := eq_zero_of_ne_one (fun h1 => hxy ((cmpi_eq_one_iff x y).mp h1))
      rw [hc, BitVec.or_zero]
      simp [hxy]
  by_cases hc : (m = 1#1 ∨ x = y)
  · rw [if_pos hc]; exact if_pos (h.mpr hc)
  · rw [if_neg hc]; exact if_neg (fun h1 => hc (h.mp h1))

/-- The masked logistic tile read at `(p, q)`: zero where the same-patient bit is set or the global row number
    equals the global column number (as 32-bit words), else the logistic. -/
theorem pay1_apply (arg0 arg1 : BitVec 32) (v27 : FVec Ideal S1024x1024 .f32) (v34 : IVec S1024x1024 1)
    (v35 : IVec S1024x1 32) (c1024 : BitVec 32) (p q : Fin 1024) :
    k0_pay1 (F := Ideal) arg0 arg1 v27 v34 v35 c1024 (ix2 p q)
      = if (v34 (ix2 p q) = 1#1 ∨ v35 (ix2 p (0 : Fin 1)) + arg0 * c1024 = BitVec.ofNat 32 q.val + arg1 * 1024#32)
        then (0 : EReal) else v27 (ix2 p q) := by
  rw [pay1_raw, select_or_cmpi_eq, Ideal.ofBits_zero_f32]

/-- The row iota read at `(p, u)` is the word `p`. -/
theorem rowIota_apply (p : Fin 1024) (u : Fin 1) :
    iota .tc S1024x1 32 [0] iota_S1024x1_d0_w32 (ix2 p u) = BitVec.ofNat 32 p.val :=
  iota_single_apply .tc S1024x1 32 0 iota_S1024x1_d0_w32 (ix2 p u)

/-- For tile numbers below 8 the comparison of the two global numbers as 32-bit words is their comparison as naturals. -/
theorem globalNo_eq_iff (a b : Nat) (ha : a < 8) (hb : b < 8) (p q : Fin 1024) :
    (BitVec.ofNat 32 p.val + BitVec.ofNat 32 a * 1024#32 = BitVec.ofNat 32 q.val + BitVec.ofNat 32 b * 1024#32)
      ↔ (1024 * a + p.val = 1024 * b + q.val) := by
  have hp := p.isLt
  have hq := q.isLt
  rw [← BitVec.toNat_inj]
  simp only [BitVec.toNat_add, BitVec.toNat_mul, BitVec.toNat_ofNat]
  omega

/-- The masked logistic tile at grid point `(a, b)`, read at `(p, q)`: zero where the same-patient bit is set or the
    global row `1024·a + p` is the global column `1024·b + q`, else the logistic. -/
theorem pay1_apply_grid (a b : Nat) (ha : a < 8) (hb : b < 8) (v27 : FVec Ideal S1024x1024 .f32)
    (v34 : IVec S1024x1024 1) (p q : Fin 1024) :
    k0_pay1 (F := Ideal) (BitVec.ofNat 32 a) (BitVec.ofNat 32 b) v27 v34
        (iota .tc S1024x1 32 [0] iota_S1024x1_d0_w32) 1024#32 (ix2 p q)
      = if (v34 (ix2 p q) = 1#1 ∨ 1024 * a + p.val = 1024 * b + q.val) then (0 : EReal) else v27 (ix2 p q) := by
  rw [pay1_apply, rowIota_apply]
  exact if_congr (or_congr Iff.rfl (globalNo_eq_iff a b ha hb p q)) rfl rfl

/-- The same with the same-patient bit read: zero where the two patient ids are equal or the global row is the
    global column, else the logistic. -/
theorem pay1_apply_grid_pid (a b : Nat) (ha : a < 8) (hb : b < 8) (v27 : FVec Ideal S1024x1024 .f32)
    (v28 : Vec Ideal S1024x1 .i32) (v30 : Vec Ideal S1x1024 .i32) (p q : Fin 1024) :
    k0_pay1 (F := Ideal) (BitVec.ofNat 32 a) (BitVec.ofNat 32 b) v27 (k0_pay8 (F := Ideal) v28 v30)
        (iota .tc S1024x1 32 [0] iota_S1024x1_d0_w32) 1024#32 (ix2 p q)
      = if (v28 (ix2 p (0 : Fin 1)) = v30 (ix2 (0 : Fin 1) q) ∨ 1024 * a + p.val = 1024 * b + q.val)
        then (0 : EReal) else v27 (ix2 p q) := by
  rw [pay1_apply_grid a b ha hb]
  exact if_congr (or_congr (pay8_eq_one_iff v28 v30 p q) Iff.rfl) rfl rfl

end Cert.KernelIdeal.PayIdx

end
-- ==== Proof.KPay4.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The output tile written at the last column tile, at an index: the normalized product, the two dense layers and
    the modulation of the nodes. -/

noncomputable section

namespace Cert.KernelIdeal.PayIdx

open Idealize.ShloMosaic Idealize.ShloMosaic.ValueIdx Idealize.SL.Sem Cert.KernelIdeal Cert.KernelIdeal.Gen

/-! ## The values at an index, as scalars -/

/-- The row sum plus the small constant `1e-6`. -/
def rsK (v68 : FVec Ideal S1024x1 .f32) (p : Fin 1024) : EReal :=
  v68 (ix2 p (0 : Fin 1)) + Ideal.ofBits .f32 0x358637BD#32

/-- The accumulated product divided by the row sum. -/
def wnK (v68 : FVec Ideal S1024x1 .f32) (v71 : FVec Ideal S1024x256 .f32) (p : Fin 1024) (k : Fin 256) : EReal :=
  Ideal.div (v71 (ix2 p k)) (rsK v68 p)

/-- The first dense layer with its bias, clamped below at zero. -/
def hK (v68 : FVec Ideal S1024x1 .f32) (v71 : FVec Ideal S1024x256 .f32) (v75 : FVec Ideal S256x256 .f32)
    (v78 : FVec Ideal S1x256 .f32) (p : Fin 1024) (j : Fin 256) : EReal :=
  max ((∑ k : Fin 256, wnK v68 v71 p k * v75 (ix2 k j)) + v78 (ix2 (0 : Fin 1) j)) (Ideal.ofBits .f32 0x00000000#32)

/-- The second dense layer with its bias. -/
def filmK (v68 : FVec Ideal S1024x1 .f32) (v71 : FVec Ideal S1024x256 .f32) (v75 : FVec Ideal S256x256 .f32)
    (v78 : FVec Ideal S1x256 .f32) (v85 : FVec Ideal S256x512 .f32) (v88 : FVec Ideal S1x512 .f32)
    (p : Fin 1024) (j : Fin 512) : EReal :=
  (∑ k : Fin 256, hK v68 v71 v75 v78 p k * v85 (ix2 k j)) + v88 (ix2 (0 : Fin 1) j)

/-! ## The same values as whole vectors, as the payload builds them -/

def rsV (v68 : FVec Ideal S1024x1 .f32) : FVec Ideal S1024x1 .f32 :=
  addf v68 (broadcast S1024x1 (FloatOps.ofBits (F := Ideal) .f32 0x358637BD#32))

def wnV (v68 : FVec Ideal S1024x1 .f32) (v71 : FVec Ideal S1024x256 .f32) : FVec Ideal S1024x256 .f32 :=
  divf v71 (broadcastTo S1024x256 (rsV v68) broadcasts_S1024x1_S1024x256)

def hV (v68 : FVec Ideal S1024x1 .f32) (v71 : FVec Ideal S1024x256 .f32) (v75 : FVec Ideal S256x256 .f32)
    (v78 : FVec Ideal S1x256 .f32) : FVec Ideal S1024x256 .f32 :=
  maximumf
    (addf
      (matmul dot_S1024x256_S256x256_S1024x256_1_0_0_1_n_n none (truncf .bf16 (wnV v68 v71) bitsLt_bf16_f32)
        (truncf .bf16 v75 bitsLt_bf16_f32) (constant (F := Ideal) S1024x256 .f32 0x00000000#32))
      (broadcastTo S1024x256 (shapeCast S1x256 v78 shapeCasts_S1x256_S1x256) broadcasts_S1x256_S1024x256))
    (broadcast S1024x256 (FloatOps.ofBits (F := Ideal) .f32 0x00000000#32))

def filmV (v68 : FVec Ideal S1024x1 .f32) (v71 : FVec Ideal S1024x256 .f32) (v75 : FVec Ideal S256x256 .f32)
    (v78 : FVec Ideal S1x256 .f32) (v85 : FVec Ideal S256x512 .f32) (v88 : FVec Ideal S1x512 .f32) :
    FVec Ideal S1024x512 .f32 :=
  addf
    (matmul dot_S1024x256_S256x512_S1024x512_1_0_0_1_n_n none (truncf .bf16 (hV v68 v71 v75 v78) bitsLt_bf16_f32)
      (truncf .bf16 v85 bitsLt_bf16_f32) (constant (F := Ideal) S1024x512 .f32 0x00000000#32))
    (broadcastTo S1024x512 (shapeCast S1x512 v88 shapeCasts_S1x512_S1x512) broadcasts_S1x512_S1024x512)

/-- The payload is the modulation of the nodes by the two halves of the second layer, over these vectors. -/
theorem pay4_eq (v68 : FVec Ideal S1024x1 .f32) (v71 : FVec Ideal S1024x256 .f32) (v75 : FVec Ideal S256x256 .f32)
    (v78 : FVec Ideal S1x256 .f32) (v85 : FVec Ideal S256x512 .f32) (v88 : FVec Ideal S1x512 .f32)
    (v94 : FVec Ideal S1024x256 .f32) :
    k0_pay4 (F := Ideal) v68 v71 v75 v78 v85 v88 v94
      = addf v94
          (mulf
            (addf
              (mulf
                (addf (broadcast S1024x256 (FloatOps.ofBits (F := Ideal) .f32 0x3F800000#32))
                  (extractStridedSlice S1024x256 ![0, 0] (filmV v68 v71 v75 v78 v85 v88) slices_S1024x512_o0_0_S1024x256))
                v94)
              (extractStridedSlice S1024x256 ![0, 256] (filmV v68 v71 v75 v78 v85 v88) slices_S1024x512_o0_256_S1024x256))
            (broadcastTo S1024x256 (tanh (rsV v68)) broadcasts_S1024x1_S1024x256)) := by
  unfold k0_pay4 filmV hV wnV rsV
  rfl

/-! ## Each vector read at an index -/

theorem rsV_apply (v68 : FVec Ideal S1024x1 .f32) (p : Fin 1024) :
    rsV v68 (ix2 p (0 : Fin 1)) = rsK v68 p := rfl

theorem wnV_apply (v68 : FVec Ideal S1024x1 .f32) (v71 : FVec Ideal S1024x256 .f32) (p : Fin 1024) (k : Fin 256) :
    wnV v68 v71 (ix2 p k) = wnK v68 v71 p k := by
  unfold wnV wnK
  exact congrArg (Ideal.div (v71 (ix2 p k)))
    ((broadcastTo_a1_ab_apply (rsV v68) broadcasts_S1024x1_S1024x256 p k).trans (rsV_apply v68 p))

theorem hV_apply (v68 : FVec Ideal S1024x1 .f32) (v71 : FVec Ideal S1024x256 .f32) (v75 : FVec Ideal S256x256 .f32)
    (v78 : FVec Ideal S1x256 .f32) (p : Fin 1024) (j : Fin 256) :
    hV v68 v71 v75 v78 (ix2 p j) = hK v68 v71 v75 v78 p j := by
  unfold hV hK
  have e1 : matmul dot_S1024x256_S256x256_S1024x256_1_0_0_1_n_n none (truncf .bf16 (wnV v68 v71) bitsLt_bf16_f32)
      (truncf .bf16 v75 bitsLt_bf16_f32) (constant (F := Ideal) S1024x256 .f32 0x00000000#32) (ix2 p j)
      = ∑ k : Fin 256, wnK v68 v71 p k * v75 (ix2 k j) :=
    (matmul_dense1_apply _ _ p j).trans
      (Finset.sum_congr rfl fun k _ => congrArg (· * v75 (ix2 k j)) (wnV_apply v68 v71 p k))
  have e2 : broadcastTo S1024x256 (shapeCast S1x256 v78 shapeCasts_S1x256_S1x256) broadcasts_S1x256_S1024x256 (ix2 p j)
      = v78 (ix2 (0 : Fin 1) j) :=
    (broadcastTo_1b_ab_apply _ broadcasts_S1x256_S1024x256 p j).trans
      (congrFun (shapeCast_self v78 shapeCasts_S1x256_S1x256) _)
  show max (_ + _) (Ideal.ofBits .f32 0x00000000#32) = _
  rw [e1, e2]

theorem filmV_apply (v68 : FVec Ideal S1024x1 .f32) (v71 : FVec Ideal S1024x256 .f32) (v75 : FVec Ideal S256x256 .f32)
    (v78 : FVec Ideal S1x256 .f32) (v85 : FVec Ideal S256x512 .f32) (v88 : FVec Ideal S1x512 .f32)
    (p : Fin 1024) (j : Fin 512) :
    filmV v68 v71 v75 v78 v85 v88 (ix2 p j) = filmK v68 v71 v75 v78 v85 v88 p j := by
  unfold filmV filmK
  have e1 : matmul dot_S1024x256_S256x512_S1024x512_1_0_0_1_n_n none (truncf .bf16 (hV v68 v71 v75 v78) bitsLt_bf16_f32)
      (truncf .bf16 v85 bitsLt_bf16_f32) (constant (F := Ideal) S1024x512 .f32 0x00000000#32) (ix2 p j)
      = ∑ k : Fin 256, hK v68 v71 v75 v78 p k * v85 (ix2 k j) :=
    (matmul_dense2_apply _ _ p j).trans
      (Finset.sum_congr rfl fun k _ => congrArg (· * v85 (ix2 k j)) (hV_apply v68 v71 v75 v78 p k))
  have e2 : broadcastTo S1024x512 (shapeCast S1x512 v88 shapeCasts_S1x512_S1x512) broadcasts_S1x512_S1024x512 (ix2 p j)
      = v88 (ix2 (0 : Fin 1) j) :=
    (broadcastTo_1b_ab_apply _ broadcasts_S1x512_S1024x512 p j).trans
      (congrFun (shapeCast_self v88 shapeCasts_S1x512_S1x512) _)
  show _ + _ = _
  rw [e1, e2]

/-- Putting the three readings into the modulation. -/
theorem pay4_combine (n o F1 F2 T f1 f2 t : EReal) (h1 : F1 = f1) (h2 : F2 = f2) (ht : T = t) :
    n + ((o + F1) * n + F2) * T = n + ((o + f1) * n + f2) * t := by
  rw [h1, h2, ht]

/-- The output tile read at `(p, d)`: the node value plus `((1 + film_d) · node + film_{256+d}) · tanh rs`, with
    `rs` the row sum plus `1e-6`, `film` the second dense layer of the clamped first dense layer of the
    accumulated product divided by `rs`. -/
theorem pay4_apply (v68 : Vec Ideal S1024x1 .f32) (v71 : Vec Ideal S1024x256 .f32) (v75 : Vec Ideal S256x256 .f32)
    (v78 : Vec Ideal S1x256 .f32) (v85 : Vec Ideal S256x512 .f32) (v88 : Vec Ideal S1x512 .f32)
    (v94 : Vec Ideal S1024x256 .f32) (p : Fin 1024) (d : Fin 256) :
    k0_pay4 (F := Ideal) v68 v71 v75 v78 v85 v88 v94 (ix2 p d)
      = v94 (ix2 p d)
        + ((Ideal.ofBits .f32 0x3F800000#32
              + filmK v68 v71 v75 v78 v85 v88 p ⟨d.val, Nat.lt_trans d.isLt (by decide)⟩) * v94 (ix2 p d)
            + filmK v68 v71 v75 v78 v85 v88 p ⟨256 + d.val, Nat.add_lt_add_left d.isLt 256⟩)
          * Ideal.tanh (rsK v68 p) := by
  have hp := congrFun (pay4_eq v68 v71 v75 v78 v85 v88 v94) (ix2 p d)
  refine hp.trans ?_
  have h1 : extractStridedSlice S1024x256 ![0, 0] (filmV v68 v71 v75 v78 v85 v88) slices_S1024x512_o0_0_S1024x256 (ix2 p d)
      = filmK v68 v71 v75 v78 v85 v88 p ⟨d.val, Nat.lt_trans d.isLt (by decide)⟩ :=
    (slice2_axis1_apply 0 (filmV v68 v71 v75 v78 v85 v88) slices_S1024x512_o0_0_S1024x256 p d
      ⟨d.val, Nat.lt_trans d.isLt (by decide)⟩ (Nat.zero_add _).symm).trans
      (filmV_apply v68 v71 v75 v78 v85 v88 p _)
  have h2 : extractStridedSlice S1024x256 ![0, 256] (filmV v68 v71 v75 v78 v85 v88) slices_S1024x512_o0_256_S1024x256 (ix2 p d)
      = filmK v68 v71 v75 v78 v85 v88 p ⟨256 + d.val, Nat.add_lt_add_left d.isLt 256⟩ :=
    (slice2_axis1_apply 256 (filmV v68 v71 v75 v78 v85 v88) slices_S1024x512_o0_256_S1024x256 p d
      ⟨256 + d.val, Nat.add_lt_add_left d.isLt 256⟩ rfl).trans
      (filmV_apply v68 v71 v75 v78 v85 v88 p _)
  have ht : broadcastTo S1024x256 (tanh (rsV v68)) broadcasts_S1024x1_S1024x256 (ix2 p d) = Ideal.tanh (rsK v68 p) :=
    broadcastTo_a1_ab_apply (tanh (rsV v68)) broadcasts_S1024x1_S1024x256 p d
  exact pay4_combine _ _ _ _ _ _ _ _ h1 h2 ht

end Cert.KernelIdeal.PayIdx

end
-- ==== Proof.KPay7.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The tile of the similarity logistic, at an index. -/

noncomputable section

namespace Cert.KernelIdeal.PayIdx

open Idealize.ShloMosaic Idealize.ShloMosaic.ValueIdx Idealize.SL.Sem Cert.KernelIdeal Cert.KernelIdeal.Gen

/-- The similarity tile: the product of the row tile with the TRANSPOSED column tile into a zero accumulator, read at
    `(p, q)`, is the inner product of row `p` of the one with row `q` of the other. -/
theorem sim_apply (v3 v5 : FVec Ideal S1024x256 .bf16) (p q : Fin 1024) :
    matmul dot_S1024x256_S256x1024_S1024x1024_1_0_0_1_n_n none
        (shapeCast S1024x256 v3 shapeCasts_S1024x256_S1024x256)
        (transpose S256x1024 [1, 0] (shapeCast S1024x256 v5 shapeCasts_S1024x256_S1024x256)
          transposes_S1024x256_p1_0_S256x1024)
        (constant (F := Ideal) S1024x1024 .f32 0x00000000#32) (ix2 p q)
      = ∑ k : Fin 256, v3 (ix2 p k) * v5 (ix2 q k) := by
  refine (matmul_sim_apply _ _ p q).trans ?_
  refine Finset.sum_congr rfl fun k _ => ?_
  have e1 : shapeCast S1024x256 v3 shapeCasts_S1024x256_S1024x256 (ix2 p k) = v3 (ix2 p k) :=
    congrFun (shapeCast_self v3 shapeCasts_S1024x256_S1024x256) (ix2 p k)
  have e2 : transpose S256x1024 [1, 0] (shapeCast S1024x256 v5 shapeCasts_S1024x256_S1024x256)
      transposes_S1024x256_p1_0_S256x1024 (ix2 k q) = v5 (ix2 q k) :=
    (transpose_ix2_apply (shapeCast S1024x256 v5 shapeCasts_S1024x256_S1024x256)
      transposes_S1024x256_p1_0_S256x1024 k q).trans
      (congrFun (shapeCast_self v5 shapeCasts_S1024x256_S1024x256) (ix2 q k))
  rw [e1, e2]

/-- The clamped threshold broadcast over the tile: `min 0.99 (max 0 threshold)` everywhere. -/
theorem th_apply (v9 : FVec Ideal S1x1 .f32) (p q : Fin 1024) :
    broadcastTo S1024x1024
        (minimumf (broadcast S1x1 (FloatOps.ofBits (F := Ideal) .f32 0x3F7D70A4#32))
          (maximumf (broadcast S1x1 (FloatOps.ofBits (F := Ideal) .f32 0x00000000#32)) (shapeCast S1x1 v9 shapeCasts_S1x1_S1x1)))
        broadcasts_S1x1_S1024x1024 (ix2 p q)
      = min (Ideal.ofBits .f32 0x3F7D70A4#32) (max (Ideal.ofBits .f32 0x00000000#32) (v9 (ix2 (0 : Fin 1) (0 : Fin 1)))) := by
  refine (broadcastTo_11_ab_apply _ broadcasts_S1x1_S1024x1024 p q).trans ?_
  show min (Ideal.ofBits .f32 0x3F7D70A4#32) (max (Ideal.ofBits .f32 0x00000000#32)
    (shapeCast S1x1 v9 shapeCasts_S1x1_S1x1 (ix2 (0 : Fin 1) (0 : Fin 1)))) = _
  rw [shapeCast_self]

/-- The temperature broadcast over the tile. -/
theorem temp_apply (v15 : FVec Ideal S1x1 .f32) (p q : Fin 1024) :
    broadcastTo S1024x1024 (shapeCast S1x1 v15 shapeCasts_S1x1_S1x1) broadcasts_S1x1_S1024x1024 (ix2 p q)
      = v15 (ix2 (0 : Fin 1) (0 : Fin 1)) := by
  refine (broadcastTo_11_ab_apply _ broadcasts_S1x1_S1024x1024 p q).trans ?_
  exact congrFun (shapeCast_self v15 shapeCasts_S1x1_S1x1) _

/-- Putting three readings into the logistic written with the hyperbolic tangent. -/
theorem pay7_combine (h o A B C a b c : EReal) (ha : A = a) (hb : B = b) (hc : C = c) :
    h * (o + Ideal.tanh ((h * (A - B)) * C)) = h * (o + Ideal.tanh ((h * (a - b)) * c)) := by
  rw [ha, hb, hc]

/-- The similarity logistic tile read at `(p, q)`: `0.5 · (1 + tanh ((0.5 · (sim − th)) · temp))` with `sim` the inner
    product of row `p` of the row tile and row `q` of the column tile, `th = min 0.99 (max 0 threshold)`. -/
theorem pay7_apply (v3 v5 : Vec Ideal S1024x256 .bf16) (v9 v15 : Vec Ideal S1x1 .f32) (p q : Fin 1024) :
    k0_pay7 (F := Ideal) v3 v5 v9 v15 (ix2 p q)
      = Ideal.ofBits .f32 0x3F000000#32 * (Ideal.ofBits .f32 0x3F800000#32
          + Ideal.tanh ((Ideal.ofBits .f32 0x3F000000#32
              * ((∑ k : Fin 256, v3 (ix2 p k) * v5 (ix2 q k))
                  - min (Ideal.ofBits .f32 0x3F7D70A4#32) (max (Ideal.ofBits .f32 0x00000000#32) (v9 (ix2 (0 : Fin 1) (0 : Fin 1))))))
              * v15 (ix2 (0 : Fin 1) (0 : Fin 1)))) := by
  unfold k0_pay7
  exact pay7_combine _ _ _ _ _ _ _ _ (sim_apply v3 v5 p q) (th_apply v9 p q) (temp_apply v15 p q)

end Cert.KernelIdeal.PayIdx

end
-- ==== Proof.KPay2.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The accumulated row sum of the masked logistic tile, at an index. -/

noncomputable section

namespace Cert.KernelIdeal.PayIdx

open Idealize.ShloMosaic Idealize.ShloMosaic.ValueIdx Idealize.SL.Sem Cert.KernelIdeal Cert.KernelIdeal.Gen

/-- The value stored into the row-sum accumulator, read at `(p, u)` (`u` the unit coordinate): the accumulator
    there plus the sum over the column coordinate `q` of the masked logistic at `(p, q)`. -/
theorem pay2_apply' (arg0 arg1 : BitVec 32) (v27 : FVec Ideal S1024x1024 .f32) (v34 : IVec S1024x1024 1)
    (v35 : IVec S1024x1 32) (c1024 : BitVec 32) (v49 : Vec Ideal S1024x1 .f32) (p : Fin 1024) (u : Fin 1) :
    k0_pay2 (F := Ideal) arg0 arg1 v27 v34 v35 c1024 v49 (ix2 p u)
      = v49 (ix2 p u) + ∑ q : Fin 1024, k0_pay1 (F := Ideal) arg0 arg1 v27 v34 v35 c1024 (ix2 p q) := by
  unfold k0_pay2
  refine (congrFun (shapeCast_self _ shapeCasts_S1024x1_S1024x1) (ix2 p u)).trans ?_
  refine congrArg (v49 (ix2 p u) + ·) ?_
  refine (shapeCast_a_a1_apply _ shapeCasts_S1024_S1024x1 p u).trans ?_
  exact laneSum_apply (k0_pay1 (F := Ideal) arg0 arg1 v27 v34 v35 c1024) reduces_S1024x1024_S1024 _ _ p

/-- The same at the unit coordinate `0`. -/
theorem pay2_apply (arg0 arg1 : BitVec 32) (v27 : FVec Ideal S1024x1024 .f32) (v34 : IVec S1024x1024 1)
    (v35 : IVec S1024x1 32) (c1024 : BitVec 32) (v49 : Vec Ideal S1024x1 .f32) (p : Fin 1024) :
    k0_pay2 (F := Ideal) arg0 arg1 v27 v34 v35 c1024 v49 (ix2 p (0 : Fin 1))
      = v49 (ix2 p (0 : Fin 1)) + ∑ q : Fin 1024, k0_pay1 (F := Ideal) arg0 arg1 v27 v34 v35 c1024 (ix2 p q) :=
  pay2_apply' arg0 arg1 v27 v34 v35 c1024 v49 p 0

end Cert.KernelIdeal.PayIdx

end
-- ==== Proof.KPay3.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The accumulated product of the masked logistic tile with the column tile of the nodes, at an index. -/

noncomputable section

namespace Cert.KernelIdeal.PayIdx

open Idealize.ShloMosaic Idealize.ShloMosaic.ValueIdx Idealize.SL.Sem Cert.KernelIdeal Cert.KernelIdeal.Gen

/-- The value stored into the product accumulator, read at `(p, d)`: the accumulator there plus the sum over the
    column coordinate `q` of the masked logistic at `(p, q)` times the nodes' tile at `(q, d)`. -/
theorem pay3_apply (arg0 arg1 : BitVec 32) (v27 : FVec Ideal S1024x1024 .f32) (v34 : IVec S1024x1024 1)
    (v35 : IVec S1024x1 32) (c1024 : BitVec 32) (v56 : Vec Ideal S1024x256 .bf16) (v58 : Vec Ideal S1024x256 .f32)
    (p : Fin 1024) (d : Fin 256) :
    k0_pay3 (F := Ideal) arg0 arg1 v27 v34 v35 c1024 v56 v58 (ix2 p d)
      = v58 (ix2 p d)
        + ∑ q : Fin 1024, k0_pay1 (F := Ideal) arg0 arg1 v27 v34 v35 c1024 (ix2 p q) * v56 (ix2 q d) := by
  unfold k0_pay3
  refine (congrFun (shapeCast_self _ shapeCasts_S1024x256_S1024x256) (ix2 p d)).trans ?_
  refine congrArg (v58 (ix2 p d) + ·) ?_
  refine (matmul_adj_nodes_apply _ _ p d).trans ?_
  refine Finset.sum_congr rfl fun q _ => ?_
  exact congrArg (k0_pay1 (F := Ideal) arg0 arg1 v27 v34 v35 c1024 (ix2 p q) * ·)
    (congrFun (shapeCast_self v56 shapeCasts_S1024x256_S1024x256) (ix2 q d))

end Cert.KernelIdeal.PayIdx

end
-- ==== Proof.KPay56.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPayLib

/-! The two zero fills written at the first column tile. -/

noncomputable section

namespace Cert.KernelIdeal.PayIdx

open Idealize.ShloMosaic Idealize.ShloMosaic.ValueIdx Idealize.SL.Sem Cert.KernelIdeal Cert.KernelIdeal.Gen

/-- The row-sum accumulator's zero fill is `0` at every index. -/
theorem pay5_zero (j : S1024x1.Idx) : k0_pay5 (F := Ideal) j = 0 := by
  unfold k0_pay5
  refine (congrFun (shapeCast_self _ shapeCasts_S1024x1_S1024x1) j).trans ?_
  exact Ideal.ofBits_zero_f32

/-- The product accumulator's zero fill is `0` at every index. -/
theorem pay6_zero (j : S1024x256.Idx) : k0_pay6 (F := Ideal) j = 0 := by
  unfold k0_pay6
  refine (congrFun (shapeCast_self _ shapeCasts_S1024x256_S1024x256) j).trans ?_
  exact Ideal.ofBits_zero_f32

end Cert.KernelIdeal.PayIdx

end
-- ==== Proof.KAcc1.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPay1
import proofs.«162713_j40484361732478_2_alg».proof.Proof.KPay2
import proofs.«162713_j40484361732478_2_alg».proof.Proof.KPay3
import proofs.«162713_j40484361732478_2_alg».proof.Proof.KPay56

/-!
The two accumulators over the column tiles in closed form.

At grid point `t` (row tile `t / 8`, column tile `t % 8`) the body adds to the row-sum accumulator the lane sum of
the masked logistic tile, and to the product accumulator the tile's product with the column tile of the nodes; at a
column tile `0` both start from the zero fill. So after the point `n` the accumulators hold the sums of these
contributions over the points `8·(n/8), …, n` of the current row tile.
-/

noncomputable section

namespace Cert.KernelIdeal.PayIdx

open Idealize.ShloMosaic Idealize.ShloMosaic.ValueIdx Idealize.SL.Sem Cert.KernelIdeal Cert.KernelIdeal.Gen

open scoped BigOperators

variable (x0 x1 x3 : Fin 64 → Vec Ideal S1024x256 .bf16) (x4 : Fin 64 → Vec Ideal S1024x1 .i32)
  (x5 : Fin 64 → Vec Ideal S1x1024 .i32) (x6 x7 : Fin 64 → Vec Ideal S1x1 .f32)

/-- The masked logistic tile of grid point `t`. -/
def adjT (t : Fin 64) : FVec Ideal S1024x1024 .f32 :=
  k0_pay1 (F := Ideal) (BitVec.ofNat 32 (t.val / 8)) (BitVec.ofNat 32 (t.val % 8))
      (k0_pay7 (F := Ideal) (x0 t) (x1 t) (x6 t) (x7 t)) (k0_pay8 (F := Ideal) (x4 t) (x5 t))
      (iota .tc S1024x1 32 [0] iota_S1024x1_d0_w32) 1024#32

/-- The two accumulators after grid point `n`, by the body's own recursion. -/
def accs : (n : ℕ) → n < 64 → FVec Ideal S1024x1 .f32 × FVec Ideal S1024x256 .f32
  | 0, h =>
    (k0_pay2 (F := Ideal) (BitVec.ofNat 32 ((⟨0, h⟩ : Fin 64).val / 8)) (BitVec.ofNat 32 ((⟨0, h⟩ : Fin 64).val % 8))
      (k0_pay7 (F := Ideal) (x0 ⟨0, h⟩) (x1 ⟨0, h⟩) (x6 ⟨0, h⟩) (x7 ⟨0, h⟩)) (k0_pay8 (F := Ideal) (x4 ⟨0, h⟩) (x5 ⟨0, h⟩))
      (iota .tc S1024x1 32 [0] iota_S1024x1_d0_w32) 1024#32 (k0_pay5 (F := Ideal)),
     k0_pay3 (F := Ideal) (BitVec.ofNat 32 ((⟨0, h⟩ : Fin 64).val / 8)) (BitVec.ofNat 32 ((⟨0, h⟩ : Fin 64).val % 8))
      (k0_pay7 (F := Ideal) (x0 ⟨0, h⟩) (x1 ⟨0, h⟩) (x6 ⟨0, h⟩) (x7 ⟨0, h⟩)) (k0_pay8 (F := Ideal) (x4 ⟨0, h⟩) (x5 ⟨0, h⟩))
      (iota .tc S1024x1 32 [0] iota_S1024x1_d0_w32) 1024#32 (x3 ⟨0, h⟩) (k0_pay6 (F := Ideal)))
  | n + 1, h =>
    if (n + 1) % 8 = 0 then
      (k0_pay2 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (k0_pay5 (F := Ideal)),
       k0_pay3 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (x3 ⟨n + 1, h⟩) (k0_pay6 (F := Ideal)))
    else
      (k0_pay2 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (accs n (Nat.lt_of_succ_lt h)).1,
       k0_pay3 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (x3 ⟨n + 1, h⟩) (accs n (Nat.lt_of_succ_lt h)).2)

/-- The grid point numbered `m` (read modulo 64, so that a sum over naturals can name it). -/
def tileAt (m : ℕ) : Fin 64 := ⟨m % 64, Nat.mod_lt _ (by decide)⟩

theorem tileAt_eq (m : ℕ) (h : m < 64) : tileAt m = ⟨m, h⟩ := Fin.ext (Nat.mod_eq_of_lt h)

/-- The contribution of grid point `m` to the row sum at row `p`. -/
def rowC (m : ℕ) (p : Fin 1024) : EReal := ∑ q : Fin 1024, adjT x0 x1 x4 x5 x6 x7 (tileAt m) (ix2 p q)

/-- The contribution of grid point `m` to the product at `(p, d)`. -/
def wC (m : ℕ) (p : Fin 1024) (d : Fin 256) : EReal :=
  ∑ q : Fin 1024, adjT x0 x1 x4 x5 x6 x7 (tileAt m) (ix2 p q) * x3 (tileAt m) (ix2 q d)

/-! ## Sums over the points of the current row tile -/

theorem range_fresh (F : ℕ → EReal) (n : ℕ) (h0 : n % 8 = 0) :
    ∑ j ∈ Finset.range (n % 8 + 1), F (8 * (n / 8) + j) = F n := by
  rw [h0, Finset.sum_range_one]
  exact congrArg F (by omega)

theorem range_step (F : ℕ → EReal) (n : ℕ) (hne : ¬(n + 1) % 8 = 0) :
    ∑ j ∈ Finset.range ((n + 1) % 8 + 1), F (8 * ((n + 1) / 8) + j)
      = (∑ j ∈ Finset.range (n % 8 + 1), F (8 * (n / 8) + j)) + F (n + 1) := by
  have h1 : (n + 1) % 8 = n % 8 + 1 := by omega
  have h2 : (n + 1) / 8 = n / 8 := by omega
  rw [h1, h2, Finset.sum_range_succ]
  exact congrArg (_ + F ·) (by omega)

/-! ## One step of each accumulator at an index -/

/-- A fresh start: the row-sum accumulator after a point at column tile `0`. -/
theorem fresh1_apply (t : Fin 64) (p : Fin 1024) :
    k0_pay2 (F := Ideal) (BitVec.ofNat 32 (t.val / 8)) (BitVec.ofNat 32 (t.val % 8))
      (k0_pay7 (F := Ideal) (x0 t) (x1 t) (x6 t) (x7 t)) (k0_pay8 (F := Ideal) (x4 t) (x5 t))
      (iota .tc S1024x1 32 [0] iota_S1024x1_d0_w32) 1024#32 (k0_pay5 (F := Ideal)) (ix2 p (0 : Fin 1))
      = ∑ q : Fin 1024, adjT x0 x1 x4 x5 x6 x7 t (ix2 p q) := by
  rw [pay2_apply', pay5_zero, zero_add]
  rfl

theorem fresh2_apply (t : Fin 64) (p : Fin 1024) (d : Fin 256) :
    k0_pay3 (F := Ideal) (BitVec.ofNat 32 (t.val / 8)) (BitVec.ofNat 32 (t.val % 8))
      (k0_pay7 (F := Ideal) (x0 t) (x1 t) (x6 t) (x7 t)) (k0_pay8 (F := Ideal) (x4 t) (x5 t))
      (iota .tc S1024x1 32 [0] iota_S1024x1_d0_w32) 1024#32 (x3 t) (k0_pay6 (F := Ideal)) (ix2 p d)
      = ∑ q : Fin 1024, adjT x0 x1 x4 x5 x6 x7 t (ix2 p q) * x3 t (ix2 q d) := by
  rw [pay3_apply, pay6_zero, zero_add]
  rfl

theorem step1_apply (t : Fin 64) (acc : FVec Ideal S1024x1 .f32) (p : Fin 1024) :
    k0_pay2 (F := Ideal) (BitVec.ofNat 32 (t.val / 8)) (BitVec.ofNat 32 (t.val % 8))
      (k0_pay7 (F := Ideal) (x0 t) (x1 t) (x6 t) (x7 t)) (k0_pay8 (F := Ideal) (x4 t) (x5 t))
      (iota .tc S1024x1 32 [0] iota_S1024x1_d0_w32) 1024#32 acc (ix2 p (0 : Fin 1))
      = acc (ix2 p (0 : Fin 1)) + ∑ q : Fin 1024, adjT x0 x1 x4 x5 x6 x7 t (ix2 p q) := by
  rw [pay2_apply']
  rfl

theorem step2_apply (t : Fin 64) (acc : FVec Ideal S1024x256 .f32) (p : Fin 1024) (d : Fin 256) :
    k0_pay3 (F := Ideal) (BitVec.ofNat 32 (t.val / 8)) (BitVec.ofNat 32 (t.val % 8))
      (k0_pay7 (F := Ideal) (x0 t) (x1 t) (x6 t) (x7 t)) (k0_pay8 (F := Ideal) (x4 t) (x5 t))
      (iota .tc S1024x1 32 [0] iota_S1024x1_d0_w32) 1024#32 (x3 t) acc (ix2 p d)
      = acc (ix2 p d) + ∑ q : Fin 1024, adjT x0 x1 x4 x5 x6 x7 t (ix2 p q) * x3 t (ix2 q d) := by
  rw [pay3_apply]
  rfl

/-! ## The recursion's equations -/

theorem accs_fresh (n : ℕ) (h : n < 64) (h0 : n % 8 = 0) :
    accs x0 x1 x3 x4 x5 x6 x7 n h
      = (k0_pay2 (F := Ideal) (BitVec.ofNat 32 ((⟨n, h⟩ : Fin 64).val / 8)) (BitVec.ofNat 32 ((⟨n, h⟩ : Fin 64).val % 8))
      (k0_pay7 (F := Ideal) (x0 ⟨n, h⟩) (x1 ⟨n, h⟩) (x6 ⟨n, h⟩) (x7 ⟨n, h⟩)) (k0_pay8 (F := Ideal) (x4 ⟨n, h⟩) (x5 ⟨n, h⟩))
      (iota .tc S1024x1 32 [0] iota_S1024x1_d0_w32) 1024#32 (k0_pay5 (F := Ideal)),
         k0_pay3 (F := Ideal) (BitVec.ofNat 32 ((⟨n, h⟩ : Fin 64).val / 8)) (BitVec.ofNat 32 ((⟨n, h⟩ : Fin 64).val % 8))
      (k0_pay7 (F := Ideal) (x0 ⟨n, h⟩) (x1 ⟨n, h⟩) (x6 ⟨n, h⟩) (x7 ⟨n, h⟩)) (k0_pay8 (F := Ideal) (x4 ⟨n, h⟩) (x5 ⟨n, h⟩))
      (iota .tc S1024x1 32 [0] iota_S1024x1_d0_w32) 1024#32 (x3 ⟨n, h⟩) (k0_pay6 (F := Ideal))) := by
  cases n with
  | zero => rfl
  | succ n => unfold accs; exact if_pos h0

theorem accs_step (n : ℕ) (h : n + 1 < 64) (hne : ¬(n + 1) % 8 = 0) :
    accs x0 x1 x3 x4 x5 x6 x7 (n + 1) h
      = (k0_pay2 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (accs x0 x1 x3 x4 x5 x6 x7 n (Nat.lt_of_succ_lt h)).1,
         k0_pay3 (F := Ideal) (BitVec.ofNat 32 ((⟨n + 1, h⟩ : Fin 64).val / 8)) (BitVec.ofNat 32 ((⟨n + 1, h⟩ : Fin 64).val % 8))
      (k0_pay7 (F := Ideal) (x0 ⟨n + 1, h⟩) (x1 ⟨n + 1, h⟩) (x6 ⟨n + 1, h⟩) (x7 ⟨n + 1, h⟩)) (k0_pay8 (F := Ideal) (x4 ⟨n + 1, h⟩) (x5 ⟨n + 1, h⟩))
      (iota .tc S1024x1 32 [0] iota_S1024x1_d0_w32) 1024#32 (x3 ⟨n + 1, h⟩) (accs x0 x1 x3 x4 x5 x6 x7 n (Nat.lt_of_succ_lt h)).2) := by
  rw [accs]; exact if_neg hne

/-! ## The closed forms -/

/-- The row-sum accumulator after point `n`, at row `p`: the sum of the contributions of the points
    `8·(n/8), …, n`. -/
theorem accs_rowsum (n : ℕ) (h : n < 64) (p : Fin 1024) :
    (accs x0 x1 x3 x4 x5 x6 x7 n h).1 (ix2 p (0 : Fin 1))
      = ∑ j ∈ Finset.range (n % 8 + 1), rowC x0 x1 x4 x5 x6 x7 (8 * (n / 8) + j) p := by
  induction n with
  | zero =>
    rw [range_fresh (fun m => rowC x0 x1 x4 x5 x6 x7 m p) 0 rfl, accs_fresh x0 x1 x3 x4 x5 x6 x7 0 h rfl]
    show k0_pay2 (F := Ideal) _ _ _ _ _ _ _ (ix2 p (0 : Fin 1)) = _
    rw [fresh1_apply]; unfold rowC; rw [tileAt_eq 0 h]
  | succ n ih =>
    by_cases h0 : (n + 1) % 8 = 0
    · rw [range_fresh (fun m => rowC x0 x1 x4 x5 x6 x7 m p) (n + 1) h0, accs_fresh x0 x1 x3 x4 x5 x6 x7 (n + 1) h h0]
      show k0_pay2 (F := Ideal) _ _ _ _ _ _ _ (ix2 p (0 : Fin 1)) = _
      rw [fresh1_apply]; unfold rowC; rw [tileAt_eq (n + 1) h]
    · rw [range_step (fun m => rowC x0 x1 x4 x5 x6 x7 m p) n h0, accs_step x0 x1 x3 x4 x5 x6 x7 n h h0]
      show k0_pay2 (F := Ideal) _ _ _ _ _ _ _ (ix2 p (0 : Fin 1)) = _
      rw [step1_apply, ih (Nat.lt_of_succ_lt h)]
      unfold rowC; rw [tileAt_eq (n + 1) h]

/-- The product accumulator after point `n`, at `(p, d)`. -/
theorem accs_wsum (n : ℕ) (h : n < 64) (p : Fin 1024) (d : Fin 256) :
    (accs x0 x1 x3 x4 x5 x6 x7 n h).2 (ix2 p d)
      = ∑ j ∈ Finset.range (n % 8 + 1), wC x0 x1 x3 x4 x5 x6 x7 (8 * (n / 8) + j) p d := by
  induction n with
  | zero =>
    rw [range_fresh (fun m => wC x0 x1 x3 x4 x5 x6 x7 m p d) 0 rfl, accs_fresh x0 x1 x3 x4 x5 x6 x7 0 h rfl]
    show k0_pay3 (F := Ideal) _ _ _ _ _ _ _ _ (ix2 p d) = _
    rw [fresh2_apply]; unfold wC; rw [tileAt_eq 0 h]
  | succ n ih =>
    by_cases h0 : (n + 1) % 8 = 0
    · rw [range_fresh (fun m => wC x0 x1 x3 x4 x5 x6 x7 m p d) (n + 1) h0, accs_fresh x0 x1 x3 x4 x5 x6 x7 (n + 1) h h0]
      show k0_pay3 (F := Ideal) _ _ _ _ _ _ _ _ (ix2 p d) = _
      rw [fresh2_apply]; unfold wC; rw [tileAt_eq (n + 1) h]
    · rw [range_step (fun m => wC x0 x1 x3 x4 x5 x6 x7 m p d) n h0, accs_step x0 x1 x3 x4 x5 x6 x7 n h h0]
      show k0_pay3 (F := Ideal) _ _ _ _ _ _ _ _ (ix2 p d) = _
      rw [step2_apply, ih (Nat.lt_of_succ_lt h)]
      unfold wC; rw [tileAt_eq (n + 1) h]

/-! ## At the last column tile of row tile `a` -/

theorem last_lt (a : Fin 8) : 8 * a.val + 7 < 64 := by have := a.isLt; omega
theorem pt_lt (a b : Fin 8) : 8 * a.val + b.val < 64 := by have := a.isLt; have := b.isLt; omega

/-- The row-sum accumulator after the last column tile: the sum over the eight column tiles. -/
theorem accs_rowsum_last (a : Fin 8) (p : Fin 1024) :
    (accs x0 x1 x3 x4 x5 x6 x7 (8 * a.val + 7) (last_lt a)).1 (ix2 p (0 : Fin 1))
      = ∑ b : Fin 8, ∑ q : Fin 1024, adjT x0 x1 x4 x5 x6 x7 ⟨8 * a.val + b.val, pt_lt a b⟩ (ix2 p q) := by
  rw [accs_rowsum]
  have h1 : (8 * a.val + 7) % 8 + 1 = 8 := by omega
  have h2 : (8 * a.val + 7) / 8 = a.val := by omega
  rw [h1, h2, Finset.sum_range]
  refine Finset.sum_congr rfl fun b _ => ?_
  unfold rowC; rw [tileAt_eq _ (pt_lt a b)]

/-- The product accumulator after the last column tile. -/
theorem accs_wsum_last (a : Fin 8) (p : Fin 1024) (d : Fin 256) :
    (accs x0 x1 x3 x4 x5 x6 x7 (8 * a.val + 7) (last_lt a)).2 (ix2 p d)
      = ∑ b : Fin 8, ∑ q : Fin 1024, adjT x0 x1 x4 x5 x6 x7 ⟨8 * a.val + b.val, pt_lt a b⟩ (ix2 p q)
          * x3 ⟨8 * a.val + b.val, pt_lt a b⟩ (ix2 q d) := by
  rw [accs_wsum]
  have h1 : (8 * a.val + 7) % 8 + 1 = 8 := by omega
  have h2 : (8 * a.val + 7) / 8 = a.val := by omega
  rw [h1, h2, Finset.sum_range]
  refine Finset.sum_congr rfl fun b _ => ?_
  unfold wC; rw [tileAt_eq _ (pt_lt a b)]

end Cert.KernelIdeal.PayIdx

end
-- ==== Proof.RefSpec.lean ====
/-
  The reference's result, index by index, as a function of plain coordinates.

  The reference normalises each row of `N` by the larger of its Euclidean norm and a small constant, takes all inner
  products of normalised rows, shifts them by a clipped threshold, scales by a temperature and applies the logistic
  function written as `1 / (1 + exp (-x))`; entries on the diagonal or between rows that carry the same identifier
  are set to zero. Each row of the resulting matrix is divided by its sum plus a small constant and multiplied with
  `N`; two dense layers follow (the first with a rectifier), and the last layer's two halves scale and shift `N`;
  the update is damped by the hyperbolic tangent of the row sum and added to `N`.

  Every piece is written with the operations of the extended reals the ideal instance uses: `Ideal.div`,
  `Ideal.sqrt`, `Ideal.exp`, `Ideal.tanh`, `max`, `min`, `+`, `-`, `*`. Float literals stay as their bit patterns,
  except the zero word, which is the extended real `0`.
-/
import Idealize.ShloMosaic.PureOps.Ideal
import Idealize.ShloMosaic.PureOps.Ideal.Laws
import Idealize.ShloMosaic.Lib.ValueIdx

noncomputable section

open scoped BigOperators

namespace Cert.ReferenceIdeal.RefValue

open Idealize.ShloMosaic

/-- The sum of the squares of row `r`. -/
def refSq (N : Fin 8192 → Fin 256 → EReal) (r : Fin 8192) : EReal :=
  ∑ k : Fin 256, N r k * N r k

/-- The divisor of row `r`: its Euclidean norm, or the small constant if that is larger. -/
def refNorm (N : Fin 8192 → Fin 256 → EReal) (r : Fin 8192) : EReal :=
  max (Ideal.sqrt (refSq N r)) (Ideal.ofBits .f32 0x2B8CBCCC#32)

/-- The normalised row. -/
def refFeat (N : Fin 8192 → Fin 256 → EReal) (r : Fin 8192) (k : Fin 256) : EReal :=
  Ideal.div (N r k) (refNorm N r)

/-- The inner product of the normalised rows `r` and `c`. -/
def refSim (N : Fin 8192 → Fin 256 → EReal) (r c : Fin 8192) : EReal :=
  ∑ k : Fin 256, refFeat N r k * refFeat N c k

/-- The threshold clipped to `[0, 0.99]`. -/
def refTh (thr : EReal) : EReal :=
  min (Ideal.ofBits .f32 0x3F7D70A4#32) (max 0 thr)

/-- The argument of the logistic function. -/
def refLogit (N : Fin 8192 → Fin 256 → EReal) (thr temp : EReal) (r c : Fin 8192) : EReal :=
  (refSim N r c - refTh thr) * temp

/-- The logistic function of the shifted, scaled inner product, as `1 / (1 + exp (-x))`. -/
def refSig (N : Fin 8192 → Fin 256 → EReal) (thr temp : EReal) (r c : Fin 8192) : EReal :=
  Ideal.div (Ideal.ofBits .f32 0x3F800000#32)
    (Ideal.ofBits .f32 0x3F800000#32 + Ideal.exp (-(refLogit N thr temp r c)))

/-- The bit that is `1` where the entry is masked: equal identifiers, or the diagonal. -/
def refMask (pid : Fin 8192 → BitVec 32) (r c : Fin 8192) : BitVec 1 :=
  IntOp.ori (IntOp.cmpi .eq (pid r) (pid c))
    (IntOp.cmpi .eq (IntOp.addi (BitVec.ofNat 32 r.val) 0#32) (BitVec.ofNat 32 c.val))

/-- The masked matrix. -/
def refAdj (N : Fin 8192 → Fin 256 → EReal) (pid : Fin 8192 → BitVec 32) (thr temp : EReal) (r c : Fin 8192) : EReal :=
  Scalar.select (refMask pid r c) 0 (refSig N thr temp r c)

/-- The sum of row `r` of the masked matrix, plus the small constant. -/
def refRowSum (N : Fin 8192 → Fin 256 → EReal) (pid : Fin 8192 → BitVec 32) (thr temp : EReal) (r : Fin 8192) : EReal :=
  (∑ c : Fin 8192, refAdj N pid thr temp r c) + Ideal.ofBits .f32 0x358637BD#32

/-- The row-normalised matrix times `N`: each entry is divided by the row sum before the product. -/
def refWn (N : Fin 8192 → Fin 256 → EReal) (pid : Fin 8192 → BitVec 32) (thr temp : EReal) (r : Fin 8192) (k : Fin 256) : EReal :=
  ∑ c : Fin 8192, Ideal.div (refAdj N pid thr temp r c) (refRowSum N pid thr temp r) * N c k

/-- The first dense layer with its rectifier. -/
def refH (N : Fin 8192 → Fin 256 → EReal) (pid : Fin 8192 → BitVec 32) (thr temp : EReal)
    (W1 : Fin 256 → Fin 256 → EReal) (b1 : Fin 256 → EReal) (r : Fin 8192) (j : Fin 256) : EReal :=
  max ((∑ k : Fin 256, refWn N pid thr temp r k * W1 k j) + b1 j) 0

/-- The second dense layer. -/
def refFilm (N : Fin 8192 → Fin 256 → EReal) (pid : Fin 8192 → BitVec 32) (thr temp : EReal)
    (W1 : Fin 256 → Fin 256 → EReal) (b1 : Fin 256 → EReal) (W2 : Fin 256 → Fin 512 → EReal) (b2 : Fin 512 → EReal)
    (r : Fin 8192) (j : Fin 512) : EReal :=
  (∑ k : Fin 256, refH N pid thr temp W1 b1 r k * W2 k j) + b2 j

/-- Column `d` of the second layer's first half. -/
def loCol (d : Fin 256) : Fin 512 := ⟨d.val, by have := d.isLt; omega⟩
/-- Column `d` of the second layer's second half. -/
def hiCol (d : Fin 256) : Fin 512 := ⟨256 + d.val, by have := d.isLt; omega⟩

/-- The reference's result at row `r`, column `d`. -/
def refOut (N : Fin 8192 → Fin 256 → EReal) (pid : Fin 8192 → BitVec 32) (thr temp : EReal)
    (W1 : Fin 256 → Fin 256 → EReal) (b1 : Fin 256 → EReal) (W2 : Fin 256 → Fin 512 → EReal) (b2 : Fin 512 → EReal)
    (r : Fin 8192) (d : Fin 256) : EReal :=
  N r d + ((Ideal.ofBits .f32 0x3F800000#32 + refFilm N pid thr temp W1 b1 W2 b2 r (loCol d)) * N r d
      + refFilm N pid thr temp W1 b1 W2 b2 r (hiCol d)) * Ideal.tanh (refRowSum N pid thr temp r)

end Cert.ReferenceIdeal.RefValue

end
-- ==== Proof.KSpec.lean ====
/-
  The kernel's result, index by index, in the kernel's own arrangement.

  The similarity of two rows, the clipped threshold and the normalized rows are the reference's. The kernel writes the
  logistic of x as (1/2)(1 + tanh(x/2)), with x/2 computed as ((1/2)(sim − th))·temp; it sums a row of the masked
  logistic, and the row's product with the node features, over the eight column tiles of 1024 columns one after the
  other; and it divides the accumulated product by the row sum once, after the sum, where the reference divides every
  entry before it. The two dense layers and the gated skip connection are then the reference's, over these.
-/
import proofs.«162713_j40484361732478_2_alg».proof.Proof.RefSpec

noncomputable section

namespace Cert.Fusion

open Idealize.ShloMosaic Cert.ReferenceIdeal.RefValue

/-- Column `q` of column tile `b`. -/
def col (b : Fin 8) (q : Fin 1024) : Fin 8192 := ⟨1024 * b.val + q.val, by have := b.isLt; have := q.isLt; omega⟩

abbrev one : EReal := Ideal.ofBits .f32 0x3F800000#32
abbrev half : EReal := Ideal.ofBits .f32 0x3F000000#32
abbrev eps6 : EReal := Ideal.ofBits .f32 0x358637BD#32

variable (N : Fin 8192 → Fin 256 → EReal) (pid : Fin 8192 → BitVec 32) (thr temp : EReal)
  (W1 : Fin 256 → Fin 256 → EReal) (b1 : Fin 256 → EReal) (W2 : Fin 256 → Fin 512 → EReal) (b2 : Fin 512 → EReal)

/-- The logistic in the kernel's form. -/
def kerSig (r c : Fin 8192) : EReal := half * (one + Ideal.tanh ((half * (refSim N r c - refTh thr)) * temp))
/-- The masked logistic: zero on the diagonal and between rows of one patient. -/
def kerAdj (r c : Fin 8192) : EReal := if (pid r = pid c ∨ r = c) then 0 else kerSig N thr temp r c
/-- The row sum accumulated tile by tile, plus the small constant. -/
def kerRowSum (r : Fin 8192) : EReal := (∑ b : Fin 8, ∑ q : Fin 1024, kerAdj N pid thr temp r (col b q)) + eps6
/-- The row's product with the node features accumulated tile by tile. -/
def kerWAcc (r : Fin 8192) (k : Fin 256) : EReal := ∑ b : Fin 8, ∑ q : Fin 1024, kerAdj N pid thr temp r (col b q) * N (col b q) k
/-- Divided by the row sum once. -/
def kerWn (r : Fin 8192) (k : Fin 256) : EReal := Ideal.div (kerWAcc N pid thr temp r k) (kerRowSum N pid thr temp r)
def kerH (r : Fin 8192) (j : Fin 256) : EReal := max ((∑ k : Fin 256, kerWn N pid thr temp r k * W1 k j) + b1 j) 0
def kerFilm (r : Fin 8192) (j : Fin 512) : EReal := (∑ k : Fin 256, kerH N pid thr temp W1 b1 r k * W2 k j) + b2 j
def kerOut (r : Fin 8192) (d : Fin 256) : EReal :=
  N r d + ((one + kerFilm N pid thr temp W1 b1 W2 b2 r (loCol d)) * N r d + kerFilm N pid thr temp W1 b1 W2 b2 r (hiCol d)) * Ideal.tanh (kerRowSum N pid thr temp r)

end Cert.Fusion

end
-- ==== Proof.KAcc2.lean ====
import proofs.«162713_j40484361732478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.Lib.ValueLayout
import proofs.«162713_j40484361732478_2_alg».proof.Proof.KPay1
import proofs.«162713_j40484361732478_2_alg».proof.Proof.KPay4
import proofs.«162713_j40484361732478_2_alg».proof.Proof.KPay7
import proofs.«162713_j40484361732478_2_alg».proof.Proof.KAcc1
import proofs.«162713_j40484361732478_2_alg».proof.Proof.KSpec

/-!
From the blocks the body is handed to the global arrays: the masked logistic tile of a grid point is the kernel's
masked logistic at the global row and column; the two accumulators after the last column tile are the row sum and
the accumulated product of the global row; and the tile written there is the kernel's result at the global row.
-/

noncomputable section

namespace Cert.KernelIdeal.PayIdx

open Idealize.ShloMosaic Idealize.ShloMosaic.ValueIdx Idealize.SL.Sem Cert.KernelIdeal Cert.KernelIdeal.Gen

open scoped BigOperators
open Cert.Fusion Cert.ReferenceIdeal.RefValue

/-- Global row of row `p` of the row tile of grid point `t`. -/
abbrev rowOf (t : Fin 64) (p : Fin 1024) : Fin 8192 :=
  ⟨1024 * (t.val / 8) + p.val, by have := t.isLt; have := p.isLt; omega⟩
/-- Global row of row `q` of the column tile of grid point `t`. -/
abbrev colOf (t : Fin 64) (q : Fin 1024) : Fin 8192 :=
  ⟨1024 * (t.val % 8) + q.val, by have := q.isLt; omega⟩
/-- Global row of row `p` of row tile `a`. -/
def rowA (a : Fin 8) (p : Fin 1024) : Fin 8192 :=
  ⟨1024 * a.val + p.val, by have := a.isLt; have := p.isLt; omega⟩

variable (x0 x1 x3 : Fin 64 → Vec Ideal S1024x256 .bf16) (x2 : Fin 64 → Vec Ideal S1024x256 .f32)
  (x4 : Fin 64 → Vec Ideal S1024x1 .i32) (x5 : Fin 64 → Vec Ideal S1x1024 .i32) (x6 x7 : Fin 64 → Vec Ideal S1x1 .f32)
  (x8 : Fin 64 → Vec Ideal S256x256 .f32) (x9 : Fin 64 → Vec Ideal S1x256 .f32)
  (x10 : Fin 64 → Vec Ideal S256x512 .f32) (x11 : Fin 64 → Vec Ideal S1x512 .f32)
  (N : Fin 8192 → Fin 256 → EReal) (pid : Fin 8192 → BitVec 32) (thr temp : EReal)
  (W1 : Fin 256 → Fin 256 → EReal) (b1 : Fin 256 → EReal) (W2 : Fin 256 → Fin 512 → EReal) (b2 : Fin 512 → EReal)

theorem rowOf_pt (a b : Fin 8) (p : Fin 1024) : rowOf ⟨8 * a.val + b.val, pt_lt a b⟩ p = rowA a p :=
  Fin.ext (by
    show 1024 * ((8 * a.val + b.val) / 8) + p.val = 1024 * a.val + p.val
    have := b.isLt; omega)

theorem colOf_pt (a b : Fin 8) (q : Fin 1024) : colOf ⟨8 * a.val + b.val, pt_lt a b⟩ q = col b q :=
  Fin.ext (by
    show 1024 * ((8 * a.val + b.val) % 8) + q.val = 1024 * b.val + q.val
    have := b.isLt; omega)

/-- The masked logistic tile of grid point `t` at `(p, q)` is the kernel's masked logistic at the global row and
    column. -/
theorem adjT_eq
    (hx0 : ∀ (t : Fin 64) (p : Fin 1024) (k : Fin 256), x0 t (ix2 p k) = refFeat N (rowOf t p) k)
    (hx1 : ∀ (t : Fin 64) (q : Fin 1024) (k : Fin 256), x1 t (ix2 q k) = refFeat N (colOf t q) k)
    (hx4 : ∀ (t : Fin 64) (p : Fin 1024), x4 t (ix2 p (0 : Fin 1)) = pid (rowOf t p))
    (hx5 : ∀ (t : Fin 64) (q : Fin 1024), x5 t (ix2 (0 : Fin 1) q) = pid (colOf t q))
    (hx6 : ∀ t : Fin 64, x6 t (ix2 (0 : Fin 1) (0 : Fin 1)) = thr)
    (hx7 : ∀ t : Fin 64, x7 t (ix2 (0 : Fin 1) (0 : Fin 1)) = temp)
    (t : Fin 64) (p q : Fin 1024) :
    adjT x0 x1 x4 x5 x6 x7 t (ix2 p q) = kerAdj N pid thr temp (rowOf t p) (col ⟨t.val % 8, Nat.mod_lt _ (by decide)⟩ q) := by
  unfold adjT kerAdj
  rw [pay1_apply_grid_pid (t.val / 8) (t.val % 8) (by have := t.isLt; omega) (Nat.mod_lt _ (by decide))]
  refine if_congr (or_congr ?_ ?_) rfl ?_
  · rw [hx4, hx5]; exact Iff.rfl
  · exact (Fin.ext_iff (a := rowOf t p) (b := col ⟨t.val % 8, Nat.mod_lt _ (by decide)⟩ q)).symm
  · have hs : (∑ k : Fin 256, x0 t (ix2 p k) * x1 t (ix2 q k))
        = refSim N (rowOf t p) (col ⟨t.val % 8, Nat.mod_lt _ (by decide)⟩ q) :=
      Finset.sum_congr rfl fun k _ => by rw [hx0, hx1]; rfl
    have hth : min (Ideal.ofBits .f32 0x3F7D70A4#32) (max (Ideal.ofBits .f32 0x00000000#32)
        (x6 t (ix2 (0 : Fin 1) (0 : Fin 1)))) = refTh thr := by
      rw [hx6, Ideal.ofBits_zero_f32]; rfl
    rw [pay7_apply, hs, hth, hx7]; rfl

/-- The same at the point `(a, b)`. -/
theorem adjT_pt
    (hx0 : ∀ (t : Fin 64) (p : Fin 1024) (k : Fin 256), x0 t (ix2 p k) = refFeat N (rowOf t p) k)
    (hx1 : ∀ (t : Fin 64) (q : Fin 1024) (k : Fin 256), x1 t (ix2 q k) = refFeat N (colOf t q) k)
    (hx4 : ∀ (t : Fin 64) (p : Fin 1024), x4 t (ix2 p (0 : Fin 1)) = pid (rowOf t p))
    (hx5 : ∀ (t : Fin 64) (q : Fin 1024), x5 t (ix2 (0 : Fin 1) q) = pid (colOf t q))
    (hx6 : ∀ t : Fin 64, x6 t (ix2 (0 : Fin 1) (0 : Fin 1)) = thr)
    (hx7 : ∀ t : Fin 64, x7 t (ix2 (0 : Fin 1) (0 : Fin 1)) = temp)
    (a b : Fin 8) (p q : Fin 1024) :
    adjT x0 x1 x4 x5 x6 x7 ⟨8 * a.val + b.val, pt_lt a b⟩ (ix2 p q) = kerAdj N pid thr temp (rowA a p) (col b q) := by
  refine (adjT_eq x0 x1 x4 x5 x6 x7 N pid thr temp hx0 hx1 hx4 hx5 hx6 hx7 ⟨8 * a.val + b.val, pt_lt a b⟩ p q).trans ?_
  have e1 := rowOf_pt a b p
  have e2 : col ⟨(⟨8 * a.val + b.val, pt_lt a b⟩ : Fin 64).val % 8, Nat.mod_lt _ (by decide)⟩ q = col b q :=
    colOf_pt a b q
  rw [e1, e2]

/-- The row-sum accumulator after the last column tile, plus the small constant, is the kernel's row sum. -/
theorem rowsum_last
    (hx0 : ∀ (t : Fin 64) (p : Fin 1024) (k : Fin 256), x0 t (ix2 p k) = refFeat N (rowOf t p) k)
    (hx1 : ∀ (t : Fin 64) (q : Fin 1024) (k : Fin 256), x1 t (ix2 q k) = refFeat N (colOf t q) k)
    (hx4 : ∀ (t : Fin 64) (p : Fin 1024), x4 t (ix2 p (0 : Fin 1)) = pid (rowOf t p))
    (hx5 : ∀ (t : Fin 64) (q : Fin 1024), x5 t (ix2 (0 : Fin 1) q) = pid (colOf t q))
    (hx6 : ∀ t : Fin 64, x6 t (ix2 (0 : Fin 1) (0 : Fin 1)) = thr)
    (hx7 : ∀ t : Fin 64, x7 t (ix2 (0 : Fin 1) (0 : Fin 1)) = temp)
    (a : Fin 8) (p : Fin 1024) :
    (accs x0 x1 x3 x4 x5 x6 x7 (8 * a.val + 7) (last_lt a)).1 (ix2 p (0 : Fin 1)) + Ideal.ofBits .f32 0x358637BD#32
      = kerRowSum N pid thr temp (rowA a p) := by
  rw [accs_rowsum_last]; unfold kerRowSum
  refine congrArg (· + Ideal.ofBits .f32 0x358637BD#32) ?_
  refine Finset.sum_congr rfl fun b _ => Finset.sum_congr rfl fun q _ => ?_
  exact adjT_pt x0 x1 x4 x5 x6 x7 N pid thr temp hx0 hx1 hx4 hx5 hx6 hx7 a b p q

/-- The product accumulator after the last column tile is the kernel's accumulated product. -/
theorem wacc_last
    (hx0 : ∀ (t : Fin 64) (p : Fin 1024) (k : Fin 256), x0 t (ix2 p k) = refFeat N (rowOf t p) k)
    (hx1 : ∀ (t : Fin 64) (q : Fin 1024) (k : Fin 256), x1 t (ix2 q k) = refFeat N (colOf t q) k)
    (hx4 : ∀ (t : Fin 64) (p : Fin 1024), x4 t (ix2 p (0 : Fin 1)) = pid (rowOf t p))
    (hx5 : ∀ (t : Fin 64) (q : Fin 1024), x5 t (ix2 (0 : Fin 1) q) = pid (colOf t q))
    (hx6 : ∀ t : Fin 64, x6 t (ix2 (0 : Fin 1) (0 : Fin 1)) = thr)
    (hx7 : ∀ t : Fin 64, x7 t (ix2 (0 : Fin 1) (0 : Fin 1)) = temp)
    (hx3 : ∀ (t : Fin 64) (q : Fin 1024) (d : Fin 256), x3 t (ix2 q d) = N (colOf t q) d)
    (a : Fin 8) (p : Fin 1024) (d : Fin 256) :
    (accs x0 x1 x3 x4 x5 x6 x7 (8 * a.val + 7) (last_lt a)).2 (ix2 p d) = kerWAcc N pid thr temp (rowA a p) d := by
  rw [accs_wsum_last]; unfold kerWAcc
  refine Finset.sum_congr rfl fun b _ => Finset.sum_congr rfl fun q _ => ?_
  rw [adjT_pt x0 x1 x4 x5 x6 x7 N pid thr temp hx0 hx1 hx4 hx5 hx6 hx7 a b p q, hx3, colOf_pt]

/-- The tile written at the last column tile of row tile `a`, at `(p, d)`, is the kernel's result at the global row. -/
theorem out_last
    (hx0 : ∀ (t : Fin 64) (p : Fin 1024) (k : Fin 256), x0 t (ix2 p k) = refFeat N (rowOf t p) k)
    (hx1 : ∀ (t : Fin 64) (q : Fin 1024) (k : Fin 256), x1 t (ix2 q k) = refFeat N (colOf t q) k)
    (hx4 : ∀ (t : Fin 64) (p : Fin 1024), x4 t (ix2 p (0 : Fin 1)) = pid (rowOf t p))
    (hx5 : ∀ (t : Fin 64) (q : Fin 1024), x5 t (ix2 (0 : Fin 1) q) = pid (colOf t q))
    (hx6 : ∀ t : Fin 64, x6 t (ix2 (0 : Fin 1) (0 : Fin 1)) = thr)
    (hx7 : ∀ t : Fin 64, x7 t (ix2 (0 : Fin 1) (0 : Fin 1)) = temp)
    (hx3 : ∀ (t : Fin 64) (q : Fin 1024) (d : Fin 256), x3 t (ix2 q d) = N (colOf t q) d)
    (hx2 : ∀ (t : Fin 64) (p : Fin 1024) (d : Fin 256), x2 t (ix2 p d) = N (rowOf t p) d)
    (hx8 : ∀ (t : Fin 64) (k j : Fin 256), x8 t (ix2 k j) = W1 k j)
    (hx9 : ∀ (t : Fin 64) (j : Fin 256), x9 t (ix2 (0 : Fin 1) j) = b1 j)
    (hx10 : ∀ (t : Fin 64) (k : Fin 256) (j : Fin 512), x10 t (ix2 k j) = W2 k j)
    (hx11 : ∀ (t : Fin 64) (j : Fin 512), x11 t (ix2 (0 : Fin 1) j) = b2 j)
    (a : Fin 8) (p : Fin 1024) (d : Fin 256) :
    k0_pay4 (F := Ideal) (accs x0 x1 x3 x4 x5 x6 x7 (8 * a.val + 7) (last_lt a)).1 (accs x0 x1 x3 x4 x5 x6 x7 (8 * a.val + 7) (last_lt a)).2
        (x8 ⟨8 * a.val + 7, last_lt a⟩) (x9 ⟨8 * a.val + 7, last_lt a⟩) (x10 ⟨8 * a.val + 7, last_lt a⟩)
        (x11 ⟨8 * a.val + 7, last_lt a⟩) (x2 ⟨8 * a.val + 7, last_lt a⟩) (ix2 p d)
      = kerOut N pid thr temp W1 b1 W2 b2 (rowA a p) d := by
  have hrs : rsK (accs x0 x1 x3 x4 x5 x6 x7 (8 * a.val + 7) (last_lt a)).1 p = kerRowSum N pid thr temp (rowA a p) :=
    rowsum_last x0 x1 x3 x4 x5 x6 x7 N pid thr temp hx0 hx1 hx4 hx5 hx6 hx7 a p
  have hwn : ∀ k : Fin 256, wnK (accs x0 x1 x3 x4 x5 x6 x7 (8 * a.val + 7) (last_lt a)).1 (accs x0 x1 x3 x4 x5 x6 x7 (8 * a.val + 7) (last_lt a)).2 p k = kerWn N pid thr temp (rowA a p) k := fun k => by
    unfold wnK kerWn
    rw [hrs, wacc_last x0 x1 x3 x4 x5 x6 x7 N pid thr temp hx0 hx1 hx4 hx5 hx6 hx7 hx3 a p k]
  have hh : ∀ j : Fin 256, hK (accs x0 x1 x3 x4 x5 x6 x7 (8 * a.val + 7) (last_lt a)).1 (accs x0 x1 x3 x4 x5 x6 x7 (8 * a.val + 7) (last_lt a)).2 (x8 ⟨8 * a.val + 7, last_lt a⟩) (x9 ⟨8 * a.val + 7, last_lt a⟩) p j
      = kerH N pid thr temp W1 b1 (rowA a p) j := fun j => by
    unfold hK kerH
    rw [Ideal.ofBits_zero_f32, hx9]
    refine congrArg (fun s => max (s + b1 j) 0) (Finset.sum_congr rfl fun k _ => ?_)
    rw [hwn k, hx8]
  have hf : ∀ j : Fin 512, filmK (accs x0 x1 x3 x4 x5 x6 x7 (8 * a.val + 7) (last_lt a)).1 (accs x0 x1 x3 x4 x5 x6 x7 (8 * a.val + 7) (last_lt a)).2 (x8 ⟨8 * a.val + 7, last_lt a⟩) (x9 ⟨8 * a.val + 7, last_lt a⟩)
      (x10 ⟨8 * a.val + 7, last_lt a⟩) (x11 ⟨8 * a.val + 7, last_lt a⟩) p j
      = kerFilm N pid thr temp W1 b1 W2 b2 (rowA a p) j := fun j => by
    unfold filmK kerFilm
    rw [hx11]
    refine congrArg (· + b2 j) (Finset.sum_congr rfl fun k _ => ?_)
    rw [hh k, hx10]
  have hn : x2 ⟨8 * a.val + 7, last_lt a⟩ (ix2 p d) = N (rowA a p) d := by
    rw [hx2]
    exact congrArg (N · d) (Fin.ext (by
      show 1024 * ((8 * a.val + 7) / 8) + p.val = 1024 * a.val + p.val
      omega))
  rw [pay4_apply, hf, hf, hrs, hn]
  rfl

end Cert.KernelIdeal.PayIdx

end
-- ==== Proof.KEntryBlk.lean ====
/-
  The input windows' blocks read at an index. The grid is 8 × 8; point `t` has row tile `t / 8` and column tile
  `t % 8`. A window that moves with the row tile reads rows `1024 * (t / 8) + p` of its array, one that moves with
  the column tile reads rows (or columns) `1024 * (t % 8) + q`, and the small windows read their whole arrays.
-/
import proofs.«162713_j40484361732478_2_alg».proof.Proof.FrameBase
import Idealize.ShloMosaic.Lib.ValueIdx

set_option maxRecDepth 16384

noncomputable section

open scoped BigOperators

namespace Cert.KernelIdeal.Entry

open Cert.KernelIdeal Cert.KernelIdeal.Gen Cert.KernelIdeal.Fr
open Idealize.ShloMosaic Idealize.ShloMosaic.TcCoe Idealize.ShloMosaic.Tactic
open Idealize.SL.Sem
open Idealize.ShloMosaic.ValueIdx

variable (m : (ℓ : Loc nD τ sig) → Buf (Elt Ideal) ℓ)

/-- A grid point is below 64. -/
theorem t_lt (t : Fin cfg0.N) : t.val < 64 := lt_of_lt_of_eq t.isLt N_0

/-- Row `p` of the row tile of point `t`. -/
abbrev rowAt (t : Fin cfg0.N) (p : Fin 1024) : Fin 8192 :=
  ⟨1024 * (t.val / 8) + p.val, by have := t_lt t; have := p.isLt; omega⟩
/-- Row `q` of the column tile of point `t`. -/
abbrev colAt (t : Fin cfg0.N) (q : Fin 1024) : Fin 8192 :=
  ⟨1024 * (t.val % 8) + q.val, by have := t_lt t; have := q.isLt; omega⟩

/-- Window 0's block index at every point. -/
theorem idx_0 : ∀ t : Fin cfg0.N, win0_0.index t (0 : Fin 2) = t.val / 8 ∧ win0_0.index t (1 : Fin 2) = 0 :=
  (by decide +kernel : ∀ t : Fin grid0.N, _)

/-- Window 1's block index at every point. -/
theorem idx_1 : ∀ t : Fin cfg0.N, win0_1.index t (0 : Fin 2) = t.val % 8 ∧ win0_1.index t (1 : Fin 2) = 0 :=
  (by decide +kernel : ∀ t : Fin grid0.N, _)

/-- Window 2's block index at every point. -/
theorem idx_2 : ∀ t : Fin cfg0.N, win0_2.index t (0 : Fin 2) = t.val / 8 ∧ win0_2.index t (1 : Fin 2) = 0 :=
  (by decide +kernel : ∀ t : Fin grid0.N, _)

/-- Window 3's block index at every point. -/
theorem idx_3 : ∀ t : Fin cfg0.N, win0_3.index t (0 : Fin 2) = t.val % 8 ∧ win0_3.index t (1 : Fin 2) = 0 :=
  (by decide +kernel : ∀ t : Fin grid0.N, _)

/-- Window 4's block index at every point. -/
theorem idx_4 : ∀ t : Fin cfg0.N, win0_4.index t (0 : Fin 2) = t.val / 8 ∧ win0_4.index t (1 : Fin 2) = 0 :=
  (by decide +kernel : ∀ t : Fin grid0.N, _)

/-- Window 5's block index at every point. -/
theorem idx_5 : ∀ t : Fin cfg0.N, win0_5.index t (0 : Fin 2) = 0 ∧ win0_5.index t (1 : Fin 2) = t.val % 8 :=
  (by decide +kernel : ∀ t : Fin grid0.N, _)

/-- Window 6's block index at every point. -/
theorem idx_6 : ∀ t : Fin cfg0.N, win0_6.index t (0 : Fin 2) = 0 ∧ win0_6.index t (1 : Fin 2) = 0 :=
  (by decide +kernel : ∀ t : Fin grid0.N, _)

/-- Window 7's block index at every point. -/
theorem idx_7 : ∀ t : Fin cfg0.N, win0_7.index t (0 : Fin 2) = 0 ∧ win0_7.index t (1 : Fin 2) = 0 :=
  (by decide +kernel : ∀ t : Fin grid0.N, _)

/-- Window 8's block index at every point. -/
theorem idx_8 : ∀ t : Fin cfg0.N, win0_8.index t (0 : Fin 2) = 0 ∧ win0_8.index t (1 : Fin 2) = 0 :=
  (by decide +kernel : ∀ t : Fin grid0.N, _)

/-- Window 9's block index at every point. -/
theorem idx_9 : ∀ t : Fin cfg0.N, win0_9.index t (0 : Fin 2) = 0 ∧ win0_9.index t (1 : Fin 2) = 0 :=
  (by decide +kernel : ∀ t : Fin grid0.N, _)

/-- Window 10's block index at every point. -/
theorem idx_10 : ∀ t : Fin cfg0.N, win0_10.index t (0 : Fin 2) = 0 ∧ win0_10.index t (1 : Fin 2) = 0 :=
  (by decide +kernel : ∀ t : Fin grid0.N, _)

/-- Window 11's block index at every point. -/
theorem idx_11 : ∀ t : Fin cfg0.N, win0_11.index t (0 : Fin 2) = 0 ∧ win0_11.index t (1 : Fin 2) = 0 :=
  (by decide +kernel : ∀ t : Fin grid0.N, _)

/-- Window 0's block at point `t`, read at an index, is its array `main_v5` at the block's place. -/
theorem blk_0 (c : Dev nD) (t : Fin cfg0.N) (a : Fin 1024) (b : Fin 256) :
    (iblk m c 0 t : Vec Ideal S1024x256 .bf16) (ix2 a b) = V m c main_v5 (ix2 (rowAt t a) (b)) := by
  show V m c main_v5 (((cfg0.win 0).blk t).view.emb (ix2 a b)) = V m c main_v5 _
  obtain ⟨e0, e1⟩ := idx_0 t
  refine congrArg _ (funext fun d => Fin.ext ?_)
  match d with
  | ⟨0, _⟩ => show win0_0.index t (0 : Fin 2) * 1024 + 1 * a.val = 1024 * (t.val / 8) + a.val; omega
  | ⟨1, _⟩ => show win0_0.index t (1 : Fin 2) * 256 + 1 * b.val = b.val; omega

/-- Window 1's block at point `t`, read at an index, is its array `main_v5` at the block's place. -/
theorem blk_1 (c : Dev nD) (t : Fin cfg0.N) (a : Fin 1024) (b : Fin 256) :
    (iblk m c 1 t : Vec Ideal S1024x256 .bf16) (ix2 a b) = V m c main_v5 (ix2 (colAt t a) (b)) := by
  show V m c main_v5 (((cfg0.win 1).blk t).view.emb (ix2 a b)) = V m c main_v5 _
  obtain ⟨e0, e1⟩ := idx_1 t
  refine congrArg _ (funext fun d => Fin.ext ?_)
  match d with
  | ⟨0, _⟩ => show win0_1.index t (0 : Fin 2) * 1024 + 1 * a.val = 1024 * (t.val % 8) + a.val; omega
  | ⟨1, _⟩ => show win0_1.index t (1 : Fin 2) * 256 + 1 * b.val = b.val; omega

/-- Window 2's block at point `t`, read at an index, is its array `main_arg0` at the block's place. -/
theorem blk_2 (c : Dev nD) (t : Fin cfg0.N) (a : Fin 1024) (b : Fin 256) :
    (iblk m c 2 t : Vec Ideal S1024x256 .f32) (ix2 a b) = V m c main_arg0 (ix2 (rowAt t a) (b)) := by
  show V m c main_arg0 (((cfg0.win 2).blk t).view.emb (ix2 a b)) = V m c main_arg0 _
  obtain ⟨e0, e1⟩ := idx_2 t
  refine congrArg _ (funext fun d => Fin.ext ?_)
  match d with
  | ⟨0, _⟩ => show win0_2.index t (0 : Fin 2) * 1024 + 1 * a.val = 1024 * (t.val / 8) + a.val; omega
  | ⟨1, _⟩ => show win0_2.index t (1 : Fin 2) * 256 + 1 * b.val = b.val; omega

/-- Window 3's block at point `t`, read at an index, is its array `main_v6` at the block's place. -/
theorem blk_3 (c : Dev nD) (t : Fin cfg0.N) (a : Fin 1024) (b : Fin 256) :
    (iblk m c 3 t : Vec Ideal S1024x256 .bf16) (ix2 a b) = V m c main_v6 (ix2 (colAt t a) (b)) := by
  show V m c main_v6 (((cfg0.win 3).blk t).view.emb (ix2 a b)) = V m c main_v6 _
  obtain ⟨e0, e1⟩ := idx_3 t
  refine congrArg _ (funext fun d => Fin.ext ?_)
  match d with
  | ⟨0, _⟩ => show win0_3.index t (0 : Fin 2) * 1024 + 1 * a.val = 1024 * (t.val % 8) + a.val; omega
  | ⟨1, _⟩ => show win0_3.index t (1 : Fin 2) * 256 + 1 * b.val = b.val; omega

/-- Window 4's block at point `t`, read at an index, is its array `main_v7` at the block's place. -/
theorem blk_4 (c : Dev nD) (t : Fin cfg0.N) (a : Fin 1024) (b : Fin 1) :
    (iblk m c 4 t : IVec S1024x1 32) (ix2 a b) = V m c main_v7 (ix2 (rowAt t a) (b)) := by
  show V m c main_v7 (((cfg0.win 4).blk t).view.emb (ix2 a b)) = V m c main_v7 _
  obtain ⟨e0, e1⟩ := idx_4 t
  refine congrArg _ (funext fun d => Fin.ext ?_)
  match d with
  | ⟨0, _⟩ => show win0_4.index t (0 : Fin 2) * 1024 + 1 * a.val = 1024 * (t.val / 8) + a.val; omega
  | ⟨1, _⟩ => show win0_4.index t (1 : Fin 2) * 1 + 1 * b.val = b.val; omega

/-- Window 5's block at point `t`, read at an index, is its array `main_v8` at the block's place. -/
theorem blk_5 (c : Dev nD) (t : Fin cfg0.N) (a : Fin 1) (b : Fin 1024) :
    (iblk m c 5 t : IVec S1x1024 32) (ix2 a b) = V m c main_v8 (ix2 (a) (colAt t b)) := by
  show V m c main_v8 (((cfg0.win 5).blk t).view.emb (ix2 a b)) = V m c main_v8 _
  obtain ⟨e0, e1⟩ := idx_5 t
  refine congrArg _ (funext fun d => Fin.ext ?_)
  match d with
  | ⟨0, _⟩ => show win0_5.index t (0 : Fin 2) * 1 + 1 * a.val = a.val; omega
  | ⟨1, _⟩ => show win0_5.index t (1 : Fin 2) * 1024 + 1 * b.val = 1024 * (t.val % 8) + b.val; omega

/-- Window 6's block at point `t`, read at an index, is its array `main_v9` at the block's place. -/
theorem blk_6 (c : Dev nD) (t : Fin cfg0.N) (a : Fin 1) (b : Fin 1) :
    (iblk m c 6 t : Vec Ideal S1x1 .f32) (ix2 a b) = V m c main_v9 (ix2 (a) (b)) := by
  show V m c main_v9 (((cfg0.win 6).blk t).view.emb (ix2 a b)) = V m c main_v9 _
  obtain ⟨e0, e1⟩ := idx_6 t
  refine congrArg _ (funext fun d => Fin.ext ?_)
  match d with
  | ⟨0, _⟩ => show win0_6.index t (0 : Fin 2) * 1 + 1 * a.val = a.val; omega
  | ⟨1, _⟩ => show win0_6.index t (1 : Fin 2) * 1 + 1 * b.val = b.val; omega

/-- Window 7's block at point `t`, read at an index, is its array `main_v10` at the block's place. -/
theorem blk_7 (c : Dev nD) (t : Fin cfg0.N) (a : Fin 1) (b : Fin 1) :
    (iblk m c 7 t : Vec Ideal S1x1 .f32) (ix2 a b) = V m c main_v10 (ix2 (a) (b)) := by
  show V m c main_v10 (((cfg0.win 7).blk t).view.emb (ix2 a b)) = V m c main_v10 _
  obtain ⟨e0, e1⟩ := idx_7 t
  refine congrArg _ (funext fun d => Fin.ext ?_)
  match d with
  | ⟨0, _⟩ => show win0_7.index t (0 : Fin 2) * 1 + 1 * a.val = a.val; omega
  | ⟨1, _⟩ => show win0_7.index t (1 : Fin 2) * 1 + 1 * b.val = b.val; omega

/-- Window 8's block at point `t`, read at an index, is its array `main_arg4` at the block's place. -/
theorem blk_8 (c : Dev nD) (t : Fin cfg0.N) (a : Fin 256) (b : Fin 256) :
    (iblk m c 8 t : Vec Ideal S256x256 .f32) (ix2 a b) = V m c main_arg4 (ix2 (a) (b)) := by
  show V m c main_arg4 (((cfg0.win 8).blk t).view.emb (ix2 a b)) = V m c main_arg4 _
  obtain ⟨e0, e1⟩ := idx_8 t
  refine congrArg _ (funext fun d => Fin.ext ?_)
  match d with
  | ⟨0, _⟩ => show win0_8.index t (0 : Fin 2) * 256 + 1 * a.val = a.val; omega
  | ⟨1, _⟩ => show win0_8.index t (1 : Fin 2) * 256 + 1 * b.val = b.val; omega

/-- Window 9's block at point `t`, read at an index, is its array `main_v11` at the block's place. -/
theorem blk_9 (c : Dev nD) (t : Fin cfg0.N) (a : Fin 1) (b : Fin 256) :
    (iblk m c 9 t : Vec Ideal S1x256 .f32) (ix2 a b) = V m c main_v11 (ix2 (a) (b)) := by
  show V m c main_v11 (((cfg0.win 9).blk t).view.emb (ix2 a b)) = V m c main_v11 _
  obtain ⟨e0, e1⟩ := idx_9 t
  refine congrArg _ (funext fun d => Fin.ext ?_)
  match d with
  | ⟨0, _⟩ => show win0_9.index t (0 : Fin 2) * 1 + 1 * a.val = a.val; omega
  | ⟨1, _⟩ => show win0_9.index t (1 : Fin 2) * 256 + 1 * b.val = b.val; omega

/-- Window 10's block at point `t`, read at an index, is its array `main_arg6` at the block's place. -/
theorem blk_10 (c : Dev nD) (t : Fin cfg0.N) (a : Fin 256) (b : Fin 512) :
    (iblk m c 10 t : Vec Ideal S256x512 .f32) (ix2 a b) = V m c main_arg6 (ix2 (a) (b)) := by
  show V m c main_arg6 (((cfg0.win 10).blk t).view.emb (ix2 a b)) = V m c main_arg6 _
  obtain ⟨e0, e1⟩ := idx_10 t
  refine congrArg _ (funext fun d => Fin.ext ?_)
  match d with
  | ⟨0, _⟩ => show win0_10.index t (0 : Fin 2) * 256 + 1 * a.val = a.val; omega
  | ⟨1, _⟩ => show win0_10.index t (1 : Fin 2) * 512 + 1 * b.val = b.val; omega

/-- Window 11's block at point `t`, read at an index, is its array `main_v12` at the block's place. -/
theorem blk_11 (c : Dev nD) (t : Fin cfg0.N) (a : Fin 1) (b : Fin 512) :
    (iblk m c 11 t : Vec Ideal S1x512 .f32) (ix2 a b) = V m c main_v12 (ix2 (a) (b)) := by
  show V m c main_v12 (((cfg0.win 11).blk t).view.emb (ix2 a b)) = V m c main_v12 _
  obtain ⟨e0, e1⟩ := idx_11 t
  refine congrArg _ (funext fun d => Fin.ext ?_)
  match d with
  | ⟨0, _⟩ => show win0_11.index t (0 : Fin 2) * 1 + 1 * a.val = a.val; omega
  | ⟨1, _⟩ => show win0_11.index t (1 : Fin 2) * 512 + 1 * b.val = b.val; omega

end Cert.KernelIdeal.Entry

end
-- ==== Proof.KEntryVal.lean ====
/-
  The arrays as the region finds them, read at an index. Before the region the program computes, on the host, the
  normalised rows (each row of the input divided by the larger of its Euclidean norm and a small constant, then a
  format change that is the identity on extended reals), a second copy of the input in the narrower format, and
  reshapes of the identifiers, the threshold, the temperature and the two bias vectors; the other arguments reach
  the region untouched.
-/
import proofs.«162713_j40484361732478_2_alg».proof.Proof.FrameBase
import proofs.«162713_j40484361732478_2_alg».proof.Proof.RefSpec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Entry

open Cert.KernelIdeal Cert.KernelIdeal.Gen Cert.KernelIdeal.Fr
open Idealize.ShloMosaic Idealize.ShloMosaic.TcCoe Idealize.ShloMosaic.Tactic
open Idealize.SL.Sem
open Idealize.ShloMosaic.ValueIdx

variable (m : (ℓ : Loc nD τ sig) → Buf (Elt Ideal) ℓ)

open Idealize.ShloMosaic.StableHlo
open Cert.ReferenceIdeal.RefValue

/-! ## Layout operations at an index -/

/-- A vector reshaped to a one-row matrix reads its entry at the column. -/
theorem shapeCast_row_apply {α : Type} {n : Nat} (x : (⟨1, ![n]⟩ : Shape).Idx → α)
    (h : (⟨1, ![n]⟩ : Shape).ShapeCasts ⟨2, ![1, n]⟩) (z : Fin 1) (j : Fin n) :
    shapeCast ⟨2, ![1, n]⟩ x h (ix2 z j) = x (ix1 j) := by
  refine shapeCast_apply x h _ _ ?_
  rw [Shape.rowMajor_val_one, Shape.rowMajor_val_two]
  have hz : z.val = 0 := by have := z.isLt; omega
  show j.val = z.val * n + j.val
  rw [hz, Nat.zero_mul, Nat.zero_add]

/-- A vector reshaped to a one-column matrix reads its entry at the row. -/
theorem shapeCast_col_apply {α : Type} {n : Nat} (x : (⟨1, ![n]⟩ : Shape).Idx → α)
    (h : (⟨1, ![n]⟩ : Shape).ShapeCasts ⟨2, ![n, 1]⟩) (r : Fin n) (z : Fin 1) :
    shapeCast ⟨2, ![n, 1]⟩ x h (ix2 r z) = x (ix1 r) := by
  refine shapeCast_apply x h _ _ ?_
  rw [Shape.rowMajor_val_one, Shape.rowMajor_val_two]
  have hz : z.val = 0 := by have := z.isLt; omega
  show r.val = r.val * 1 + z.val
  rw [hz, Nat.mul_one, Nat.add_zero]

/-- A column broadcast from a vector reads the vector at the row. -/
theorem bcast_col_apply {α : Type} (x : S8192.Idx → α) (r : Fin 8192) (z : Fin 1) :
    broadcastInDim S8192x1 ![0] bcast_S8192_S8192x1_0 x (ix2 r z) = x (ix1 r) :=
  broadcastInDim_apply _ bcast_S8192_S8192x1_0 x (ix2 r z) (ix1 r) (fun a => match a with
    | ⟨0, _⟩ => by show r.val = if (8192 : Nat) = 1 then 0 else r.val; rw [if_neg (by decide)])

/-- A column broadcast from a scalar reads the scalar. -/
theorem bcast_scalar_apply {α : Type} (x : S_.Idx → α) (i : S8192x1.Idx) :
    broadcastInDim S8192x1 ![] bcast_S_S8192x1 x i = x ix0 :=
  broadcastInDim_apply _ bcast_S_S8192x1 x i ix0 (fun a => a.elim0)

/-- A column broadcast along the rows reads the column at the row. -/
theorem bcast_row_apply {α : Type} (x : S8192x1.Idx → α) (r : Fin 8192) (k : Fin 256) :
    broadcastInDim S8192x256 ![0, 1] bcast_S8192x1_S8192x256_0_1 x (ix2 r k) = x (ix2 r (0 : Fin 1)) :=
  broadcastInDim_apply _ bcast_S8192x1_S8192x256_0_1 x (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-! ## The normalised rows, as operations of the input -/

/-- The sums of squares of the rows. -/
def sqTerm (A : FVec Ideal S8192x256 .f32) : FVec Ideal S8192 .f32 :=
  Host.reduceAdd (mulf A A) (constant S_ .f32 0x00000000#32) reducesTo_S8192x256_S8192_d1 h_S_

/-- The rows' divisors. -/
def normTerm (A : FVec Ideal S8192x256 .f32) : FVec Ideal S8192x1 .f32 :=
  maximumf (Host.sqrt (broadcastInDim S8192x1 ![0] bcast_S8192_S8192x1_0 (sqTerm A)))
    (broadcastInDim S8192x1 ![] bcast_S_S8192x1 (constant S_ .f32 0x2B8CBCCC#32))

/-- The normalised rows in the narrower format. -/
def featTerm (A : FVec Ideal S8192x256 .f32) : FVec Ideal S8192x256 .bf16 :=
  truncf .bf16 (Host.divf A (broadcastInDim S8192x256 ![0, 1] bcast_S8192x1_S8192x256_0_1 (normTerm A))) bitsLt_bf16_f32

theorem sqTerm_apply (A : FVec Ideal S8192x256 .f32) (r : Fin 8192) :
    sqTerm A (ix1 r) = refSq (fun a b => A (ix2 a b)) r := by
  unfold sqTerm
  simp only [Host.reduceAdd, Ideal.hostReduceAdd_def]
  rw [Ideal.hostReduceAdd_single reducesTo_S8192x256_S8192_d1 (by decide), constant_apply, Ideal.ofBits_zero_f32, zero_add]
  unfold refSq
  refine Finset.sum_congr rfl fun k _ => ?_
  exact congrArg (fun i => A i * A i) (funext fun a => Fin.ext (by match a with | ⟨0, _⟩ => rfl | ⟨1, _⟩ => rfl))

theorem normTerm_apply (A : FVec Ideal S8192x256 .f32) (r : Fin 8192) (z : Fin 1) :
    normTerm A (ix2 r z) = refNorm (fun a b => A (ix2 a b)) r := by
  unfold normTerm
  rw [maximumf_apply, bcast_scalar_apply, constant_apply]
  show max (Ideal.sqrt (broadcastInDim S8192x1 ![0] bcast_S8192_S8192x1_0 (sqTerm A) (ix2 r z))) _ = _
  rw [bcast_col_apply, sqTerm_apply]
  rfl

theorem featTerm_apply (A : FVec Ideal S8192x256 .f32) (r : Fin 8192) (k : Fin 256) :
    featTerm A (ix2 r k) = refFeat (fun a b => A (ix2 a b)) r k := by
  unfold featTerm
  rw [truncf_apply]
  show Ideal.div (A (ix2 r k)) (broadcastInDim S8192x256 ![0, 1] bcast_S8192x1_S8192x256_0_1 (normTerm A) (ix2 r k)) = _
  rw [bcast_row_apply, normTerm_apply]
  rfl

/-! ## The arrays at the region's entry -/

/-- The input reaches the region untouched. -/
theorem V_arg0 (c : Dev nD) : V m c main_arg0 = m ((c : Thread nD τ).loc main_arg0) := by
  dsimp only [V, V0]
  simp only [hostOps0, hostOps0_1, List.flatten_cons, List.flatten_nil, List.append_nil, List.cons_append, List.nil_append]
  after_results
/-- The first weight matrix reaches the region untouched. -/
theorem V_arg4 (c : Dev nD) : V m c main_arg4 = m ((c : Thread nD τ).loc main_arg4) := by
  dsimp only [V, V0]
  simp only [hostOps0, hostOps0_1, List.flatten_cons, List.flatten_nil, List.append_nil, List.cons_append, List.nil_append]
  after_results
/-- The second weight matrix reaches the region untouched. -/
theorem V_arg6 (c : Dev nD) : V m c main_arg6 = m ((c : Thread nD τ).loc main_arg6) := by
  dsimp only [V, V0]
  simp only [hostOps0, hostOps0_1, List.flatten_cons, List.flatten_nil, List.append_nil, List.cons_append, List.nil_append]
  after_results

/-- The normalised rows. -/
theorem V_v5 (c : Dev nD) (r : Fin 8192) (k : Fin 256) :
    (V m c main_v5 : S8192x256.Idx → EReal) (ix2 r k)
      = refFeat (fun a b => (m ((c : Thread nD τ).loc main_arg0) : S8192x256.Idx → EReal) (ix2 a b)) r k := by
  have e : @Eq (S8192x256.Idx → EReal) (V m c main_v5) (featTerm (m ((c : Thread nD τ).loc main_arg0))) := by
    dsimp only [V, V0]
    simp only [hostOps0, hostOps0_1, List.flatten_cons, List.flatten_nil, List.append_nil, List.cons_append, List.nil_append]
    after_results
    rfl
  rw [e, featTerm_apply]

/-- The input in the narrower format is the input. -/
theorem V_v6 (c : Dev nD) (r : Fin 8192) (k : Fin 256) :
    (V m c main_v6 : S8192x256.Idx → EReal) (ix2 r k)
      = (m ((c : Thread nD τ).loc main_arg0) : S8192x256.Idx → EReal) (ix2 r k) := by
  have e : @Eq (FVec Ideal S8192x256 .bf16) (V m c main_v6) (truncf .bf16 (m ((c : Thread nD τ).loc main_arg0) : FVec Ideal S8192x256 .f32) bitsLt_bf16_f32) := by
    dsimp only [V, V0]
    simp only [hostOps0, hostOps0_1, List.flatten_cons, List.flatten_nil, List.append_nil, List.cons_append, List.nil_append]
    after_results
  rw [e]
  rfl

/-- The identifiers as a column. -/
theorem V_v7 (c : Dev nD) (r : Fin 8192) (z : Fin 1) :
    (V m c main_v7 : S8192x1.Idx → BitVec 32) (ix2 r z)
      = (m ((c : Thread nD τ).loc main_arg1) : S8192.Idx → BitVec 32) (ix1 r) := by
  have e : @Eq (S8192x1.Idx → BitVec 32) (V m c main_v7) (shapeCast S8192x1 (m ((c : Thread nD τ).loc main_arg1) : S8192.Idx → BitVec 32) shapeCasts_S8192_S8192x1) := by
    dsimp only [V, V0]
    simp only [hostOps0, hostOps0_1, List.flatten_cons, List.flatten_nil, List.append_nil, List.cons_append, List.nil_append]
    after_results
    rfl
  rw [e]
  exact shapeCast_col_apply _ _ r z

/-- The identifiers as a row. -/
theorem V_v8 (c : Dev nD) (z : Fin 1) (r : Fin 8192) :
    (V m c main_v8 : S1x8192.Idx → BitVec 32) (ix2 z r)
      = (m ((c : Thread nD τ).loc main_arg1) : S8192.Idx → BitVec 32) (ix1 r) := by
  have e : @Eq (S1x8192.Idx → BitVec 32) (V m c main_v8) (shapeCast S1x8192 (m ((c : Thread nD τ).loc main_arg1) : S8192.Idx → BitVec 32) shapeCasts_S8192_S1x8192) := by
    dsimp only [V, V0]
    simp only [hostOps0, hostOps0_1, List.flatten_cons, List.flatten_nil, List.append_nil, List.cons_append, List.nil_append]
    after_results
    rfl
  rw [e]
  exact shapeCast_row_apply _ _ z r

/-- The threshold as a one-by-one matrix. -/
theorem V_v9 (c : Dev nD) (z z' : Fin 1) :
    (V m c main_v9 : S1x1.Idx → EReal) (ix2 z z')
      = (m ((c : Thread nD τ).loc main_arg2) : S1.Idx → EReal) (ix1 (0 : Fin 1)) := by
  have e : @Eq (S1x1.Idx → EReal) (V m c main_v9) (shapeCast S1x1 (m ((c : Thread nD τ).loc main_arg2) : S1.Idx → EReal) shapeCasts_S1_S1x1) := by
    dsimp only [V, V0]
    simp only [hostOps0, hostOps0_1, List.flatten_cons, List.flatten_nil, List.append_nil, List.cons_append, List.nil_append]
    after_results
    rfl
  rw [e, Subsingleton.elim z' (0 : Fin 1)]
  exact shapeCast_row_apply _ _ z (0 : Fin 1)

/-- The temperature as a one-by-one matrix. -/
theorem V_v10 (c : Dev nD) (z z' : Fin 1) :
    (V m c main_v10 : S1x1.Idx → EReal) (ix2 z z')
      = (m ((c : Thread nD τ).loc main_arg3) : S1.Idx → EReal) (ix1 (0 : Fin 1)) := by
  have e : @Eq (S1x1.Idx → EReal) (V m c main_v10) (shapeCast S1x1 (m ((c : Thread nD τ).loc main_arg3) : S1.Idx → EReal) shapeCasts_S1_S1x1) := by
    dsimp only [V, V0]
    simp only [hostOps0, hostOps0_1, List.flatten_cons, List.flatten_nil, List.append_nil, List.cons_append, List.nil_append]
    after_results
    rfl
  rw [e, Subsingleton.elim z' (0 : Fin 1)]
  exact shapeCast_row_apply _ _ z (0 : Fin 1)

/-- The first bias as a row. -/
theorem V_v11 (c : Dev nD) (z : Fin 1) (j : Fin 256) :
    (V m c main_v11 : S1x256.Idx → EReal) (ix2 z j)
      = (m ((c : Thread nD τ).loc main_arg5) : S256.Idx → EReal) (ix1 j) := by
  have e : @Eq (S1x256.Idx → EReal) (V m c main_v11) (shapeCast S1x256 (m ((c : Thread nD τ).loc main_arg5) : S256.Idx → EReal) shapeCasts_S256_S1x256) := by
    dsimp only [V, V0]
    simp only [hostOps0, hostOps0_1, List.flatten_cons, List.flatten_nil, List.append_nil, List.cons_append, List.nil_append]
    after_results
    rfl
  rw [e]
  exact shapeCast_row_apply _ _ z j

/-- The second bias as a row. -/
theorem V_v12 (c : Dev nD) (z : Fin 1) (j : Fin 512) :
    (V m c main_v12 : S1x512.Idx → EReal) (ix2 z j)
      = (m ((c : Thread nD τ).loc main_arg7) : S512.Idx → EReal) (ix1 j) := by
  have e : @Eq (S1x512.Idx → EReal) (V m c main_v12) (shapeCast S1x512 (m ((c : Thread nD τ).loc main_arg7) : S512.Idx → EReal) shapeCasts_S512_S1x512) := by
    dsimp only [V, V0]
    simp only [hostOps0, hostOps0_1, List.flatten_cons, List.flatten_nil, List.append_nil, List.cons_append, List.nil_append]
    after_results
    rfl
  rw [e]
  exact shapeCast_row_apply _ _ z j

end Cert.KernelIdeal.Entry

end
-- ==== Proof.KEntry.lean ====
/-
  The input windows' blocks at a point, read at an index, as functions of the program's arguments: the two blocks
  of normalised rows (by row tile and by column tile), the two blocks of the input, the identifiers of the row
  tile and of the column tile, the threshold, the temperature, and the weights and biases of the two dense layers.
-/
import proofs.«162713_j40484361732478_2_alg».proof.Proof.KEntryBlk
import proofs.«162713_j40484361732478_2_alg».proof.Proof.KEntryVal

set_option maxRecDepth 16384

noncomputable section

open scoped BigOperators

namespace Cert.KernelIdeal.Entry

open Cert.KernelIdeal Cert.KernelIdeal.Gen Cert.KernelIdeal.Fr
open Idealize.ShloMosaic Idealize.ShloMosaic.TcCoe Idealize.ShloMosaic.Tactic
open Idealize.SL.Sem
open Idealize.ShloMosaic.ValueIdx

variable (m : (ℓ : Loc nD τ sig) → Buf (Elt Ideal) ℓ)

open Cert.ReferenceIdeal.RefValue

/-- The normalised rows of the row tile. -/
theorem blk0_eq (c : Dev nD) (t : Fin cfg0.N) (p : Fin 1024) (k : Fin 256) :
    (iblk m c 0 t : Vec Ideal S1024x256 .bf16) (ix2 p k) = refFeat (fun a b => (m ((c : Thread nD τ).loc main_arg0) : S8192x256.Idx → EReal) (ix2 a b)) (rowAt t p) k :=
  (blk_0 m c t p k).trans (V_v5 m c (rowAt t p) k)

/-- The normalised rows of the column tile. -/
theorem blk1_eq (c : Dev nD) (t : Fin cfg0.N) (q : Fin 1024) (k : Fin 256) :
    (iblk m c 1 t : Vec Ideal S1024x256 .bf16) (ix2 q k) = refFeat (fun a b => (m ((c : Thread nD τ).loc main_arg0) : S8192x256.Idx → EReal) (ix2 a b)) (colAt t q) k :=
  (blk_1 m c t q k).trans (V_v5 m c (colAt t q) k)

/-- The input rows of the row tile. -/
theorem blk2_eq (c : Dev nD) (t : Fin cfg0.N) (p : Fin 1024) (d : Fin 256) :
    (iblk m c 2 t : Vec Ideal S1024x256 .f32) (ix2 p d) = (m ((c : Thread nD τ).loc main_arg0) : S8192x256.Idx → EReal) (ix2 (rowAt t p) d) :=
  (blk_2 m c t p d).trans (congrFun (V_arg0 m c) _)

/-- The input rows of the column tile (in the narrower format, the same extended reals). -/
theorem blk3_eq (c : Dev nD) (t : Fin cfg0.N) (q : Fin 1024) (d : Fin 256) :
    (iblk m c 3 t : Vec Ideal S1024x256 .bf16) (ix2 q d) = (m ((c : Thread nD τ).loc main_arg0) : S8192x256.Idx → EReal) (ix2 (colAt t q) d) :=
  (blk_3 m c t q d).trans (V_v6 m c (colAt t q) d)

/-- The identifiers of the row tile. -/
theorem blk4_eq (c : Dev nD) (t : Fin cfg0.N) (p : Fin 1024) :
    (iblk m c 4 t : Vec Ideal S1024x1 .i32) (ix2 p (0 : Fin 1)) = (m ((c : Thread nD τ).loc main_arg1) : S8192.Idx → BitVec 32) (ix1 (rowAt t p)) :=
  (blk_4 m c t p (0 : Fin 1)).trans (V_v7 m c (rowAt t p) (0 : Fin 1))

/-- The identifiers of the column tile. -/
theorem blk5_eq (c : Dev nD) (t : Fin cfg0.N) (q : Fin 1024) :
    (iblk m c 5 t : Vec Ideal S1x1024 .i32) (ix2 (0 : Fin 1) q) = (m ((c : Thread nD τ).loc main_arg1) : S8192.Idx → BitVec 32) (ix1 (colAt t q)) :=
  (blk_5 m c t (0 : Fin 1) q).trans (V_v8 m c (0 : Fin 1) (colAt t q))

/-- The threshold. -/
theorem blk6_eq (c : Dev nD) (t : Fin cfg0.N) :
    (iblk m c 6 t : Vec Ideal S1x1 .f32) (ix2 (0 : Fin 1) (0 : Fin 1)) = (m ((c : Thread nD τ).loc main_arg2) : S1.Idx → EReal) (ix1 (0 : Fin 1)) :=
  (blk_6 m c t (0 : Fin 1) (0 : Fin 1)).trans (V_v9 m c (0 : Fin 1) (0 : Fin 1))

/-- The temperature. -/
theorem blk7_eq (c : Dev nD) (t : Fin cfg0.N) :
    (iblk m c 7 t : Vec Ideal S1x1 .f32) (ix2 (0 : Fin 1) (0 : Fin 1)) = (m ((c : Thread nD τ).loc main_arg3) : S1.Idx → EReal) (ix1 (0 : Fin 1)) :=
  (blk_7 m c t (0 : Fin 1) (0 : Fin 1)).trans (V_v10 m c (0 : Fin 1) (0 : Fin 1))

/-- The first layer's weights. -/
theorem blk8_eq (c : Dev nD) (t : Fin cfg0.N) (k j : Fin 256) :
    (iblk m c 8 t : Vec Ideal S256x256 .f32) (ix2 k j) = (m ((c : Thread nD τ).loc main_arg4) : S256x256.Idx → EReal) (ix2 k j) :=
  (blk_8 m c t k j).trans (congrFun (V_arg4 m c) _)

/-- The first layer's bias. -/
theorem blk9_eq (c : Dev nD) (t : Fin cfg0.N) (j : Fin 256) :
    (iblk m c 9 t : Vec Ideal S1x256 .f32) (ix2 (0 : Fin 1) j) = (m ((c : Thread nD τ).loc main_arg5) : S256.Idx → EReal) (ix1 j) :=
  (blk_9 m c t (0 : Fin 1) j).trans (V_v11 m c (0 : Fin 1) j)

/-- The second layer's weights. -/
theorem blk10_eq (c : Dev nD) (t : Fin cfg0.N) (k : Fin 256) (j : Fin 512) :
    (iblk m c 10 t : Vec Ideal S256x512 .f32) (ix2 k j) = (m ((c : Thread nD τ).loc main_arg6) : S256x512.Idx → EReal) (ix2 k j) :=
  (blk_10 m c t k j).trans (congrFun (V_arg6 m c) _)

/-- The second layer's bias. -/
theorem blk11_eq (c : Dev nD) (t : Fin cfg0.N) (j : Fin 512) :
    (iblk m c 11 t : Vec Ideal S1x512 .f32) (ix2 (0 : Fin 1) j) = (m ((c : Thread nD τ).loc main_arg7) : S512.Idx → EReal) (ix1 j) :=
  (blk_11 m c t (0 : Fin 1) j).trans (V_v12 m c (0 : Fin 1) j)

end Cert.KernelIdeal.Entry

end
-- ==== Proof.KCover.lean ====
import proofs.«162713_j40484361732478_2_alg».proof.Proof.Frame
import Idealize.ShloMosaic.Lib.Pipeline.Value
import Idealize.ShloMosaic.Lib.ValueIdx

/-!
  From the blocks the output window stores to the whole result array.

  The result array has 8192 rows of 256 entries. Grid point `t` belongs to row tile `t / 8`, rows
  `1024 * (t / 8)` up to `1024 * (t / 8) + 1023`; the output block of a row tile is stored at its last point, the one
  with `t % 8 = 7`, and covers all 256 columns. The eight stored blocks tile the array: row `i` is in the block stored
  at point `8 * (i / 1024) + 7`. So if each stored block is the matching block of rows of a function `G` on the whole
  array, the array ends holding `G`.
-/

set_option maxRecDepth 16384

noncomputable section

namespace Cert.KernelIdeal.Cover

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The output window's block index at grid point `t`: row tile `t / 8`, column block `0`. -/
theorem tileIdx : ∀ t : Fin cfg0.N, win0_12.index t (0 : Fin 2) = t.val / 8 ∧ win0_12.index t (1 : Fin 2) = 0 :=
  (by decide +kernel : ∀ t : Fin grid0.N, win0_12.index t (0 : Fin 2) = t.val / 8 ∧ win0_12.index t (1 : Fin 2) = 0)

/-- Row `p` of the row tile of grid point `t` is a row of the result array. -/
theorem row_lt (t : Fin cfg0.N) (p : Fin 1024) : 1024 * (t.val / 8) + p.val < 8192 := by
  have h := t.isLt
  have hN : cfg0.N = 64 := N_0
  have := p.isLt
  omega

/-- An index of the result array is in the block of grid point `t` iff each coordinate is in the block's range. -/
theorem mem_tile (t : Fin cfg0.N) (i : S8192x256.Idx) :
    i ∈ ((cfg0.win 12).blk t).view.set ↔ ∀ a : Fin 2, win0_12.index t a * S1024x256.size a ≤ (i a).val ∧ (i a).val < win0_12.index t a * S1024x256.size a + S1024x256.size a := by
  show i ∈ ((View.whole main_v13).slice (win0_12.rect t)).set ↔ _
  rw [View.set_slice_whole, Rect.mem_set_unit]
  exact Iff.rfl

/-- What a storing point writes back is its block of rows of `G`. -/
theorem stored_eq (c : Dev nD) (G : Buf (Elt F) ((cfg0.win 12).arr.view.loc (c.tc : Thread nD τ)))
    (hG : ∀ (t : Fin cfg0.N), t.val % 8 = 7 → ∀ (p : Fin 1024) (d : Fin 256),
      ((dats m 0 c).after 12 t : Vec F S1024x256 .f32) (ix2 p d)
        = (G : S8192x256.Idx → Elt F .f32) (ix2 ⟨1024 * (t.val / 8) + p.val, row_lt t p⟩ d))
    (t : Fin cfg0.N) (hf : (cfg0.win 12).flush t = true) :
    (dats m 0 c).flushed 12 t = ((cfg0.win 12).blk t).view.read (Elt F) G := by
  have h7 : t.val % 8 = 7 := (flush0_12 t).mp hf
  obtain ⟨e0, e1⟩ := tileIdx t
  funext y
  have hy0 : (y 0).val < 1024 := (y 0).isLt
  have hy1 : (y 1).val < 256 := (y 1).isLt
  show ((dats m 0 c).after 12 t : Vec F S1024x256 .f32) ((cfg0.win 12).xinj (grid0.coords t) y) = _
  rw [View.read_apply]
  have hx : (cfg0.win 12).xinj (grid0.coords t) y = ix2 (⟨(y 0).val, hy0⟩ : Fin 1024) (⟨(y 1).val, hy1⟩ : Fin 256) := by
    funext a; apply Fin.ext
    match a with
    | ⟨0, _⟩ => rfl
    | ⟨1, _⟩ => rfl
  rw [hx, hG t h7]
  refine congrArg (G : S8192x256.Idx → Elt F .f32) ?_
  funext a; apply Fin.ext
  match a with
  | ⟨0, _⟩ =>
    show 1024 * (t.val / 8) + (y 0).val = win0_12.index t (0 : Fin 2) * 1024 + 1 * (y 0).val
    rw [e0]; omega
  | ⟨1, _⟩ =>
    show (y 1).val = win0_12.index t (1 : Fin 2) * 256 + 1 * (y 1).val
    rw [e1]; omega

/-- The storing point of the row tile that holds row `i`. -/
theorem cover_pt_lt (i : S8192x256.Idx) : 8 * ((i 0).val / 1024) + 7 < cfg0.N := by
  have hN : cfg0.N = 64 := N_0
  have h0 : (i 0).val < 8192 := (i 0).isLt
  omega

/-- Every index of the result array is in the block of a storing point. -/
theorem covered (i : S8192x256.Idx) :
    ∃ t : Fin cfg0.N, (cfg0.win 12).flush t = true ∧ i ∈ ((cfg0.win 12).blk t).view.set := by
  have h0 : (i 0).val < 8192 := (i 0).isLt
  have h1 : (i 1).val < 256 := (i 1).isLt
  refine ⟨⟨8 * ((i 0).val / 1024) + 7, cover_pt_lt i⟩, (flush0_12 _).mpr (by show (8 * ((i 0).val / 1024) + 7) % 8 = 7; omega), ?_⟩
  obtain ⟨e0, e1⟩ := tileIdx ⟨8 * ((i 0).val / 1024) + 7, cover_pt_lt i⟩
  have e0' : win0_12.index ⟨8 * ((i 0).val / 1024) + 7, cover_pt_lt i⟩ (0 : Fin 2) = (i 0).val / 1024 := by
    rw [e0]; show (8 * ((i 0).val / 1024) + 7) / 8 = (i 0).val / 1024; omega
  rw [mem_tile]
  intro a
  match a with
  | ⟨0, _⟩ =>
    show win0_12.index _ (0 : Fin 2) * 1024 ≤ (i 0).val ∧ (i 0).val < win0_12.index _ (0 : Fin 2) * 1024 + 1024
    rw [e0']; omega
  | ⟨1, _⟩ =>
    show win0_12.index _ (1 : Fin 2) * 256 ≤ (i 1).val ∧ (i 1).val < win0_12.index _ (1 : Fin 2) * 256 + 256
    rw [e1]; omega

/-- THE RESULT ARRAY after the run: if the block each storing point leaves is the matching block of rows of `G`, the
    array ends holding `G`. -/
theorem arr12_final (c : Dev nD) (G : Buf (Elt F) ((cfg0.win 12).arr.view.loc (c.tc : Thread nD τ)))
    (hG : ∀ (t : Fin cfg0.N), t.val % 8 = 7 → ∀ (p : Fin 1024) (d : Fin 256),
      ((dats m 0 c).after 12 t : Vec F S1024x256 .f32) (ix2 p d)
        = (G : S8192x256.Idx → Elt F .f32) (ix2 ⟨1024 * (t.val / 8) + p.val, row_lt t p⟩ d)) :
    (dats m 0 c).arrAt 12 cfg0.N = G :=
  (dats m 0 c).arrAt_eq_of_cover 12 G (fun t hf => stored_eq m c G hG t hf) covered

end Cert.KernelIdeal.Cover

end
-- ==== Proof.KValue.lean ====
/-
  The idealized kernel's result array, in closed form.

  The accumulators the frame tracks point by point are the body's own recursion over the column tiles; in closed form
  they are the row's sum of the masked logistic, and its product with the node features, over the tiles seen so far.
  At the last column tile of a row tile the stored block is the epilogue of the complete sums, which is the kernel's
  result at the block's global rows; the eight stored blocks are the eight row tiles of the result array.
-/
import proofs.«162713_j40484361732478_2_alg».proof.Proof.FrameValue
import proofs.«162713_j40484361732478_2_alg».proof.Proof.FrameLaunch
import proofs.«162713_j40484361732478_2_alg».proof.Proof.KAcc2
import proofs.«162713_j40484361732478_2_alg».proof.Proof.KEntry
import proofs.«162713_j40484361732478_2_alg».proof.Proof.KCover

set_option maxRecDepth 16384

noncomputable section

namespace Cert.KernelIdeal.Val

open Cert.KernelIdeal Cert.KernelIdeal.Gen Cert.KernelIdeal.Fr Cert.KernelIdeal.PayIdx Cert.KernelIdeal.Entry Cert.KernelIdeal.Cover
open Cert.Fusion Cert.ReferenceIdeal.RefValue
open Idealize.ShloMosaic Idealize.ShloMosaic.TcCoe Idealize.ShloMosaic.ValueIdx Idealize.SL.Sem

variable (m : (ℓ : Loc nD τ sig) → Buf (Elt Ideal) ℓ)

theorem pt_lt64 (t : Fin 64) : t.val < cfg0.N := by rw [show cfg0.N = 64 from N_0]; exact t.isLt
/-- A point numbered below 64 as a point of the grid. -/
abbrev pt (t : Fin 64) : Fin cfg0.N := ⟨t.val, pt_lt64 t⟩

/-- The input windows' blocks as functions of the point. -/
abbrev X0 (c : Dev nD) (t : Fin 64) : Vec Ideal S1024x256 .bf16 := iblk m c 0 (pt t)
abbrev X1 (c : Dev nD) (t : Fin 64) : Vec Ideal S1024x256 .bf16 := iblk m c 1 (pt t)
abbrev X2 (c : Dev nD) (t : Fin 64) : Vec Ideal S1024x256 .f32 := iblk m c 2 (pt t)
abbrev X3 (c : Dev nD) (t : Fin 64) : Vec Ideal S1024x256 .bf16 := iblk m c 3 (pt t)
abbrev X4 (c : Dev nD) (t : Fin 64) : Vec Ideal S1024x1 .i32 := iblk m c 4 (pt t)
abbrev X5 (c : Dev nD) (t : Fin 64) : Vec Ideal S1x1024 .i32 := iblk m c 5 (pt t)
abbrev X6 (c : Dev nD) (t : Fin 64) : Vec Ideal S1x1 .f32 := iblk m c 6 (pt t)
abbrev X7 (c : Dev nD) (t : Fin 64) : Vec Ideal S1x1 .f32 := iblk m c 7 (pt t)
abbrev X8 (c : Dev nD) (t : Fin 64) : Vec Ideal S256x256 .f32 := iblk m c 8 (pt t)
abbrev X9 (c : Dev nD) (t : Fin 64) : Vec Ideal S1x256 .f32 := iblk m c 9 (pt t)
abbrev X10 (c : Dev nD) (t : Fin 64) : Vec Ideal S256x512 .f32 := iblk m c 10 (pt t)
abbrev X11 (c : Dev nD) (t : Fin 64) : Vec Ideal S1x512 .f32 := iblk m c 11 (pt t)

/-- The program's arguments, curried over plain indices. -/
abbrev NN (c : Dev nD) : Fin 8192 → Fin 256 → EReal := fun a b => (m ((c : Thread nD τ).loc main_arg0) : S8192x256.Idx → EReal) (ix2 a b)
abbrev PP (c : Dev nD) : Fin 8192 → BitVec 32 := fun a => (m ((c : Thread nD τ).loc main_arg1) : S8192.Idx → BitVec 32) (ix1 a)
abbrev TH (c : Dev nD) : EReal := (m ((c : Thread nD τ).loc main_arg2) : S1.Idx → EReal) (ix1 (0 : Fin 1))
abbrev TE (c : Dev nD) : EReal := (m ((c : Thread nD τ).loc main_arg3) : S1.Idx → EReal) (ix1 (0 : Fin 1))
abbrev WW1 (c : Dev nD) : Fin 256 → Fin 256 → EReal := fun a b => (m ((c : Thread nD τ).loc main_arg4) : S256x256.Idx → EReal) (ix2 a b)
abbrev BB1 (c : Dev nD) : Fin 256 → EReal := fun j => (m ((c : Thread nD τ).loc main_arg5) : S256.Idx → EReal) (ix1 j)
abbrev WW2 (c : Dev nD) : Fin 256 → Fin 512 → EReal := fun a b => (m ((c : Thread nD τ).loc main_arg6) : S256x512.Idx → EReal) (ix2 a b)
abbrev BB2 (c : Dev nD) : Fin 512 → EReal := fun j => (m ((c : Thread nD τ).loc main_arg7) : S512.Idx → EReal) (ix1 j)

/-- The accumulators the frame tracks are the body's recursion over the points. -/
theorem outs_eq_accs (c : Dev nD) : ∀ (n : ℕ) (h : n < 64),
    (outsAt m c n (lt_of_lt_of_eq h N_0.symm)).2 = accs (X0 m c) (X1 m c) (X3 m c) (X4 m c) (X5 m c) (X6 m c) (X7 m c) n h
  | 0, h => by
    rw [accs_fresh _ _ _ _ _ _ _ 0 h rfl]
    exact outsAt_first m c ⟨0, lt_of_lt_of_eq h N_0.symm⟩ rfl
  | n + 1, h => by
    by_cases h0 : (n + 1) % 8 = 0
    · rw [accs_fresh _ _ _ _ _ _ _ (n + 1) h h0]
      exact outsAt_first m c ⟨n + 1, lt_of_lt_of_eq h N_0.symm⟩ h0
    · rw [accs_step _ _ _ _ _ _ _ n h h0, ← outs_eq_accs c n (Nat.lt_of_succ_lt h)]
      exact outsAt_next m c ⟨n + 1, lt_of_lt_of_eq h N_0.symm⟩ h0

theorem last_lt' (a : Fin 8) : 8 * a.val + 7 < cfg0.N := lt_of_lt_of_eq (last_lt a) N_0.symm

/-- The block stored at the last column tile of row tile `a` is the kernel's result at the tile's global rows. -/
theorem block_eq (c : Dev nD) (a : Fin 8) (p : Fin 1024) (d : Fin 256) :
    ((dats m 0 c).after 12 ⟨8 * a.val + 7, last_lt' a⟩ : Vec Ideal S1024x256 .f32) (ix2 p d)
      = kerOut (NN m c) (PP m c) (TH m c) (TE m c) (WW1 m c) (BB1 m c) (WW2 m c) (BB2 m c) (rowA a p) d := by
  rw [after_12, outsAt_out m c ⟨8 * a.val + 7, last_lt' a⟩ (by show (8 * a.val + 7) % 8 = 7; omega)]
  rw [show (outsAt m c (⟨8 * a.val + 7, last_lt' a⟩ : Fin cfg0.N).val (⟨8 * a.val + 7, last_lt' a⟩ : Fin cfg0.N).isLt).2
        = accs (X0 m c) (X1 m c) (X3 m c) (X4 m c) (X5 m c) (X6 m c) (X7 m c) (8 * a.val + 7) (last_lt a)
      from outs_eq_accs m c (8 * a.val + 7) (last_lt a)]
  exact out_last (X0 m c) (X1 m c) (X3 m c) (X2 m c) (X4 m c) (X5 m c) (X6 m c) (X7 m c) (X8 m c) (X9 m c) (X10 m c) (X11 m c)
    (NN m c) (PP m c) (TH m c) (TE m c) (WW1 m c) (BB1 m c) (WW2 m c) (BB2 m c)
    (fun t p k => blk0_eq m c (pt t) p k) (fun t q k => blk1_eq m c (pt t) q k)
    (fun t p => blk4_eq m c (pt t) p) (fun t q => blk5_eq m c (pt t) q)
    (fun t => blk6_eq m c (pt t)) (fun t => blk7_eq m c (pt t))
    (fun t q d => blk3_eq m c (pt t) q d) (fun t p d => blk2_eq m c (pt t) p d)
    (fun t k j => blk8_eq m c (pt t) k j) (fun t j => blk9_eq m c (pt t) j)
    (fun t k j => blk10_eq m c (pt t) k j) (fun t j => blk11_eq m c (pt t) j) a p d

/-- THE RESULT: after the run the result array holds the kernel's closed form at every index. -/
theorem result_eq (c : Dev nD) :
    (dats m 0 c).arrAt 12 cfg0.N
      = (fun i : S8192x256.Idx => kerOut (NN m c) (PP m c) (TH m c) (TE m c) (WW1 m c) (BB1 m c) (WW2 m c) (BB2 m c) (i 0) (i 1)) := by
  refine arr12_final m c _ (fun t ht p d => ?_)
  have hlt : t.val < 64 := lt_of_lt_of_eq t.isLt N_0
  obtain ⟨a, rfl⟩ : ∃ a : Fin 8, t = ⟨8 * a.val + 7, last_lt' a⟩ :=
    ⟨⟨t.val / 8, by omega⟩, Fin.ext (by show t.val = 8 * (t.val / 8) + 7; omega)⟩
  rw [block_eq m c a p d]
  show kerOut _ _ _ _ _ _ _ _ (rowA a p) d = kerOut _ _ _ _ _ _ _ _ (⟨1024 * ((8 * a.val + 7) / 8) + p.val, _⟩ : Fin 8192) d
  exact congrArg (fun r => kerOut (NN m c) (PP m c) (TH m c) (TE m c) (WW1 m c) (BB1 m c) (WW2 m c) (BB2 m c) r d)
    (Fin.ext (by show 1024 * a.val + p.val = 1024 * ((8 * a.val + 7) / 8) + p.val; omega))

end Cert.KernelIdeal.Val

end
-- ==== Proof.RefMask.lean ====
/-
  The mask bit of the specification as a proposition: an entry is masked exactly when its row and column carry the
  same identifier or lie on the diagonal, so the masked matrix is an `if` on that proposition.
-/
import proofs.«162713_j40484361732478_2_alg».proof.Proof.RefSpec

noncomputable section

open scoped BigOperators

namespace Cert.ReferenceIdeal.RefValue

open Idealize.ShloMosaic

/-- Two words built from naturals below `8192` are equal exactly when the naturals are. -/
theorem ofNat32_inj_of_lt {a b : Nat} (ha : a < 8192) (hb : b < 8192) :
    BitVec.ofNat 32 a = BitVec.ofNat 32 b ↔ a = b := by
  constructor
  · intro h
    have h' := congrArg BitVec.toNat h
    simp only [BitVec.toNat_ofNat] at h'
    rw [Nat.mod_eq_of_lt (by omega), Nat.mod_eq_of_lt (by omega)] at h'
    exact h'
  · rintro rfl; rfl

/-- The disjunction of two one-bit truth values is `1` exactly when one of them holds. -/
theorem ofBool_or_eq_one_iff (p q : Bool) : (BitVec.ofBool p ||| BitVec.ofBool q = 1) ↔ (p = true ∨ q = true) := by
  cases p <;> cases q <;> decide

/-- The mask bit is `1` exactly for equal identifiers or on the diagonal. -/
theorem refMask_eq_one_iff (pid : Fin 8192 → BitVec 32) (r c : Fin 8192) :
    refMask pid r c = 1 ↔ (pid r = pid c ∨ r = c) := by
  unfold refMask IntOp.ori IntOp.cmpi IntOp.addi
  rw [ofBool_or_eq_one_iff, BitVec.add_zero, beq_iff_eq, beq_iff_eq, ofNat32_inj_of_lt r.isLt c.isLt, Fin.val_inj]

/-- The masked matrix as an `if`: zero for equal identifiers or on the diagonal, else the logistic value. -/
theorem refAdj_eq_ite (N : Fin 8192 → Fin 256 → EReal) (pid : Fin 8192 → BitVec 32) (thr temp : EReal) (r c : Fin 8192) :
    refAdj N pid thr temp r c = if (pid r = pid c ∨ r = c) then 0 else refSig N thr temp r c := by
  unfold refAdj Scalar.select
  by_cases h : pid r = pid c ∨ r = c
  · rw [if_pos ((refMask_eq_one_iff pid r c).2 h), if_pos h]
  · rw [if_neg (fun hm => h ((refMask_eq_one_iff pid r c).1 hm)), if_neg h]

end Cert.ReferenceIdeal.RefValue

end
-- ==== Proof.AlgLogistic.lean ====
/-
  The logistic function written two ways, at the extended reals.
  For real s, th, t the quotient 1 / (1 + e^(-((s - th) * t))) and the product
  (1/2) * (1 + tanh (((1/2) * (s - th)) * t)) are the same real number, strictly between 0 and 1.
  Over the reals this is the identity 1/(1+e^(-x)) = (1/2)(1 + tanh (x/2)).
-/
import Idealize.ShloMosaic.PureOps.Ideal
import Idealize.ShloMosaic.PureOps.Ideal.Laws

namespace Cert.Fusion

open Idealize.ShloMosaic

/-- The f32 pattern of 1.0 denotes the real 1. -/
theorem ofBits_one_f32 : Ideal.ofBits .f32 0x3F800000#32 = ((1 : ℝ) : EReal) := by
  simp [Ideal.ofBits, Ideal.ieee, -EReal.coe_mul] <;> norm_num

/-- The f32 pattern of 0.5 denotes the real 1/2. -/
theorem ofBits_half_f32 : Ideal.ofBits .f32 0x3F000000#32 = ((1 / 2 : ℝ) : EReal) := by
  simp [Ideal.ofBits, Ideal.ieee, -EReal.coe_mul] <;> norm_num

/-- The logistic function on the reals. -/
noncomputable def sigm (x : ℝ) : ℝ := (1 + Real.exp (-x))⁻¹

theorem sigm_pos (x : ℝ) : 0 < sigm x := by
  unfold sigm; positivity

theorem sigm_lt_one (x : ℝ) : sigm x < 1 := by
  unfold sigm
  have h : (1 : ℝ) < 1 + Real.exp (-x) := by have := Real.exp_pos (-x); linarith
  exact inv_lt_one_of_one_lt₀ h

/-- 1/(1+e^(-x)) = (1/2)(1 + tanh (x/2)). -/
theorem sigm_eq_tanh (x : ℝ) : sigm x = 1 / 2 * (1 + Real.tanh (x / 2)) := by
  unfold sigm
  rw [Real.tanh_eq_sinh_div_cosh, Real.sinh_eq, Real.cosh_eq]
  have h1 : Real.exp (-x) = Real.exp (-(x / 2)) * Real.exp (-(x / 2)) := by
    rw [← Real.exp_add]; congr 1; ring
  have h2 : Real.exp (x / 2) * Real.exp (-(x / 2)) = 1 := by
    rw [← Real.exp_add]; simp
  have hp : 0 < Real.exp (x / 2) := Real.exp_pos _
  have hn : 0 < Real.exp (-(x / 2)) := Real.exp_pos _
  rw [h1]
  generalize Real.exp (x / 2) = a at *
  generalize Real.exp (-(x / 2)) = b at *
  have hab : a + b ≠ 0 := by positivity
  have hb : 1 + b * b ≠ 0 := by positivity
  field_simp
  linear_combination (-(2 : ℝ) * b) * h2

/-! ### The two written forms, at the extended reals -/

/-- The quotient form: `1 / (1 + e^(-((s - th) * t)))`, with the division, exponential and negation of the extended
    reals and the literal 1.0 as its f32 pattern, is the real `sigm ((s - th) * t)`. -/
theorem quotient_form_eq (s th t : ℝ) :
    Ideal.div (Ideal.ofBits .f32 0x3F800000#32)
        (Ideal.ofBits .f32 0x3F800000#32 + Ideal.exp (-(((s : EReal) - (th : EReal)) * (t : EReal))))
      = ((sigm ((s - th) * t) : ℝ) : EReal) := by
  have hne : (1 + Real.exp (-((s - th) * t))) ≠ 0 := by positivity
  rw [ofBits_one_f32, ← EReal.coe_sub, ← EReal.coe_mul, ← EReal.coe_neg, Ideal.exp_coe, ← EReal.coe_add,
    Ideal.div_coe hne, ← EReal.coe_mul]
  congr 1
  unfold sigm
  rw [one_mul, one_div]

/-- The product form: `(1/2) * (1 + tanh (((1/2) * (s - th)) * t))`, the literals 0.5 and 1.0 as their f32 patterns,
    is the same real. -/
theorem tanh_form_eq (s th t : ℝ) :
    Ideal.ofBits .f32 0x3F000000#32 *
        (Ideal.ofBits .f32 0x3F800000#32
          + Ideal.tanh ((Ideal.ofBits .f32 0x3F000000#32 * ((s : EReal) - (th : EReal))) * (t : EReal)))
      = ((sigm ((s - th) * t) : ℝ) : EReal) := by
  rw [ofBits_one_f32, ofBits_half_f32, ← EReal.coe_sub, ← EReal.coe_mul, ← EReal.coe_mul, Ideal.tanh_coe,
    ← EReal.coe_add, ← EReal.coe_mul]
  congr 1
  rw [sigm_eq_tanh]
  have h : 1 / 2 * (s - th) * t = (s - th) * t / 2 := by ring
  rw [h]

/-- The two forms agree. -/
theorem logistic_forms (s th t : ℝ) :
    Ideal.div (Ideal.ofBits .f32 0x3F800000#32)
        (Ideal.ofBits .f32 0x3F800000#32 + Ideal.exp (-(((s : EReal) - (th : EReal)) * (t : EReal))))
      = Ideal.ofBits .f32 0x3F000000#32 *
          (Ideal.ofBits .f32 0x3F800000#32
            + Ideal.tanh ((Ideal.ofBits .f32 0x3F000000#32 * ((s : EReal) - (th : EReal))) * (t : EReal))) := by
  rw [quotient_form_eq, tanh_form_eq]

/-- The same for extended reals known to be reals. -/
theorem logistic_forms_of_real (S T U : EReal) (hS : ∃ x : ℝ, S = (x : EReal)) (hT : ∃ x : ℝ, T = (x : EReal))
    (hU : ∃ x : ℝ, U = (x : EReal)) :
    Ideal.div (Ideal.ofBits .f32 0x3F800000#32)
        (Ideal.ofBits .f32 0x3F800000#32 + Ideal.exp (-((S - T) * U)))
      = Ideal.ofBits .f32 0x3F000000#32 *
          (Ideal.ofBits .f32 0x3F800000#32 + Ideal.tanh ((Ideal.ofBits .f32 0x3F000000#32 * (S - T)) * U)) := by
  obtain ⟨s, rfl⟩ := hS
  obtain ⟨th, rfl⟩ := hT
  obtain ⟨t, rfl⟩ := hU
  exact logistic_forms s th t

/-- The common value is a real in [0, 1] (strictly inside, in fact). -/
theorem quotient_form_mem (s th t : ℝ) :
    ∃ a : ℝ, 0 ≤ a ∧ a ≤ 1 ∧
      Ideal.div (Ideal.ofBits .f32 0x3F800000#32)
          (Ideal.ofBits .f32 0x3F800000#32 + Ideal.exp (-(((s : EReal) - (th : EReal)) * (t : EReal))))
        = (a : EReal) :=
  ⟨sigm ((s - th) * t), (sigm_pos _).le, (sigm_lt_one _).le, quotient_form_eq s th t⟩

theorem tanh_form_mem (s th t : ℝ) :
    ∃ a : ℝ, 0 ≤ a ∧ a ≤ 1 ∧
      Ideal.ofBits .f32 0x3F000000#32 *
          (Ideal.ofBits .f32 0x3F800000#32
            + Ideal.tanh ((Ideal.ofBits .f32 0x3F000000#32 * ((s : EReal) - (th : EReal))) * (t : EReal)))
        = (a : EReal) :=
  ⟨sigm ((s - th) * t), (sigm_pos _).le, (sigm_lt_one _).le, tanh_form_eq s th t⟩

/-- The same identity spelled with the operations of the float interface at the extended reals: the host's
    `divide`, `exponential` and `negate` on one side, the vector unit's `mulf`, `addf`, `tanh` on the other. -/
theorem logistic_forms_ops (s th t : ℝ) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp
            (FloatOps.hostNegf (F := Ideal) (φ := .f32)
              (FloatOps.mulf (F := Ideal) (φ := .f32)
                (FloatOps.subf (F := Ideal) (φ := .f32) (s : EReal) (th : EReal)) (t : EReal)))))
      = FloatOps.mulf (F := Ideal) (φ := .f32) (FloatOps.ofBits (F := Ideal) .f32 0x3F000000#32)
          (FloatOps.addf (F := Ideal) (φ := .f32) (FloatOps.ofBits (F := Ideal) .f32 0x3F800000#32)
            (FloatOps.tanh (F := Ideal) (φ := .f32)
              (FloatOps.mulf (F := Ideal) (φ := .f32)
                (FloatOps.mulf (F := Ideal) (φ := .f32) (FloatOps.ofBits (F := Ideal) .f32 0x3F000000#32)
                  (FloatOps.subf (F := Ideal) (φ := .f32) (s : EReal) (th : EReal)))
                (t : EReal)))) :=
  logistic_forms s th t

end Cert.Fusion
-- ==== Proof.LibBlockSum.lean ====
/-
  A finite sum read block by block.

  The indices below `a * b` are the pairs (block `p` below `a`, position `q` below `b`) through `j = p * b + q`; in a
  commutative monoid the order of summation does not matter, so the sum over all `j` is the sum over the blocks of the
  sum inside each block.
-/
import Mathlib.Algebra.BigOperators.Fin
import Mathlib.Logic.Equiv.Fin.Basic

open scoped BigOperators

namespace Cert.LibBlockSum

/-- Position `q` of block `p`, among `a` blocks of length `b`, is an index below `a * b`. -/
theorem block_lt {a b : ℕ} (p : Fin a) (q : Fin b) : p.val * b + q.val < a * b := by
  have hp : p.val + 1 ≤ a := p.isLt
  have hq : q.val < b := q.isLt
  calc p.val * b + q.val < p.val * b + b := Nat.add_lt_add_left hq _
    _ = (p.val + 1) * b := (Nat.succ_mul _ _).symm
    _ ≤ a * b := Nat.mul_le_mul_right b hp

/-- In a commutative additive monoid, the sum of `f` over the indices below `a * b` is the sum over the `a` consecutive
    blocks of length `b` of the sums of `f` inside each block: `∑ j, f j = ∑ p, ∑ q, f (p * b + q)`. -/
theorem sum_blocks {M : Type*} [AddCommMonoid M] (a b : ℕ) (f : Fin (a * b) → M) :
    ∑ j : Fin (a * b), f j = ∑ p : Fin a, ∑ q : Fin b, f ⟨p.val * b + q.val, block_lt p q⟩ := by
  rw [← Equiv.sum_comp (finProdFinEquiv (m := a) (n := b)) f, Fintype.sum_prod_type]
  refine Finset.sum_congr rfl fun p _ => Finset.sum_congr rfl fun q _ => congrArg f (Fin.ext ?_)
  show q.val + b * p.val = p.val * b + q.val
  rw [Nat.mul_comm, Nat.add_comm]

/-- The instance for 1024 = 8 · 128: a sum over 1024 indices is the sum over 8 blocks of 128 consecutive indices. -/
theorem sum_8x128 {M : Type*} [AddCommMonoid M] (f : Fin 1024 → M) :
    ∑ j : Fin 1024, f j = ∑ p : Fin 8, ∑ q : Fin 128, f ⟨p.val * 128 + q.val, by omega⟩ :=
  sum_blocks 8 128 f

end Cert.LibBlockSum
-- ==== Proof.AlgSums.lean ====
/-
  Sums of extended reals that are in fact reals.
  (a) The coercion from the reals commutes with finite sums.
  (b) Dividing a sum of products by a nonzero real is the sum of the products with each first factor divided:
      (∑ a_j n_j) / ρ = ∑ (a_j / ρ) n_j.
  (c) A sum over 8192 indices is the sum over 8 consecutive blocks of 1024 indices of the sums inside each block,
      and a left fold that adds the block sums one after another from zero gives the same value.
-/
import Idealize.ShloMosaic.PureOps.Ideal
import Idealize.ShloMosaic.PureOps.Ideal.Laws
import proofs.«162713_j40484361732478_2_alg».proof.Proof.LibBlockSum

open scoped BigOperators

namespace Cert.Fusion

open Idealize.ShloMosaic

/-! ### Coercion and finite sums -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of extended reals each of which is a real is a real. -/
theorem sum_is_real {ι : Type*} (s : Finset ι) (A : ι → EReal) (hA : ∀ j, ∃ x : ℝ, A j = (x : EReal)) :
    ∃ x : ℝ, ∑ j ∈ s, A j = (x : EReal) := by
  choose a ha using hA
  exact ⟨∑ j ∈ s, a j, by rw [coe_finset_sum]; exact Finset.sum_congr rfl fun j _ => ha j⟩

/-- A finite sum of products of reals is a real. -/
theorem sum_mul_is_real {ι : Type*} (s : Finset ι) (A N : ι → EReal) (hA : ∀ j, ∃ x : ℝ, A j = (x : EReal))
    (hN : ∀ j, ∃ x : ℝ, N j = (x : EReal)) : ∃ x : ℝ, ∑ j ∈ s, A j * N j = (x : EReal) := by
  refine sum_is_real s _ fun j => ?_
  obtain ⟨a, ha⟩ := hA j
  obtain ⟨n, hn⟩ := hN j
  exact ⟨a * n, by rw [ha, hn, EReal.coe_mul]⟩

/-! ### Division through a sum of products -/

/-- For reals `a j`, `n j` and a nonzero real `ρ`: `(∑ j, a j * n j) / ρ = ∑ j, (a j / ρ) * n j`, with the
    division of the extended reals. -/
theorem div_sum_mul {ι : Type*} (s : Finset ι) (a n : ι → ℝ) {ρ : ℝ} (hρ : ρ ≠ 0) :
    Ideal.div (∑ j ∈ s, (a j : EReal) * (n j : EReal)) (ρ : EReal)
      = ∑ j ∈ s, Ideal.div (a j : EReal) (ρ : EReal) * (n j : EReal) := by
  simp only [Ideal.div_coe hρ, ← EReal.coe_mul, ← coe_finset_sum]
  congr 1
  rw [Finset.sum_mul]
  exact Finset.sum_congr rfl fun j _ => by ring

/-- The same for families of extended reals known to be reals, and a divisor known to be a nonzero real. -/
theorem div_sum_mul_of_real {ι : Type*} (s : Finset ι) (A N : ι → EReal) (R : EReal)
    (hA : ∀ j, ∃ x : ℝ, A j = (x : EReal)) (hN : ∀ j, ∃ x : ℝ, N j = (x : EReal))
    (hR : ∃ ρ : ℝ, ρ ≠ 0 ∧ R = (ρ : EReal)) :
    Ideal.div (∑ j ∈ s, A j * N j) R = ∑ j ∈ s, Ideal.div (A j) R * N j := by
  choose a ha using hA
  choose n hn using hN
  obtain ⟨ρ, hρ, rfl⟩ := hR
  have h1 : ∀ j, A j = (a j : EReal) := ha
  have h2 : ∀ j, N j = (n j : EReal) := hn
  simp only [h1, h2]
  exact div_sum_mul s a n hρ

/-- The quotient of two reals by the division of the extended reals, the divisor nonzero, is the real quotient. -/
theorem div_coe_coe (x : ℝ) {ρ : ℝ} (hρ : ρ ≠ 0) : Ideal.div (x : EReal) (ρ : EReal) = ((x / ρ : ℝ) : EReal) := by
  rw [Ideal.div_coe hρ, ← EReal.coe_mul]
  congr 1
  rw [mul_one_div]

/-! ### Sums over 8192 indices, block by block -/

/-- The sum over 8192 indices is the sum over the 8 blocks of 1024 of the sums inside each block; the index of
    position `q` of block `b` written `b * 1024 + q`. -/
theorem sum_8192_blocks_right {M : Type*} [AddCommMonoid M] (f : Fin 8192 → M) :
    ∑ c : Fin 8192, f c = ∑ b : Fin 8, ∑ q : Fin 1024, f ⟨b.val * 1024 + q.val, by omega⟩ :=
  Cert.LibBlockSum.sum_blocks 8 1024 f

/-- The same with the index written `1024 * b + q`. -/
theorem sum_8192_blocks {M : Type*} [AddCommMonoid M] (f : Fin 8192 → M) :
    ∑ c : Fin 8192, f c = ∑ b : Fin 8, ∑ q : Fin 1024, f ⟨1024 * b.val + q.val, by omega⟩ := by
  rw [sum_8192_blocks_right]
  refine Finset.sum_congr rfl fun b _ => Finset.sum_congr rfl fun q _ => congrArg f (Fin.ext ?_)
  show b.val * 1024 + q.val = 1024 * b.val + q.val
  omega

/-! ### A left fold of additions is the sum -/

/-- Adding `g 0`, …, `g 7` one after another, starting from zero, gives the sum of `g`. -/
theorem fold8_explicit {M : Type*} [AddCommMonoid M] (g : Fin 8 → M) :
    0 + g 0 + g 1 + g 2 + g 3 + g 4 + g 5 + g 6 + g 7 = ∑ b : Fin 8, g b := by
  rw [Fin.sum_univ_eight, zero_add]

/-- The left fold over the list of all indices below `n`, adding `g b` at index `b`, from zero, is the sum of `g`. -/
theorem foldl_finRange_add {M : Type*} [AddCommMonoid M] (n : ℕ) (g : Fin n → M) :
    (List.finRange n).foldl (fun acc b => acc + g b) 0 = ∑ b : Fin n, g b := by
  rw [Fin.sum_univ_def, List.sum_eq_foldl, List.foldl_map]

/-- The left fold over `0, 1, …, n - 1`, adding `g b` at `b`, from zero, is the sum of `g` over those numbers. -/
theorem foldl_range_add {M : Type*} [AddCommMonoid M] (n : ℕ) (g : ℕ → M) :
    (List.range n).foldl (fun acc b => acc + g b) 0 = ∑ b ∈ Finset.range n, g b := by
  induction n with
  | zero => simp
  | succ k ih => rw [List.range_succ, List.foldl_append, ih, Finset.sum_range_succ]; rfl

/-- `Fin.foldl` adding `g b` at `b`, from zero, is the sum of `g`. -/
theorem fin_foldl_add {M : Type*} [AddCommMonoid M] (n : ℕ) (g : Fin n → M) :
    Fin.foldl n (fun acc b => acc + g b) 0 = ∑ b : Fin n, g b := by
  rw [Fin.foldl_eq_finRange_foldl, foldl_finRange_add]

/-- The fold form of the blocked sum: adding the 8 block sums one after another from zero gives the sum over all
    8192 indices. -/
theorem fold_blocks_8192 {M : Type*} [AddCommMonoid M] (f : Fin 8192 → M) :
    (List.finRange 8).foldl (fun acc b => acc + ∑ q : Fin 1024, f ⟨1024 * b.val + q.val, by omega⟩) 0
      = ∑ c : Fin 8192, f c := by
  rw [sum_8192_blocks]
  exact foldl_finRange_add 8 fun b => ∑ q : Fin 1024, f ⟨1024 * b.val + q.val, by omega⟩

end Cert.Fusion
-- ==== Proof.AlgRowSum.lean ====
/-
  Row sums of a matrix of reals in [0, 1], and sums over 8192 indices met as sums over ranges of natural numbers.
  (a) A finite sum of nonnegative reals is a nonnegative real; adding the positive literal 1e-6 (as its f32 pattern)
      gives a positive real, so a nonzero divisor.
  (b) The blocked sum with the blocks and the positions counted by natural numbers.
-/
import Idealize.ShloMosaic.PureOps.Ideal
import Idealize.ShloMosaic.PureOps.Ideal.Laws
import proofs.«162713_j40484361732478_2_alg».proof.Proof.AlgSums

open scoped BigOperators

namespace Cert.Fusion

open Idealize.ShloMosaic

/-- The f32 pattern 0x358637BD (the float nearest 1e-6) denotes the real 8796093 / 2^43. -/
theorem ofBits_eps_f32 : Ideal.ofBits .f32 0x358637BD#32 = ((8796093 / 2 ^ 43 : ℝ) : EReal) := by
  simp [Ideal.ofBits, Ideal.ieee, -EReal.coe_mul] <;> norm_num

/-- … a positive real. -/
theorem ofBits_eps_f32_pos : ∃ e : ℝ, 0 < e ∧ Ideal.ofBits .f32 0x358637BD#32 = (e : EReal) :=
  ⟨8796093 / 2 ^ 43, by positivity, ofBits_eps_f32⟩

/-- A finite sum of extended reals each of which is a nonnegative real is a nonnegative real. -/
theorem sum_nonneg_is_real {ι : Type*} (s : Finset ι) (A : ι → EReal)
    (hA : ∀ j, ∃ x : ℝ, 0 ≤ x ∧ A j = (x : EReal)) : ∃ σ : ℝ, 0 ≤ σ ∧ ∑ j ∈ s, A j = (σ : EReal) := by
  choose a ha0 ha using hA
  refine ⟨∑ j ∈ s, a j, Finset.sum_nonneg fun j _ => ha0 j, ?_⟩
  rw [coe_finset_sum]
  exact Finset.sum_congr rfl fun j _ => ha j

/-- The row sum plus 1e-6 is a positive real. -/
theorem rowsum_add_eps_pos {ι : Type*} (s : Finset ι) (A : ι → EReal)
    (hA : ∀ j, ∃ x : ℝ, 0 ≤ x ∧ A j = (x : EReal)) :
    ∃ ρ : ℝ, 0 < ρ ∧ (∑ j ∈ s, A j) + Ideal.ofBits .f32 0x358637BD#32 = (ρ : EReal) := by
  obtain ⟨σ, hσ0, hσ⟩ := sum_nonneg_is_real s A hA
  obtain ⟨e, he0, he⟩ := ofBits_eps_f32_pos
  exact ⟨σ + e, by linarith, by rw [hσ, he, EReal.coe_add]⟩

/-- The blocked sum with the 8 blocks counted by the natural numbers below 8: if `g b` is the sum inside block `b`
    for each `b < 8`, the sum of `g` over `0, …, 7` is the sum over all 8192 indices. -/
theorem sum_range8_blocks {M : Type*} [AddCommMonoid M] (f : Fin 8192 → M) (g : ℕ → M)
    (hg : ∀ b : Fin 8, g b.val = ∑ q : Fin 1024, f ⟨1024 * b.val + q.val, by omega⟩) :
    ∑ b ∈ Finset.range 8, g b = ∑ c : Fin 8192, f c := by
  rw [sum_8192_blocks, ← Fin.sum_univ_eq_sum_range]
  exact Finset.sum_congr rfl fun b _ => hg b

/-- All indices natural numbers: for `f : ℕ → M`, the sum of `f c` over the indices `c` below 8192 is the sum over
    `b < 8` and `q < 1024` of `f (1024 * b + q)`. -/
theorem sum_nat_blocks {M : Type*} [AddCommMonoid M] (f : ℕ → M) :
    ∑ c : Fin 8192, f c.val = ∑ b ∈ Finset.range 8, ∑ q ∈ Finset.range 1024, f (1024 * b + q) := by
  rw [sum_8192_blocks (fun c : Fin 8192 => f c.val), ← Fin.sum_univ_eq_sum_range]
  refine Finset.sum_congr rfl fun b _ => ?_
  rw [← Fin.sum_univ_eq_sum_range]

end Cert.Fusion
-- ==== Proof.AlgReal.lean ====
/-
  Extended reals that are reals: the operations of the two programs keep real operands real, away from a zero
  divisor and the square root of a negative number. Stated for `∃ x : ℝ, v = (x : EReal)`.
-/
import Idealize.ShloMosaic.PureOps.Ideal
import Idealize.ShloMosaic.PureOps.Ideal.Laws

namespace Cert.Fusion

open Idealize.ShloMosaic

/-- The f32 pattern 0x2B8CBCCC (the float nearest 1e-12) denotes the real 9223372 / 2^63. -/
theorem ofBits_tiny_f32 : Ideal.ofBits .f32 0x2B8CBCCC#32 = ((9223372 / 2 ^ 63 : ℝ) : EReal) := by
  simp [Ideal.ofBits, Ideal.ieee, -EReal.coe_mul] <;> norm_num

/-- The f32 pattern 0x3F7D70A4 (the float nearest 0.99) denotes the real 16609444 / 2^24. -/
theorem ofBits_p99_f32 : Ideal.ofBits .f32 0x3F7D70A4#32 = ((16609444 / 2 ^ 24 : ℝ) : EReal) := by
  simp [Ideal.ofBits, Ideal.ieee, -EReal.coe_mul] <;> norm_num

theorem real_add {u v : EReal} (hu : ∃ x : ℝ, u = (x : EReal)) (hv : ∃ x : ℝ, v = (x : EReal)) :
    ∃ x : ℝ, u + v = (x : EReal) := by
  obtain ⟨a, rfl⟩ := hu; obtain ⟨b, rfl⟩ := hv; exact ⟨a + b, (EReal.coe_add a b).symm⟩

theorem real_sub {u v : EReal} (hu : ∃ x : ℝ, u = (x : EReal)) (hv : ∃ x : ℝ, v = (x : EReal)) :
    ∃ x : ℝ, u - v = (x : EReal) := by
  obtain ⟨a, rfl⟩ := hu; obtain ⟨b, rfl⟩ := hv; exact ⟨a - b, (EReal.coe_sub a b).symm⟩

theorem real_mul {u v : EReal} (hu : ∃ x : ℝ, u = (x : EReal)) (hv : ∃ x : ℝ, v = (x : EReal)) :
    ∃ x : ℝ, u * v = (x : EReal) := by
  obtain ⟨a, rfl⟩ := hu; obtain ⟨b, rfl⟩ := hv; exact ⟨a * b, (EReal.coe_mul a b).symm⟩

theorem real_neg {u : EReal} (hu : ∃ x : ℝ, u = (x : EReal)) : ∃ x : ℝ, -u = (x : EReal) := by
  obtain ⟨a, rfl⟩ := hu; exact ⟨-a, (EReal.coe_neg a).symm⟩

theorem real_max {u v : EReal} (hu : ∃ x : ℝ, u = (x : EReal)) (hv : ∃ x : ℝ, v = (x : EReal)) :
    ∃ x : ℝ, max u v = (x : EReal) := by
  obtain ⟨a, rfl⟩ := hu; obtain ⟨b, rfl⟩ := hv
  exact ⟨max a b, (EReal.coe_strictMono.monotone.map_max).symm⟩

theorem real_min {u v : EReal} (hu : ∃ x : ℝ, u = (x : EReal)) (hv : ∃ x : ℝ, v = (x : EReal)) :
    ∃ x : ℝ, min u v = (x : EReal) := by
  obtain ⟨a, rfl⟩ := hu; obtain ⟨b, rfl⟩ := hv
  exact ⟨min a b, (EReal.coe_strictMono.monotone.map_min).symm⟩

/-- A real divided by a nonzero real, with the division of the extended reals, is a real. -/
theorem real_div {u v : EReal} (hu : ∃ x : ℝ, u = (x : EReal)) (hv : ∃ x : ℝ, x ≠ 0 ∧ v = (x : EReal)) :
    ∃ x : ℝ, Ideal.div u v = (x : EReal) := by
  obtain ⟨a, rfl⟩ := hu; obtain ⟨b, hb, rfl⟩ := hv
  exact ⟨a * (1 / b), by rw [Ideal.div_coe hb, ← EReal.coe_mul]⟩

theorem real_tanh {u : EReal} (hu : ∃ x : ℝ, u = (x : EReal)) : ∃ x : ℝ, Ideal.tanh u = (x : EReal) := by
  obtain ⟨a, rfl⟩ := hu; exact ⟨Real.tanh a, Ideal.tanh_coe a⟩

theorem real_exp {u : EReal} (hu : ∃ x : ℝ, u = (x : EReal)) : ∃ x : ℝ, Ideal.exp u = (x : EReal) := by
  obtain ⟨a, rfl⟩ := hu; exact ⟨Real.exp a, Ideal.exp_coe a⟩

/-- The square root of a real, clamped below by the positive literal 1e-12, is a positive real (whatever the sign of
    the argument: below zero the square root is the bottom element and the maximum is the literal). -/
theorem max_sqrt_tiny_pos (ν : ℝ) :
    ∃ ρ : ℝ, 0 < ρ ∧ max (Ideal.sqrt (ν : EReal)) (Ideal.ofBits .f32 0x2B8CBCCC#32) = (ρ : EReal) := by
  have ht : (0 : ℝ) < 9223372 / 2 ^ 63 := by positivity
  rw [ofBits_tiny_f32, Ideal.sqrt_coe]
  by_cases h : ν < 0
  · rw [if_pos h, max_eq_right bot_le]; exact ⟨_, ht, rfl⟩
  · rw [if_neg h]
    exact ⟨max (Real.sqrt ν) (9223372 / 2 ^ 63), lt_max_of_lt_right ht, (EReal.coe_strictMono.monotone.map_max).symm⟩

/-- The same with the literal first. -/
theorem max_tiny_sqrt_pos (ν : ℝ) :
    ∃ ρ : ℝ, 0 < ρ ∧ max (Ideal.ofBits .f32 0x2B8CBCCC#32) (Ideal.sqrt (ν : EReal)) = (ρ : EReal) := by
  rw [max_comm]; exact max_sqrt_tiny_pos ν

end Cert.Fusion
-- ==== Proof.AlgFinal.lean ====
/-
  The two arrangements of the computation give the same result at every index, for real inputs.

  The normalised rows, their inner products and the clipped threshold are reals; so the logistic value is the same
  real in [0, 1] whether written as a quotient or with the hyperbolic tangent, and so is the masked entry. A row sum
  taken over 8 blocks of 1024 columns is the row sum; with the small positive constant added it is a positive real,
  and division by it passes through the finite sum of products with a column of the node matrix. The dense layers
  and the damped update are the same functions of these values.
-/
import proofs.«162713_j40484361732478_2_alg».proof.Proof.KSpec
import proofs.«162713_j40484361732478_2_alg».proof.Proof.RefMask
import proofs.«162713_j40484361732478_2_alg».proof.Proof.AlgLogistic
import proofs.«162713_j40484361732478_2_alg».proof.Proof.AlgSums
import proofs.«162713_j40484361732478_2_alg».proof.Proof.AlgRowSum
import proofs.«162713_j40484361732478_2_alg».proof.Proof.AlgReal

open scoped BigOperators

namespace Cert.Fusion

open Idealize.ShloMosaic Cert.ReferenceIdeal.RefValue

section

variable {N : Fin 8192 → Fin 256 → EReal} {thr temp : EReal}

/-! ### Reals up to the logistic value -/

/-- The divisor of a row of reals is a positive real. -/
theorem refNorm_pos (hN : ∀ r k, ∃ x : ℝ, N r k = (x : EReal)) (r : Fin 8192) :
    ∃ ρ : ℝ, 0 < ρ ∧ refNorm N r = (ρ : EReal) := by
  unfold refNorm refSq
  obtain ⟨ν, hν⟩ := sum_mul_is_real Finset.univ (fun k => N r k) (fun k => N r k) (hN r) (hN r)
  rw [hν]
  exact max_sqrt_tiny_pos ν

/-- A normalised entry is a real. -/
theorem refFeat_real (hN : ∀ r k, ∃ x : ℝ, N r k = (x : EReal)) (r : Fin 8192) (k : Fin 256) :
    ∃ x : ℝ, refFeat N r k = (x : EReal) := by
  unfold refFeat
  obtain ⟨ρ, hρ, h⟩ := refNorm_pos hN r
  exact real_div (hN r k) ⟨ρ, hρ.ne', h⟩

/-- An inner product of normalised rows is a real. -/
theorem refSim_real (hN : ∀ r k, ∃ x : ℝ, N r k = (x : EReal)) (r c : Fin 8192) :
    ∃ x : ℝ, refSim N r c = (x : EReal) := by
  unfold refSim
  exact sum_mul_is_real Finset.univ (fun k => refFeat N r k) (fun k => refFeat N c k)
    (fun k => refFeat_real hN r k) (fun k => refFeat_real hN c k)

/-- The clipped threshold is a real. -/
theorem refTh_real (hthr : ∃ x : ℝ, thr = (x : EReal)) : ∃ x : ℝ, refTh thr = (x : EReal) := by
  unfold refTh
  exact real_min ⟨_, ofBits_p99_f32⟩ (real_max ⟨0, EReal.coe_zero.symm⟩ hthr)

/-! ### The logistic value and the masked entry -/

/-- The logistic value written with the hyperbolic tangent is the one written as a quotient. -/
theorem kerSig_eq_refSig (hN : ∀ r k, ∃ x : ℝ, N r k = (x : EReal)) (hthr : ∃ x : ℝ, thr = (x : EReal))
    (htemp : ∃ x : ℝ, temp = (x : EReal)) (r c : Fin 8192) :
    kerSig N thr temp r c = refSig N thr temp r c := by
  unfold kerSig refSig refLogit
  exact (logistic_forms_of_real _ _ _ (refSim_real hN r c) (refTh_real hthr) htemp).symm

/-- The logistic value is a real in [0, 1]. -/
theorem refSig_mem (hN : ∀ r k, ∃ x : ℝ, N r k = (x : EReal)) (hthr : ∃ x : ℝ, thr = (x : EReal))
    (htemp : ∃ x : ℝ, temp = (x : EReal)) (r c : Fin 8192) :
    ∃ a : ℝ, 0 ≤ a ∧ a ≤ 1 ∧ refSig N thr temp r c = (a : EReal) := by
  unfold refSig refLogit
  obtain ⟨s, hs⟩ := refSim_real hN r c
  obtain ⟨t, ht⟩ := refTh_real (thr := thr) hthr
  obtain ⟨u, hu⟩ := htemp
  rw [hs, ht, hu]
  exact quotient_form_mem s t u

variable {pid : Fin 8192 → BitVec 32}

/-- The masked entries agree. -/
theorem kerAdj_eq_refAdj (hN : ∀ r k, ∃ x : ℝ, N r k = (x : EReal)) (hthr : ∃ x : ℝ, thr = (x : EReal))
    (htemp : ∃ x : ℝ, temp = (x : EReal)) (r c : Fin 8192) :
    kerAdj N pid thr temp r c = refAdj N pid thr temp r c := by
  rw [refAdj_eq_ite]
  unfold kerAdj
  rw [kerSig_eq_refSig hN hthr htemp]

/-- A masked entry is a real in [0, 1]. -/
theorem refAdj_mem (hN : ∀ r k, ∃ x : ℝ, N r k = (x : EReal)) (hthr : ∃ x : ℝ, thr = (x : EReal))
    (htemp : ∃ x : ℝ, temp = (x : EReal)) (r c : Fin 8192) :
    ∃ a : ℝ, 0 ≤ a ∧ a ≤ 1 ∧ refAdj N pid thr temp r c = (a : EReal) := by
  rw [refAdj_eq_ite]
  by_cases h : pid r = pid c ∨ r = c
  · rw [if_pos h]; exact ⟨0, le_refl _, zero_le_one, EReal.coe_zero.symm⟩
  · rw [if_neg h]; exact refSig_mem hN hthr htemp r c

/-! ### The row sum -/

/-- The row sum taken block by block is the row sum. -/
theorem kerRowSum_eq_refRowSum (hN : ∀ r k, ∃ x : ℝ, N r k = (x : EReal)) (hthr : ∃ x : ℝ, thr = (x : EReal))
    (htemp : ∃ x : ℝ, temp = (x : EReal)) (r : Fin 8192) :
    kerRowSum N pid thr temp r = refRowSum N pid thr temp r := by
  unfold kerRowSum refRowSum
  rw [sum_8192_blocks (fun c => refAdj N pid thr temp r c)]
  refine congrArg (· + eps6) ?_
  exact Finset.sum_congr rfl fun b _ => Finset.sum_congr rfl fun q _ => kerAdj_eq_refAdj hN hthr htemp r (col b q)

/-- The row sum plus the small constant is a positive real. -/
theorem refRowSum_pos (hN : ∀ r k, ∃ x : ℝ, N r k = (x : EReal)) (hthr : ∃ x : ℝ, thr = (x : EReal))
    (htemp : ∃ x : ℝ, temp = (x : EReal)) (r : Fin 8192) :
    ∃ ρ : ℝ, 0 < ρ ∧ refRowSum N pid thr temp r = (ρ : EReal) := by
  unfold refRowSum
  refine rowsum_add_eps_pos Finset.univ (fun c => refAdj N pid thr temp r c) fun c => ?_
  obtain ⟨a, h0, _, ha⟩ := refAdj_mem (pid := pid) hN hthr htemp r c
  exact ⟨a, h0, ha⟩

/-! ### The weighted neighbourhood -/

/-- Dividing once after the blocked sum is dividing every entry before the sum. -/
theorem kerWn_eq_refWn (hN : ∀ r k, ∃ x : ℝ, N r k = (x : EReal)) (hthr : ∃ x : ℝ, thr = (x : EReal))
    (htemp : ∃ x : ℝ, temp = (x : EReal)) (r : Fin 8192) (k : Fin 256) :
    kerWn N pid thr temp r k = refWn N pid thr temp r k := by
  unfold kerWn kerWAcc refWn
  rw [kerRowSum_eq_refRowSum hN hthr htemp]
  have h1 : (∑ b : Fin 8, ∑ q : Fin 1024, kerAdj N pid thr temp r (col b q) * N (col b q) k)
      = ∑ c : Fin 8192, refAdj N pid thr temp r c * N c k := by
    rw [sum_8192_blocks (fun c => refAdj N pid thr temp r c * N c k)]
    exact Finset.sum_congr rfl fun b _ => Finset.sum_congr rfl fun q _ => by
      rw [kerAdj_eq_refAdj hN hthr htemp]; rfl
  rw [h1]
  obtain ⟨ρ, hρ, hR⟩ := refRowSum_pos (pid := pid) hN hthr htemp r
  refine div_sum_mul_of_real Finset.univ (fun c => refAdj N pid thr temp r c) (fun c => N c k) _ (fun c => ?_)
    (fun c => hN c k) ⟨ρ, hρ.ne', hR⟩
  obtain ⟨a, _, _, ha⟩ := refAdj_mem (pid := pid) hN hthr htemp r c
  exact ⟨a, ha⟩

/-! ### The dense layers and the result -/

variable {W1 : Fin 256 → Fin 256 → EReal} {b1 : Fin 256 → EReal} {W2 : Fin 256 → Fin 512 → EReal} {b2 : Fin 512 → EReal}

theorem kerH_eq_refH (hN : ∀ r k, ∃ x : ℝ, N r k = (x : EReal)) (hthr : ∃ x : ℝ, thr = (x : EReal))
    (htemp : ∃ x : ℝ, temp = (x : EReal)) (r : Fin 8192) (j : Fin 256) :
    kerH N pid thr temp W1 b1 r j = refH N pid thr temp W1 b1 r j := by
  unfold kerH refH
  have h : (∑ k : Fin 256, kerWn N pid thr temp r k * W1 k j) = ∑ k : Fin 256, refWn N pid thr temp r k * W1 k j :=
    Finset.sum_congr rfl fun k _ => by rw [kerWn_eq_refWn hN hthr htemp]
  rw [h]

theorem kerFilm_eq_refFilm (hN : ∀ r k, ∃ x : ℝ, N r k = (x : EReal)) (hthr : ∃ x : ℝ, thr = (x : EReal))
    (htemp : ∃ x : ℝ, temp = (x : EReal)) (r : Fin 8192) (j : Fin 512) :
    kerFilm N pid thr temp W1 b1 W2 b2 r j = refFilm N pid thr temp W1 b1 W2 b2 r j := by
  unfold kerFilm refFilm
  have h : (∑ k : Fin 256, kerH N pid thr temp W1 b1 r k * W2 k j)
      = ∑ k : Fin 256, refH N pid thr temp W1 b1 r k * W2 k j :=
    Finset.sum_congr rfl fun k _ => by rw [kerH_eq_refH hN hthr htemp]
  rw [h]

end

/-- The result in the blocked arrangement is the result in the plain arrangement, at every row and column, for a real
    node matrix, threshold and temperature (the weights and biases may be any extended reals). -/
theorem kerOut_eq_refOut (N : Fin 8192 → Fin 256 → EReal) (pid : Fin 8192 → BitVec 32) (thr temp : EReal)
    (W1 : Fin 256 → Fin 256 → EReal) (b1 : Fin 256 → EReal) (W2 : Fin 256 → Fin 512 → EReal) (b2 : Fin 512 → EReal)
    (hN : ∀ r k, ∃ x : ℝ, N r k = (x : EReal)) (hthr : ∃ x : ℝ, thr = (x : EReal))
    (htemp : ∃ x : ℝ, temp = (x : EReal)) (r : Fin 8192) (d : Fin 256) :
    kerOut N pid thr temp W1 b1 W2 b2 r d = refOut N pid thr temp W1 b1 W2 b2 r d := by
  unfold kerOut refOut
  rw [kerFilm_eq_refFilm hN hthr htemp, kerFilm_eq_refFilm hN hthr htemp, kerRowSum_eq_refRowSum hN hthr htemp]

end Cert.Fusion
-- ==== Proof.FinInputs.lean ====
/-
  From "every float input passes |x| < +∞" to "every float input entry is a real".
  The precondition is the conjunction, over the seven float arrays, of the and-reduction over all entries of the
  comparison |x| < +∞; on the extended reals |x| = max x (-x) is below +∞ exactly when x is neither infinity,
  that is, when x is a real.
-/
import proofs.«162713_j40484361732478_2_alg».proof.Pre_finite_inputs
import Idealize.ShloMosaic.Lib.ReduceAll
import Idealize.ShloMosaic.Lib.ValueIdx
import Idealize.ShloMosaic.PureOps.Ideal
import Idealize.ShloMosaic.PureOps.Ideal.Laws

namespace Cert.Fusion

open Idealize.ShloMosaic
open Cert.Pre_finite_inputs (S8192x256 S8192 S1 S256x256 S256 S256x512 S512 S_)

/-- The f32 pattern of +∞ denotes the top of the extended reals. -/
theorem ofBits_inf_f32 : Ideal.ofBits .f32 0x7F800000#32 = (⊤ : EReal) := by
  simp [Ideal.ofBits, Ideal.ieee]

/-- An extended real whose absolute value compares below +∞ is a real. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ r : ℝ, x = (r : EReal) := by
  rw [Ideal.cmpf_def, Ideal.hostAbsf_def, Ideal.absf_def, Ideal.ofBits_def, ofBits_inf_f32] at h
  induction x using EReal.rec with
  | bot => simp [Ideal.cmp] at h
  | top => simp [Ideal.cmp] at h
  | coe r => exact ⟨r, rfl⟩

instance : Subsingleton S_.Idx := ⟨fun a b => funext fun d => d.elim0⟩

/-- One array: if the and-reduction over all entries of |a| < +∞ is 1, every entry of `a` is a real. -/
theorem all_real_of_reduce {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1) :
    ∀ i, ∃ r : ℝ, a i = (r : EReal) := fun i =>
  real_of_abs_lt_inf (a i) (Host.reduce_andi_all _ _ hr hu ValueIdx.ix0 e i)

/-- The precondition decoded: if `finite_inputs` of the eight arrays is all ones, every entry of each of the seven
    float arrays is a real. -/
theorem finite_inputs_real [Cert.Pre_finite_inputs.Facts]
    (a0 : FVec Ideal S8192x256 .f32) (a1 : IVec S8192 32) (a2 : FVec Ideal S1 .f32) (a3 : FVec Ideal S1 .f32)
    (a4 : FVec Ideal S256x256 .f32) (a5 : FVec Ideal S256 .f32) (a6 : FVec Ideal S256x512 .f32)
    (a7 : FVec Ideal S512 .f32)
    (h : Cert.Pre_finite_inputs.fn (F := Ideal) a0 a1 a2 a3 a4 a5 a6 a7 = fun _ => 1#1) :
    (∀ i, ∃ x : ℝ, a0 i = (x : EReal)) ∧ (∀ i, ∃ x : ℝ, a2 i = (x : EReal)) ∧ (∀ i, ∃ x : ℝ, a3 i = (x : EReal))
      ∧ (∀ i, ∃ x : ℝ, a4 i = (x : EReal)) ∧ (∀ i, ∃ x : ℝ, a5 i = (x : EReal))
      ∧ (∀ i, ∃ x : ℝ, a6 i = (x : EReal)) ∧ (∀ i, ∃ x : ℝ, a7 i = (x : EReal)) := by
  have h0 := congrFun h ValueIdx.ix0
  dsimp only [Cert.Pre_finite_inputs.fn, Cert.Pre_finite_inputs.fn_part1, andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨all_real_of_reduce a0 _ _ _ e0, all_real_of_reduce a2 _ _ _ e2, all_real_of_reduce a3 _ _ _ e3,
    all_real_of_reduce a4 _ _ _ e4, all_real_of_reduce a5 _ _ _ e5, all_real_of_reduce a6 _ _ _ e6,
    all_real_of_reduce a7 _ _ _ e7⟩

end Cert.Fusion
-- ==== Proof.FinPre.lean ====
/-
  The precondition of the kernel program at the extended reals, decoded: on every device, every entry of each of
  the seven float argument arrays is a real.
-/
import proofs.«162713_j40484361732478_2_alg».proof.Defs
import proofs.«162713_j40484361732478_2_alg».proof.Proof.FinInputs

namespace Cert.Fusion

open Idealize.ShloMosaic Idealize.SL.Sem
open Cert.Pre_finite_inputs (S8192x256 S8192 S1 S256x256 S256 S256x512 S512 S_)

/-- From the precondition of the kernel program: the seven float arrays hold reals. -/
theorem pre_kernel_real [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ x : ℝ, (m ((c.tc : Thread Cert.KernelIdeal.nD Cert.KernelIdeal.τ).loc Cert.KernelIdeal.main_arg0) : FVec Ideal S8192x256 .f32) i = (x : EReal))
    ∧ (∀ i, ∃ x : ℝ, (m ((c.tc : Thread Cert.KernelIdeal.nD Cert.KernelIdeal.τ).loc Cert.KernelIdeal.main_arg2) : FVec Ideal S1 .f32) i = (x : EReal))
    ∧ (∀ i, ∃ x : ℝ, (m ((c.tc : Thread Cert.KernelIdeal.nD Cert.KernelIdeal.τ).loc Cert.KernelIdeal.main_arg3) : FVec Ideal S1 .f32) i = (x : EReal))
    ∧ (∀ i, ∃ x : ℝ, (m ((c.tc : Thread Cert.KernelIdeal.nD Cert.KernelIdeal.τ).loc Cert.KernelIdeal.main_arg4) : FVec Ideal S256x256 .f32) i = (x : EReal))
    ∧ (∀ i, ∃ x : ℝ, (m ((c.tc : Thread Cert.KernelIdeal.nD Cert.KernelIdeal.τ).loc Cert.KernelIdeal.main_arg5) : FVec Ideal S256 .f32) i = (x : EReal))
    ∧ (∀ i, ∃ x : ℝ, (m ((c.tc : Thread Cert.KernelIdeal.nD Cert.KernelIdeal.τ).loc Cert.KernelIdeal.main_arg6) : FVec Ideal S256x512 .f32) i = (x : EReal))
    ∧ (∀ i, ∃ x : ℝ, (m ((c.tc : Thread Cert.KernelIdeal.nD Cert.KernelIdeal.τ).loc Cert.KernelIdeal.main_arg7) : FVec Ideal S512 .f32) i = (x : EReal)) :=
  finite_inputs_real _ _ _ _ _ _ _ _ (hpre c)

end Cert.Fusion
-- ==== Proof.RefSim.lean ====
/-
  The reference's first stages read at an index: the sum of squares of a row, the row's divisor, the normalised
  row, and the matrix of inner products of normalised rows. Each lemma reads one stage of the generated module at an
  index built from coordinates and identifies it with the named piece of the specification.
-/
import proofs.«162713_j40484361732478_2_alg».proof.Proof.Gen.ReferenceIdeal.Read
import proofs.«162713_j40484361732478_2_alg».proof.Proof.RefSpec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The sum of squares of row `r`. -/
theorem sq_eq (x0 : (⟨S8192x256, .f32⟩ : BufTy).Contents (Elt Ideal)) (r : Fin 8192) :
    Read.val_main_call0_v1 (F := Ideal) x0 (ix1 r) = refSq (fun a b => x0 (ix2 a b)) r := by
  rw [Read.val_main_call0_v1_apply, Read.val_main_call0_cst_apply]
  simp only [Read.val_main_call0_v0_apply, Ideal.ofBits_def, Ideal.mulf_def, Ideal.ofBits_zero_f32, zero_add]
  unfold refSq
  refine Finset.sum_congr rfl fun k _ => ?_
  have e : Read.idx_main_call0_v1 (ix1 r) k = ix2 r k :=
    funext fun a => Fin.ext (by match a with | ⟨0, _⟩ => rfl | ⟨1, _⟩ => rfl)
  rw [e]

/-- The divisor of row `r` (the stage keeps a unit second axis). -/
theorem norm_eq (x0 : (⟨S8192x256, .f32⟩ : BufTy).Contents (Elt Ideal)) (r : Fin 8192) (z : Fin 1) :
    Read.val_main_v2 (F := Ideal) x0 (ix2 r z) = refNorm (fun a b => x0 (ix2 a b)) r := by
  have e : Read.idx_main_call0_v2 (ix2 r z) = ix1 r :=
    funext fun a => Fin.ext (by match a with | ⟨0, _⟩ => rfl)
  rw [Read.val_main_v2_apply, Read.val_main_v0_apply, Read.val_main_call0_v2_apply, e, sq_eq,
    Read.val_main_v1_apply, Read.val_main_cst_apply]
  simp only [Ideal.maximumf_def, Ideal.hostUnary_sqrt_def, Ideal.ofBits_def]
  rfl

/-- The normalised row. -/
theorem feat_eq (x0 : (⟨S8192x256, .f32⟩ : BufTy).Contents (Elt Ideal)) (r : Fin 8192) (k : Fin 256) :
    Read.val_main_v4 (F := Ideal) x0 (ix2 r k) = refFeat (fun a b => x0 (ix2 a b)) r k := by
  have e : Read.idx_main_v3 (ix2 r k) = ix2 r (⟨0, Nat.one_pos⟩ : Fin 1) :=
    funext fun a => Fin.ext (by match a with | ⟨0, _⟩ => rfl | ⟨1, _⟩ => rfl)
  rw [Read.val_main_v4_apply, Read.val_main_v3_apply, e, norm_eq]
  simp only [Ideal.hostDivf_def]
  rfl

/-- The inner product of the normalised rows `r` and `c`. -/
theorem sim_eq (x0 : (⟨S8192x256, .f32⟩ : BufTy).Contents (Elt Ideal)) (r c : Fin 8192) :
    Read.val_main_v6 (F := Ideal) x0 (ix2 r c) = refSim (fun a b => x0 (ix2 a b)) r c := by
  rw [Read.val_main_v6_apply]
  unfold refSim
  refine Finset.sum_congr rfl fun k _ => ?_
  have el : Read.lidx_main_v6 (ix2 r c) k = ix2 r k :=
    funext fun a => Fin.ext (by match a with | ⟨0, _⟩ => rfl | ⟨1, _⟩ => rfl)
  have er : Read.idx_main_v5 (Read.ridx_main_v6 (ix2 r c) k) = ix2 c k :=
    funext fun a => Fin.ext (by match a with | ⟨0, _⟩ => rfl | ⟨1, _⟩ => rfl)
  rw [Read.val_main_v5_apply, el, er, feat_eq, feat_eq]

end Cert.ReferenceIdeal.RefValue

end
-- ==== Proof.RefAdj.lean ====
/-
  The reference's middle stages read at an index: the clipped threshold, the argument of the logistic function, the
  logistic function as a quotient, the mask bit, the masked matrix, and its row sum plus the small constant.
-/
import proofs.«162713_j40484361732478_2_alg».proof.Proof.Gen.ReferenceIdeal.Read
import proofs.«162713_j40484361732478_2_alg».proof.Proof.RefSpec
import proofs.«162713_j40484361732478_2_alg».proof.Proof.RefSim

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The clipped threshold (a one-element array). -/
theorem th_eq (x2 : (⟨S1, .f32⟩ : BufTy).Contents (Elt Ideal)) (i : S1.Idx) :
    Read.val_main_v18 (F := Ideal) x2 i = refTh (x2 i) := by
  rw [Read.val_main_v18_apply, Read.val_main_call1_v4_apply, Read.val_main_call1_v3_apply, Read.val_main_cst_1_apply,
    Read.val_main_call1_v2_apply, Read.val_main_call1_v1_apply, Read.val_main_call1_v0_apply, Read.val_main_cst_0_apply]
  simp only [Ideal.minimumf_def, Ideal.maximumf_def, Ideal.ofBits_def, Ideal.ofBits_zero_f32]
  rfl

/-- The shifted, scaled inner product. -/
theorem logit_eq (x0 : (⟨S8192x256, .f32⟩ : BufTy).Contents (Elt Ideal)) (x2 x3 : (⟨S1, .f32⟩ : BufTy).Contents (Elt Ideal))
    (r c : Fin 8192) :
    Read.val_main_v24 (F := Ideal) x0 x2 x3 (ix2 r c)
      = refLogit (fun a b => x0 (ix2 a b)) (x2 (ix1 (0 : Fin 1))) (x3 (ix1 (0 : Fin 1))) r c := by
  have e2 : Read.idx_main_v19 (Read.idx_main_v20 (ix2 r c)) = ix1 (0 : Fin 1) :=
    funext fun a => Fin.ext (by match a with | ⟨0, _⟩ => rfl)
  have e3 : Read.idx_main_v22 (Read.idx_main_v23 (ix2 r c)) = ix1 (0 : Fin 1) :=
    funext fun a => Fin.ext (by match a with | ⟨0, _⟩ => rfl)
  rw [Read.val_main_v24_apply, Read.val_main_v21_apply, sim_eq, Read.val_main_v20_apply, Read.val_main_v19_apply, e2, th_eq,
    Read.val_main_v23_apply, Read.val_main_v22_apply, e3]
  simp only [Ideal.mulf_def, Ideal.subf_def]
  rfl

/-- The logistic function, written as the quotient of one by one plus the exponential of the negated argument. -/
theorem sig_eq (x0 : (⟨S8192x256, .f32⟩ : BufTy).Contents (Elt Ideal)) (x2 x3 : (⟨S1, .f32⟩ : BufTy).Contents (Elt Ideal))
    (r c : Fin 8192) :
    Read.val_main_v30 (F := Ideal) x0 x2 x3 (ix2 r c)
      = refSig (fun a b => x0 (ix2 a b)) (x2 (ix1 (0 : Fin 1))) (x3 (ix1 (0 : Fin 1))) r c := by
  rw [Read.val_main_v30_apply, Read.val_main_v29_apply, Read.val_main_cst_3_apply, Read.val_main_v28_apply,
    Read.val_main_v27_apply, Read.val_main_cst_2_apply, Read.val_main_v26_apply, Read.val_main_v25_apply, logit_eq]
  simp only [Ideal.hostDivf_def, Ideal.addf_def, Ideal.hostUnary_exp_def, Ideal.hostNegf_def, Ideal.negf_def, Ideal.ofBits_def]
  rfl

/-- The mask bit: equal identifiers, or the diagonal. -/
theorem mask_eq (x1 : (⟨S8192, .i32⟩ : BufTy).Contents (Elt Ideal)) (r c : Fin 8192) :
    Read.val_main_v17 (F := Ideal) x1 (ix2 r c) = refMask (fun a => x1 (ix1 a)) r c := by
  have er : Read.idx_main_v7 (Read.idx_main_v9 (ix2 r c)) = ix1 r :=
    funext fun a => Fin.ext (by match a with | ⟨0, _⟩ => rfl)
  have ec : Read.idx_main_v8 (Read.idx_main_v10 (ix2 r c)) = ix1 c :=
    funext fun a => Fin.ext (by match a with | ⟨0, _⟩ => rfl)
  rw [Read.val_main_v17_apply, Read.val_main_v11_apply, Read.val_main_v9_apply, Read.val_main_v7_apply, er,
    Read.val_main_v10_apply, Read.val_main_v8_apply, ec, Read.val_main_v16_apply, Read.val_main_v15_apply,
    Read.val_main_v12_apply, Read.val_main_v14_apply, Read.val_main_c_apply, Read.val_main_v13_apply]
  rfl

/-- The masked matrix. -/
theorem adj_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (r c : Fin 8192) :
    Read.val_main_v31 (F := Ideal) x0 x1 x2 x3 (ix2 r c)
      = refAdj (fun a b => x0 (ix2 a b)) (fun a => x1 (ix1 a)) (x2 (ix1 (0 : Fin 1))) (x3 (ix1 (0 : Fin 1))) r c := by
  rw [Read.val_main_v31_apply, mask_eq, Read.val_main_call2_v1_apply, Read.val_main_call2_v0_apply, Read.val_main_cst_4_apply,
    sig_eq]
  simp only [Ideal.ofBits_def, Ideal.ofBits_zero_f32]
  rfl

/-- The row sum plus the small constant (the stage keeps a unit second axis). -/
theorem rowSum_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (r : Fin 8192) (z : Fin 1) :
    Read.val_main_v35 (F := Ideal) x0 x1 x2 x3 (ix2 r z)
      = refRowSum (fun a b => x0 (ix2 a b)) (fun a => x1 (ix1 a)) (x2 (ix1 (0 : Fin 1))) (x3 (ix1 (0 : Fin 1))) r := by
  have e : Read.idx_main_v33 (ix2 r z) = ix1 r :=
    funext fun a => Fin.ext (by match a with | ⟨0, _⟩ => rfl)
  rw [Read.val_main_v35_apply, Read.val_main_v33_apply, e, Read.val_main_v32_apply, Read.val_main_cst_5_apply,
    Read.val_main_v34_apply, Read.val_main_cst_6_apply]
  simp only [Ideal.addf_def, Ideal.ofBits_def, Ideal.ofBits_zero_f32, zero_add]
  unfold refRowSum
  refine congrArg (· + _) (Finset.sum_congr rfl fun k _ => ?_)
  have ek : Read.idx_main_v32 (ix1 r) k = ix2 r k :=
    funext fun a => Fin.ext (by match a with | ⟨0, _⟩ => rfl | ⟨1, _⟩ => rfl)
  rw [ek, adj_eq]

end Cert.ReferenceIdeal.RefValue

end
-- ==== Proof.RefDense.lean ====
/-
  The reference's dense stages read at an index: the row-normalised matrix times the input (each entry divided by
  the row sum before the product), the first dense layer with its rectifier, and the second dense layer.
-/
import proofs.«162713_j40484361732478_2_alg».proof.Proof.Gen.ReferenceIdeal.Read
import proofs.«162713_j40484361732478_2_alg».proof.Proof.RefSpec
import proofs.«162713_j40484361732478_2_alg».proof.Proof.RefAdj

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The row-normalised matrix times the input. -/
theorem wn_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (r : Fin 8192) (k : Fin 256) :
    Read.val_main_v38 (F := Ideal) x0 x1 x2 x3 (ix2 r k)
      = refWn (fun a b => x0 (ix2 a b)) (fun a => x1 (ix1 a)) (x2 (ix1 (0 : Fin 1))) (x3 (ix1 (0 : Fin 1))) r k := by
  rw [Read.val_main_v38_apply]
  unfold refWn
  refine Finset.sum_congr rfl fun c _ => ?_
  have el : Read.lidx_main_v38 (ix2 r k) c = ix2 r c := funext fun a => Fin.ext (by match a with | ⟨0, _⟩ => rfl | ⟨1, _⟩ => rfl)
  have er : Read.ridx_main_v38 (ix2 r k) c = ix2 c k := funext fun a => Fin.ext (by match a with | ⟨0, _⟩ => rfl | ⟨1, _⟩ => rfl)
  have e36 : Read.idx_main_v36 (ix2 r c) = ix2 r (⟨0, Nat.one_pos⟩ : Fin 1) := funext fun a => Fin.ext (by match a with | ⟨0, _⟩ => rfl | ⟨1, _⟩ => rfl)
  rw [el, er, Read.val_main_v37_apply, adj_eq, Read.val_main_v36_apply, e36, rowSum_eq]
  simp only [Ideal.hostDivf_def]

/-- The first dense layer with its rectifier. -/
theorem h_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (x4 : (⟨S256x256, .f32⟩ : BufTy).Contents (Elt Ideal))
    (x5 : (⟨S256, .f32⟩ : BufTy).Contents (Elt Ideal)) (r : Fin 8192) (j : Fin 256) :
    Read.val_main_v43 (F := Ideal) x0 x1 x2 x3 x4 x5 (ix2 r j)
      = refH (fun a b => x0 (ix2 a b)) (fun a => x1 (ix1 a)) (x2 (ix1 (0 : Fin 1))) (x3 (ix1 (0 : Fin 1))) (fun a b => x4 (ix2 a b)) (fun a => x5 (ix1 a)) r j := by
  have e5 : Read.idx_main_v40 (Read.idx_main_v41 (ix2 r j)) = ix1 j := funext fun a => Fin.ext (by match a with | ⟨0, _⟩ => rfl)
  rw [Read.val_main_v43_apply, Read.val_main_v42_apply, Read.val_main_v39_apply, Read.val_main_v41_apply,
    Read.val_main_v40_apply, e5, Read.val_main_call3_v0_apply, Read.val_main_call3_cst_apply]
  simp only [Ideal.maximumf_def, Ideal.addf_def, Ideal.ofBits_def, Ideal.ofBits_zero_f32]
  unfold refH
  refine congrArg (max · _) (congrArg (· + _) (Finset.sum_congr rfl fun k _ => ?_))
  have el : Read.lidx_main_v39 (ix2 r j) k = ix2 r k := funext fun a => Fin.ext (by match a with | ⟨0, _⟩ => rfl | ⟨1, _⟩ => rfl)
  have er : Read.ridx_main_v39 (ix2 r j) k = ix2 k j := funext fun a => Fin.ext (by match a with | ⟨0, _⟩ => rfl | ⟨1, _⟩ => rfl)
  rw [el, er, wn_eq]

/-- The second dense layer. -/
theorem film_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (x4 : (⟨S256x256, .f32⟩ : BufTy).Contents (Elt Ideal))
    (x5 : (⟨S256, .f32⟩ : BufTy).Contents (Elt Ideal)) (x6 : (⟨S256x512, .f32⟩ : BufTy).Contents (Elt Ideal))
    (x7 : (⟨S512, .f32⟩ : BufTy).Contents (Elt Ideal)) (r : Fin 8192) (j : Fin 512) :
    Read.val_main_v47 (F := Ideal) x0 x1 x2 x3 x4 x5 x6 x7 (ix2 r j)
      = refFilm (fun a b => x0 (ix2 a b)) (fun a => x1 (ix1 a)) (x2 (ix1 (0 : Fin 1))) (x3 (ix1 (0 : Fin 1))) (fun a b => x4 (ix2 a b)) (fun a => x5 (ix1 a)) (fun a b => x6 (ix2 a b)) (fun a => x7 (ix1 a)) r j := by
  have e7 : Read.idx_main_v45 (Read.idx_main_v46 (ix2 r j)) = ix1 j := funext fun a => Fin.ext (by match a with | ⟨0, _⟩ => rfl)
  rw [Read.val_main_v47_apply, Read.val_main_v44_apply, Read.val_main_v46_apply, Read.val_main_v45_apply, e7]
  simp only [Ideal.addf_def]
  unfold refFilm
  refine congrArg (· + _) (Finset.sum_congr rfl fun k _ => ?_)
  have el : Read.lidx_main_v44 (ix2 r j) k = ix2 r k := funext fun a => Fin.ext (by match a with | ⟨0, _⟩ => rfl | ⟨1, _⟩ => rfl)
  have er : Read.ridx_main_v44 (ix2 r j) k = ix2 k j := funext fun a => Fin.ext (by match a with | ⟨0, _⟩ => rfl | ⟨1, _⟩ => rfl)
  rw [el, er, h_eq]

end Cert.ReferenceIdeal.RefValue

end
-- ==== Proof.RefOut.lean ====
/-
  The reference's result read at an index: the second layer's two halves scale and shift the input, the update is
  damped by the hyperbolic tangent of the row sum, and the input is added back.
-/
import proofs.«162713_j40484361732478_2_alg».proof.Proof.Gen.ReferenceIdeal.Read
import proofs.«162713_j40484361732478_2_alg».proof.Proof.RefSpec
import proofs.«162713_j40484361732478_2_alg».proof.Proof.RefDense

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- The damping factor: the hyperbolic tangent of the row sum, broadcast along the row. -/
theorem damp_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (r : Fin 8192) (d : Fin 256) :
    Read.val_main_v55 (F := Ideal) x0 x1 x2 x3 (ix2 r d)
      = Ideal.tanh (refRowSum (fun a b => x0 (ix2 a b)) (fun a => x1 (ix1 a)) (x2 (ix1 (0 : Fin 1))) (x3 (ix1 (0 : Fin 1))) r) := by
  have e : Read.idx_main_v55 (ix2 r d) = ix2 r (⟨0, Nat.one_pos⟩ : Fin 1) := funext fun a => Fin.ext (by match a with | ⟨0, _⟩ => rfl | ⟨1, _⟩ => rfl)
  rw [Read.val_main_v55_apply, e, Read.val_main_v54_apply, rowSum_eq]
  simp only [Ideal.hostUnary_tanh_def]

/-- The scaled and shifted input, before damping. -/
theorem mod_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (x4 : (⟨S256x256, .f32⟩ : BufTy).Contents (Elt Ideal))
    (x5 : (⟨S256, .f32⟩ : BufTy).Contents (Elt Ideal)) (x6 : (⟨S256x512, .f32⟩ : BufTy).Contents (Elt Ideal))
    (x7 : (⟨S512, .f32⟩ : BufTy).Contents (Elt Ideal)) (r : Fin 8192) (d : Fin 256) :
    Read.val_main_v53 (F := Ideal) x0 x1 x2 x3 x4 x5 x6 x7 (ix2 r d)
      = (Ideal.ofBits .f32 0x3F800000#32 + refFilm (fun a b => x0 (ix2 a b)) (fun a => x1 (ix1 a)) (x2 (ix1 (0 : Fin 1))) (x3 (ix1 (0 : Fin 1))) (fun a b => x4 (ix2 a b)) (fun a => x5 (ix1 a)) (fun a b => x6 (ix2 a b)) (fun a => x7 (ix1 a)) r (loCol d)) * x0 (ix2 r d)
        + refFilm (fun a b => x0 (ix2 a b)) (fun a => x1 (ix1 a)) (x2 (ix1 (0 : Fin 1))) (x3 (ix1 (0 : Fin 1))) (fun a b => x4 (ix2 a b)) (fun a => x5 (ix1 a)) (fun a b => x6 (ix2 a b)) (fun a => x7 (ix1 a)) r (hiCol d) := by
  have elo : Read.idx_main_v48 (ix2 r d) = ix2 r (loCol d) := funext fun a => Fin.ext (by match a with | ⟨0, _⟩ => rfl | ⟨1, _⟩ => rfl)
  have ehi : Read.idx_main_v49 (ix2 r d) = ix2 r (hiCol d) := funext fun a => Fin.ext (by match a with | ⟨0, _⟩ => rfl | ⟨1, _⟩ => rfl)
  rw [Read.val_main_v53_apply, Read.val_main_v52_apply, Read.val_main_v51_apply, Read.val_main_v50_apply,
    Read.val_main_cst_7_apply, Read.val_main_v48_apply, elo, film_eq, Read.val_main_v49_apply, ehi, film_eq]
  simp only [Ideal.addf_def, Ideal.mulf_def, Ideal.ofBits_def]

/-- The reference's result at row `r`, column `d`, is the specification's `refOut` of the arguments' coordinates. -/
theorem ref_apply (x0 : (⟨S8192x256, .f32⟩ : BufTy).Contents (Elt Ideal)) (x1 : (⟨S8192, .i32⟩ : BufTy).Contents (Elt Ideal))
    (x2 x3 : (⟨S1, .f32⟩ : BufTy).Contents (Elt Ideal)) (x4 : (⟨S256x256, .f32⟩ : BufTy).Contents (Elt Ideal))
    (x5 : (⟨S256, .f32⟩ : BufTy).Contents (Elt Ideal)) (x6 : (⟨S256x512, .f32⟩ : BufTy).Contents (Elt Ideal))
    (x7 : (⟨S512, .f32⟩ : BufTy).Contents (Elt Ideal)) (r : Fin 8192) (d : Fin 256) :
    Read.val_main_v57 (F := Ideal) x0 x1 x2 x3 x4 x5 x6 x7 (ix2 r d)
      = refOut (fun a b => x0 (ix2 a b)) (fun a => x1 (ix1 a)) (x2 (ix1 (0 : Fin 1))) (x3 (ix1 (0 : Fin 1))) (fun a b => x4 (ix2 a b)) (fun a => x5 (ix1 a)) (fun a b => x6 (ix2 a b)) (fun a => x7 (ix1 a)) r d := by
  rw [Read.val_main_v57_apply, Read.val_main_v56_apply, mod_eq, damp_eq]
  simp only [Ideal.addf_def, Ideal.mulf_def]
  rfl

/-- The same as one equation of arrays: the reference's result is `refOut` of each index's coordinates. -/
theorem ref_eq (x0 : (⟨S8192x256, .f32⟩ : BufTy).Contents (Elt Ideal)) (x1 : (⟨S8192, .i32⟩ : BufTy).Contents (Elt Ideal))
    (x2 x3 : (⟨S1, .f32⟩ : BufTy).Contents (Elt Ideal)) (x4 : (⟨S256x256, .f32⟩ : BufTy).Contents (Elt Ideal))
    (x5 : (⟨S256, .f32⟩ : BufTy).Contents (Elt Ideal)) (x6 : (⟨S256x512, .f32⟩ : BufTy).Contents (Elt Ideal))
    (x7 : (⟨S512, .f32⟩ : BufTy).Contents (Elt Ideal)) :
    Read.val_main_v57 (F := Ideal) x0 x1 x2 x3 x4 x5 x6 x7
      = fun i => refOut (fun a b => x0 (ix2 a b)) (fun a => x1 (ix1 a)) (x2 (ix1 (0 : Fin 1))) (x3 (ix1 (0 : Fin 1))) (fun a b => x4 (ix2 a b)) (fun a => x5 (ix1 a)) (fun a b => x6 (ix2 a b)) (fun a => x7 (ix1 a)) (i 0) (i 1) := by
  funext i
  obtain ⟨r, d, rfl⟩ : ∃ (r : Fin 8192) (d : Fin 256), i = ix2 r d := ⟨i 0, i 1, eq_ix2 i⟩
  exact ref_apply x0 x1 x2 x3 x4 x5 x6 x7 r d

end Cert.ReferenceIdeal.RefValue

end
-- ==== Proof.lean ====
/-
  The certificate of the fused neighbour-attention kernel against its reference.

  Both programs normalize the rows of the node features, form the masked logistic of the rows' similarities, and pass the
  similarity-weighted mean of the node features through two dense layers that scale and shift the features under a gate.
  The kernel computes this tile by tile over an 8 × 8 grid, accumulating each row's sum and weighted sum over the eight
  column tiles and dividing once at the last; it writes the logistic through the hyperbolic tangent. Over the extended reals,
  for finite inputs, every value in play is a real number, the two forms of the logistic agree, the sum over 8192 columns
  is the sum over the tiles of the sums inside them, and a real nonzero divisor passes through a finite sum: so the two
  results are equal index by index. The frames are the region's launch (the kernel, at both instances) and the host
  program's run (the reference).
-/
import proofs.«162713_j40484361732478_2_alg».proof.Defs
import proofs.«162713_j40484361732478_2_alg».proof.Proof.Gen.Kernel
import proofs.«162713_j40484361732478_2_alg».proof.Proof.Gen.KernelIdeal
import proofs.«162713_j40484361732478_2_alg».proof.Proof.Gen.ReferenceIdeal
import proofs.«162713_j40484361732478_2_alg».proof.Proof.Gen.ReferenceIdeal.Run
import proofs.«162713_j40484361732478_2_alg».proof.Proof.Gen.ReferenceIdeal.Read
import proofs.«162713_j40484361732478_2_alg».proof.Proof.Gen.Pre_finite_inputs
import proofs.«162713_j40484361732478_2_alg».proof.Proof.FrameLaunch
import proofs.«162713_j40484361732478_2_alg».proof.Proof.WFrameLaunch
import proofs.«162713_j40484361732478_2_alg».proof.Proof.FrameResult
import proofs.«162713_j40484361732478_2_alg».proof.Proof.KValue
import proofs.«162713_j40484361732478_2_alg».proof.Proof.AlgFinal
import proofs.«162713_j40484361732478_2_alg».proof.Proof.FinPre
import proofs.«162713_j40484361732478_2_alg».proof.Proof.RefOut
import Idealize.ShloMosaic.Adequacy
import Idealize.ShloMosaic.Init

noncomputable section

namespace Cert.Proof

open Idealize.ShloMosaic Idealize.SL.Sem

/-- The kernel as printed runs to the end and leaves its arguments unchanged. -/
theorem frame_k : @Cert.frame_Kernel Cert.Kernel.Gen.facts Cert.Pre_finite_inputs.Gen.facts :=
  fun m ρ _ => Cert.Kernel.Fr.frame (F := Bits) m ρ

/-- So does its idealization. -/
theorem frame_ki : @Cert.frame_KernelIdeal Cert.KernelIdeal.Gen.facts Cert.Pre_finite_inputs.Gen.facts :=
  fun m ρ _ => Cert.KernelIdeal.Fr.frame (F := Ideal) m ρ

/-- The reference is a host program: its run, with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- The idealized kernel and the idealized reference, from memories agreeing on the arguments, end with equal results:
    the kernel's result array is its closed form, the reference's result the reference's, and for finite inputs the two
    closed forms agree at every index. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (Cert.KernelIdeal.Fr.dats m 0 c).arrAt 12 Cert.KernelIdeal.cfg0.N, Cert.KernelIdeal.Fr.run_result (F := Ideal) m ρ, ?_⟩
  refine (θ_run Cert.ReferenceIdeal.defs _ _).mono (fun _ h c => ⟨(h c).1.trans ?_, (h c).2⟩) (Cert.ReferenceIdeal.Value.run (F := Ideal) m' ρ')
  have hr := @Cert.Fusion.pre_kernel_real Cert.Pre_finite_inputs.Gen.facts m hpre c
  rw [Cert.ReferenceIdeal.Read.val_main_v57_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  rw [Cert.ReferenceIdeal.RefValue.ref_eq]
  refine Eq.trans ?_ (Cert.KernelIdeal.Val.result_eq m c).symm
  funext i
  exact (Cert.Fusion.kerOut_eq_refOut _ _ _ _ _ _ _ _ (fun r k => hr.1 (ValueIdx.ix2 r k)) (hr.2.1 (ValueIdx.ix1 (0 : Fin 1))) (hr.2.2.1 (ValueIdx.ix1 (0 : Fin 1))) (i 0) (i 1)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
